-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)) (v1 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x32 : Shape := ⟨2, ![150000, 32]⟩
abbrev S2x2400000 : Shape := ⟨2, ![2, 2400000]⟩
abbrev S150000 : Shape := ⟨1, ![150000]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S150000x32 : S_.BroadcastsInDim S150000x32 (![] : Fin 0 → Fin S150000x32.rank)
  reducesTo_S150000x32_S_d0_1 : S150000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S64x128 .f32) (main_arg10 : FVec F S128 .f32) (main_arg11 : FVec F S128x128 .f32) (main_arg12 : FVec F S128 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S32 .f32) (main_arg7 : FVec F S32x64 .f32) (main_arg8 : FVec F S64 .f32) (main_arg9 : FVec F S64x128 .f32) (main_arg10 : FVec F S128 .f32) (main_arg11 : FVec F S128x128 .f32) (main_arg12 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S150000x32 .f32) (main_arg1 : IVec S2x2400000 32) (main_arg2 : IVec S150000 32) (main_arg3 : FVec F S32x32 .f32) (main_arg4 : FVec F S32 .f32) (main_arg5 : FVec F S32 .f32) (main_arg6 : FVec F S32 .f32) (main_arg7 : FVec F S32x64 .f32) (main_arg8 : FVec F S64 .f32) (main_arg9 : FVec F S64x128 .f32) (main_arg10 : FVec F S128 .f32) (main_arg11 : FVec F S128x128 .f32) (main_arg12 : FVec F S128 .f32) : IVec S_ 1 :=
  let main_v0 : FVec F S150000x32 .f32 := Host.absf main_arg0
  let main_cst : FVec F S_ .f32 := constant S_ .f32 0x7F800000#32
  let main_v1 : FVec F S150000x32 .f32 := broadcastInDim S150000x32 ![] bcast_S_S150000x32 main_cst
  let main_v2 : IVec S150000x32 1 := cmpf .olt main_v0 main_v1
  let main_c : IVec S_ 1 := constantI S_ 1 1#1
  let main_v3 : IVec S_ 1 := (fun x v => Host.reduce IntOp.andi x v reducesTo_S150000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_v13 main_v16
-- ==== Kernel.lean ====
abbrev S150000x32 : Shape := ⟨2, ![150000, 32]⟩
abbrev S2x2400000 : Shape := ⟨2, ![2, 2400000]⟩
abbrev S150000 : Shape := ⟨1, ![150000]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S6000x32 : Shape := ⟨2, ![6000, 32]⟩
abbrev S2550000x32 : Shape := ⟨2, ![2550000, 32]⟩
abbrev S1x32 : Shape := ⟨2, ![1, 32]⟩
abbrev S150000x64 : Shape := ⟨2, ![150000, 64]⟩
abbrev S6000x64 : Shape := ⟨2, ![6000, 64]⟩
abbrev S2550000x64 : Shape := ⟨2, ![2550000, 64]⟩
abbrev S1x64 : Shape := ⟨2, ![1, 64]⟩
abbrev S8192x64 : Shape := ⟨2, ![8192, 64]⟩
abbrev S150000x1 : Shape := ⟨2, ![150000, 1]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2048x64 : Shape := ⟨2, ![2048, 64]⟩
abbrev S2048x128 : Shape := ⟨2, ![2048, 128]⟩

abbrev nBuf : Space → Nat
  | .hbm => 137
  | .vmem => 30
  | .smem => 0
  | _ => 0

abbrev hbmTy0_0 (i : Nat) : BufTy := match i % 128 with
  | 0 => ⟨S150000x32, .f32⟩
  | 1 => ⟨S2x2400000, .i32⟩
  | 2 => ⟨S150000, .i32⟩
  | 3 => ⟨S32x32, .f32⟩
  | 4 => ⟨S32, .f32⟩
  | 5 => ⟨S32, .f32⟩
  | 6 => ⟨S32, .f32⟩
  | 7 => ⟨S32x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S150000, .i32⟩
  | 14 => ⟨S1x2400000, .i32⟩
  | 15 => ⟨S2400000, .i32⟩
  | 16 => ⟨S2550000, .i32⟩
  | 17 => ⟨S1x2400000, .i32⟩
  | 18 => ⟨S2400000, .i32⟩
  | 19 => ⟨S2550000, .i32⟩
  | 20 => ⟨S_, .f32⟩
  | 21 => ⟨S2550000, .f32⟩
  | 22 => ⟨S_, .f32⟩
  | 23 => ⟨S150000, .f32⟩
  | 24 => ⟨S2550000x1, .i32⟩
  | 25 => ⟨S150000, .f32⟩
  | 26 => ⟨S_, .f32⟩
  | 27 => ⟨S150000, .f32⟩
  | 28 => ⟨S150000, .i1⟩
  | 29 => ⟨S_, .f32⟩
  | 30 => ⟨S150000, .f32⟩
  | 31 => ⟨S150000, .f32⟩
  | 32 => ⟨S150000, .f32⟩
  | 33 => ⟨S_, .f32⟩
  | 34 => ⟨S_, .f32⟩
  | 35 => ⟨S150000, .f32⟩
  | 36 => ⟨S150000, .f32⟩
  | 37 => ⟨S150000x32, .f32⟩
  | 38 => ⟨S_, .i32⟩
  | 39 => ⟨S2550000, .i32⟩
  | 40 => ⟨S2550000, .i1⟩
  | 41 => ⟨S_, .i32⟩
  | 42 => ⟨S2550000, .i32⟩
  | 43 => ⟨S2550000, .i32⟩
  | 44 => ⟨S2550000, .i32⟩
  | 45 => ⟨S2550000x1, .i32⟩
  | 46 => ⟨S2550000, .f32⟩
  | 47 => ⟨S_, .i32⟩
  | 48 => ⟨S2550000, .i32⟩
  | 49 => ⟨S2550000, .i1⟩
  | 50 => ⟨S_, .i32⟩
  | 51 => ⟨S2550000, .i32⟩
  | 52 => ⟨S2550000, .i32⟩
  | 53 => ⟨S2550000, .i32⟩
  | 54 => ⟨S2550000x1, .i32⟩
  | 55 => ⟨S2550000, .f32⟩
  | 56 => ⟨S2550000, .f32⟩
  | 57 => ⟨S_, .i32⟩
  | 58 => ⟨S2550000, .i32⟩
  | 59 => ⟨S2550000, .i1⟩
  | 60 => ⟨S_, .i32⟩
  | 61 => ⟨S2550000, .i32⟩
  | 62 => ⟨S2550000, .i32⟩
  | 63 => ⟨S2550000, .i32⟩
  | 64 => ⟨S2550000x1, .i32⟩
  | 65 => ⟨S2550000x32, .f32⟩
  | 66 => ⟨S2550000x1, .f32⟩
  | 67 => ⟨S2550000x32, .f32⟩
  | 68 => ⟨S2550000x32, .f32⟩
  | 69 => ⟨S_, .f32⟩
  | 70 => ⟨S150000x32, .f32⟩
  | 71 => ⟨S2550000x1, .i32⟩
  | 72 => ⟨S150000x32, .f32⟩
  | 73 => ⟨S1x32, .f32⟩
  | 74 => ⟨S150000x32, .f32⟩
  | 75 => ⟨S150000x32, .f32⟩
  | 76 => ⟨S1x32, .f32⟩
  | 77 => ⟨S1x32, .f32⟩
  | 78 => ⟨S_, .f32⟩
  | 79 => ⟨S1x32, .f32⟩
  | 80 => ⟨S1x32, .f32⟩
  | 81 => ⟨S32, .f32⟩
  | 82 => ⟨S_, .f32⟩
  | 83 => ⟨S1x32, .f32⟩
  | 84 => ⟨S1x32, .f32⟩
  | 85 => ⟨S32, .f32⟩
  | 86 => ⟨S32, .f32⟩
  | 87 => ⟨S32, .f32⟩
  | 88 => ⟨S_, .f32⟩
  | 89 => ⟨S32, .f32⟩
  | 90 => ⟨S32, .f32⟩
  | 91 => ⟨S1x32, .f32⟩
  | 92 => ⟨S1x32, .f32⟩
  | 93 => ⟨S1x32, .f32⟩
  | 94 => ⟨S1x32, .f32⟩
  | 95 => ⟨S150000x32, .f32⟩
  | 96 => ⟨S150000x64, .f32⟩
  | 97 => ⟨S_, .i32⟩
  | 98 => ⟨S2550000, .i32⟩
  | 99 => ⟨S2550000, .i1⟩
  | 100 => ⟨S_, .i32⟩
  | 101 => ⟨S2550000, .i32⟩
  | 102 => ⟨S2550000, .i32⟩
  | 103 => ⟨S2550000, .i32⟩
  | 104 => ⟨S2550000x1, .i32⟩
  | 105 => ⟨S2550000x64, .f32⟩
  | 106 => ⟨S2550000x1, .f32⟩
  | 107 => ⟨S2550000x64, .f32⟩
  | 108 => ⟨S2550000x64, .f32⟩
  | 109 => ⟨S_, .f32⟩
  | 110 => ⟨S150000x64, .f32⟩
  | 111 => ⟨S2550000x1, .i32⟩
  | 112 => ⟨S150000x64, .f32⟩
  | 113 => ⟨S1x64, .f32⟩
  | 114 => ⟨S150000x64, .f32⟩
  | 115 => ⟨S150000x64, .f32⟩
  | 116 => ⟨S_, .f32⟩
  | 117 => ⟨S8192x64, .f32⟩
  | 118 => ⟨S150000x1, .i32⟩
  | 119 => ⟨S8192x64, .f32⟩
  | 120 => ⟨S_, .f32⟩
  | 121 => ⟨S150000, .f32⟩
  | 122 => ⟨S_, .f32⟩
  | 123 => ⟨S8192, .f32⟩
  | 124 => ⟨S150000x1, .i32⟩
  | 125 => ⟨S8192, .f32⟩
  | 126 => ⟨S_, .f32⟩
  | 127 => ⟨S8192, .f32⟩
  | _ => ⟨S150000x32, .f32⟩

abbrev hbmTy0_1 (i : Nat) : BufTy := match i % 128 with
  | 0 => ⟨S8192, .f32⟩
  | 1 => ⟨S8192x1, .f32⟩
  | 2 => ⟨S8192x64, .f32⟩
  | 3 => ⟨S8192x64, .f32⟩
  | 4 => ⟨S1x128, .f32⟩
  | 5 => ⟨S1x128, .f32⟩
  | 6 => ⟨S8192x128, .f32⟩
  | 7 => ⟨S8192x64, .f32⟩
  | 8 => ⟨S8192x64, .f32⟩
  | _ => ⟨S150000x32, .f32⟩

abbrev hbmTy (i : Nat) : BufTy := match i / 128 with
  | 0 => hbmTy0_0 i
  | 1 => hbmTy0_1 i
  | _ => ⟨S150000x32, .f32⟩

abbrev bufTy : (tb : Table) → Fin (tcTables nBuf tb) → BufTy
  | .hbm, ⟨i, _⟩ => hbmTy i
  | .local _ .vmem, ⟨0, _⟩ => ⟨S6000x32, .f32⟩
  | .local _ .vmem, ⟨1, _⟩ => ⟨S6000x32, .f32⟩
  | .local _ .vmem, ⟨2, _⟩ => ⟨S32x32, .f32⟩
  | .local _ .vmem, ⟨3, _⟩ => ⟨S6000x32, .f32⟩
  | .local _ .vmem, ⟨4, _⟩ => ⟨S6000x32, .f32⟩
  | .local _ .vmem, ⟨5, _⟩ => ⟨S6000x32, .f32⟩
  | .local _ .vmem, ⟨6, _⟩ => ⟨S6000x32, .f32⟩
  | .local _ .vmem, ⟨7, _⟩ => ⟨S1x32, .f32⟩
  | .local _ .vmem, ⟨8, _⟩ => ⟨S1x32, .f32⟩
  | .local _ .vmem, ⟨9, _⟩ => ⟨S6000x32, .f32⟩
  | .local _ .vmem, ⟨10, _⟩ => ⟨S6000x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S6000x32, .f32⟩
  | .local _ .vmem, ⟨16, _⟩ => ⟨S6000x32, .f32⟩
  | .local _ .vmem, ⟨17, _⟩ => ⟨S6000x32, .f32⟩
  | .local _ .vmem, ⟨18, _⟩ => ⟨S6000x32, .f32⟩
  | .local _ .vmem, ⟨19, _⟩ => ⟨S32x64, .f32⟩
  | .local _ .vmem, ⟨20, _⟩ => ⟨S6000x64, .f32⟩
  | .local _ .vmem, ⟨21, _⟩ => ⟨S6000x64, .f32⟩
  | .local _ .vmem, ⟨22, _⟩ => ⟨S2048x64, .f32⟩
  | .local _ .vmem, ⟨23, _⟩ => ⟨S2048x64, .f32⟩
  | .local _ .vmem, ⟨24, _⟩ => ⟨S64x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2048x128, .f32⟩
  | .local _ .vmem, ⟨29, _⟩ => ⟨S2048x128, .f32⟩
  | _, _ => ⟨S150000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49_0 : Ref sig .tc := ⟨.hbm, 76, rfl⟩
abbrev main_v49_1 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_16 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_17 : Ref sig .tc := ⟨.hbm, 120, rfl⟩
abbrev main_v85 : Ref sig .tc := ⟨.hbm, 121, rfl⟩
abbrev main_cst_18 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_19 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S6000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  inb_S6000x32_S6000x32_0_0 : ∀ a, (![0, 0] : Fin 2 → Nat) a + S6000x32.size a ≤ S6000x32.size a
  h_S6000x32 : 0 < S6000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  inb_S1x32_S1x32_0_0 : ∀ a, (![0, 0] : Fin 2 → Nat) a + S1x32.size a ≤ S1x32.size a
  h_S1x32 : 0 < S1x32.numel
  shapeCasts_S6000x32_S6000x32 : S6000x32.ShapeCasts S6000x32
  shapeCasts_S1x32_S1x32 : S1x32.ShapeCasts S1x32
  reduces_S6000x32_S32 : S6000x32.Reduces [0] S32
  shapeCasts_S32_S1x32 : S32.ShapeCasts S1x32
  bcast_S_S1x32 : S_.BroadcastsInDim S1x32 (![] : Fin 0 → Fin S1x32.rank)
  shapeCasts_S1x32_S32 : S1x32.ShapeCasts S32
  bcast_S_S32 : S_.BroadcastsInDim S32 (![] : Fin 0 → Fin S32.rank)
  broadcasts_S1x32_S6000x32 : S1x32.Broadcasts S6000x32
  inb_S32x64_S32x64_0_0 : ∀ a, (![0, 0] : Fin 2 → Nat) a + S32x64.size a ≤ S32x64.size a
  h_S32x64 : 0 < S32x64.numel
  inb_S6000x64_S6000x64_0_0 : ∀ a, (![0, 0] : Fin 2 → Nat) a + S6000x64.size a ≤ S6000x64.size a
  h_S6000x64 : 0 < S6000x64.numel
  bcast_S2550000x1_S2550000x64_0_1 : S2550000x1.BroadcastsInDim S2550000x64 (![0, 1] : Fin 2 → Fin S2550000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S8192x64 : S_.BroadcastsInDim S8192x64 (![] : Fin 0 → Fin S8192x64.rank)
  bcast_S150000_S150000x1_0 : S150000.BroadcastsInDim S150000x1 (![0] : Fin 1 → Fin S150000x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  shapeCasts_S128_S1x128 : S128.ShapeCasts S1x128
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  slices_S8192x128_S8192x64_0_0 : S8192x128.Slices ![0, 0] S8192x64
  slices_S8192x128_S8192x64_0_64 : S8192x128.Slices ![0, 64] S8192x64
  scatter_S150000_S2550000x1_S2550000_n_0_0_1_wf : ScatterDims.WF S150000 S2550000x1 S2550000 [] [0] [0] 1
  dot_S6000x32_S32x32_S6000x32_1_0_0_1_n_n_wf : DotDims.WF S6000x32 S32x32 S6000x32 [1] [0] [0] [1] [] []
  gather_S150000_S2550000x1_S2550000_n_0_n_n_0_1_1_wf : GatherDims.WF S150000 S2550000x1 S2550000 [] [0] [] [0] [] 1 ![1]
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S6000x32_S32x64_S6000x64_1_0_0_1_n_n_wf : DotDims.WF S6000x32 S32x64 S6000x64 [1] [0] [0] [1] [] []
  gather_S150000x64_S2550000x1_S2550000x64_1_0_n_n_0_1_164_wf : GatherDims.WF S150000x64 S2550000x1 S2550000x64 [1] [0] [] [0] [] 1 ![1, 64]
  scatter_S150000x64_S2550000x1_S2550000x64_1_0_0_1_wf : ScatterDims.WF S150000x64 S2550000x1 S2550000x64 [1] [0] [0] 1
  scatter_S8192x64_S150000x1_S150000x64_1_0_0_1_wf : ScatterDims.WF S8192x64 S150000x1 S150000x64 [1] [0] [0] 1
  scatter_S8192_S150000x1_S150000_n_0_0_1_wf : ScatterDims.WF S8192 S150000x1 S150000 [] [0] [0] 1
  dot_S2048x64_S64x128_S2048x128_1_0_0_1_n_n_wf : DotDims.WF S2048x64 S64x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x32.size a ≤ S150000x32.size a
  hwx0_0 : ∀ i : grid0.Coords, EltTy.bits .f32 = 32 ∨ (Rect.block (s := S150000x32) S6000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x32.size a ≤ S150000x32.size a
  hwx0_2 : ∀ i : grid0.Coords, EltTy.bits .f32 = 32 ∨ (Rect.block (s := S150000x32) S6000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x32.size a ≤ S150000x32.size a
  hwx1_0 : ∀ i : grid1.Coords, EltTy.bits .f32 = 32 ∨ (Rect.block (s := S150000x32) S6000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S150000x32.size a
  hwx2_0 : ∀ i : grid2.Coords, EltTy.bits .f32 = 32 ∨ (Rect.block (s := S150000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x32.size a ≤ S150000x32.size a
  hwx2_5 : ∀ i : grid2.Coords, EltTy.bits .f32 = 32 ∨ (Rect.block (s := S150000x32) S6000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x32.size a ≤ S150000x32.size a
  hwx3_0 : ∀ i : grid3.Coords, EltTy.bits .f32 = 32 ∨ (Rect.block (s := S150000x32) S6000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S150000x64.size a
  hwx3_2 : ∀ i : grid3.Coords, EltTy.bits .f32 = 32 ∨ (Rect.block (s := S150000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S8192x64.size a
  hwx4_0 : ∀ i : grid4.Coords, EltTy.bits .f32 = 32 ∨ (Rect.block (s := S8192x64) S2048x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x128.size a ≤ S8192x128.size a
  hwx4_5 : ∀ i : grid4.Coords, EltTy.bits .f32 = 32 ∨ (Rect.block (s := S8192x128) S2048x128.size (cc4_transform_5 i) (hinb4_5 i)).WholeWords (EltTy.packing .f32)

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def dot_S6000x32_S32x32_S6000x32_1_0_0_1_n_n : DotDims S6000x32 S32x32 S6000x32 where
  lhsContracting := [1]
  rhsContracting := [0]
  lhsNonContracting := [0]
  rhsNonContracting := [1]
  lhsBatch := []
  rhsBatch := []
  wf := dot_S6000x32_S32x32_S6000x32_1_0_0_1_n_n_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S6000x32_S32x64_S6000x64_1_0_0_1_n_n : DotDims S6000x32 S32x64 S6000x64 where
  lhsContracting := [1]
  rhsContracting := [0]
  lhsNonContracting := [0]
  rhsNonContracting := [1]
  lhsBatch := []
  rhsBatch := []
  wf := dot_S6000x32_S32x64_S6000x64_1_0_0_1_n_n_wf
def gather_S150000x64_S2550000x1_S2550000x64_1_0_n_n_0_1_164 : GatherDims S150000x64 S2550000x1 S2550000x64 where
  offsetDims := [1]
  collapsedSliceDims := [0]
  operandBatchingDims := []
  startIndicesBatchingDims := []
  startIndexMap := [0]
  indexVectorDim := 1
  sliceSizes := ![1, 64]
  wf := gather_S150000x64_S2550000x1_S2550000x64_1_0_n_n_0_1_164_wf
def scatter_S150000x64_S2550000x1_S2550000x64_1_0_0_1 : ScatterDims S150000x64 S2550000x1 S2550000x64 where
  updateWindowDims := [1]
  insertedWindowDims := [0]
  scatterDimsToOperandDims := [0]
  indexVectorDim := 1
  wf := scatter_S150000x64_S2550000x1_S2550000x64_1_0_0_1_wf
def scatter_S8192x64_S150000x1_S150000x64_1_0_0_1 : ScatterDims S8192x64 S150000x1 S150000x64 where
  updateWindowDims := [1]
  insertedWindowDims := [0]
  scatterDimsToOperandDims := [0]
  indexVectorDim := 1
  wf := scatter_S8192x64_S150000x1_S150000x64_1_0_0_1_wf
def scatter_S8192_S150000x1_S150000_n_0_0_1 : ScatterDims S8192 S150000x1 S150000 where
  updateWindowDims := []
  insertedWindowDims := [0]
  scatterDimsToOperandDims := [0]
  indexVectorDim := 1
  wf := scatter_S8192_S150000x1_S150000_n_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S6000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S6000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S6000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x32.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S6000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v64) S6000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S2048x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S150000x32 : Shape := ⟨2, ![150000, 32]⟩
abbrev S2x2400000 : Shape := ⟨2, ![2, 2400000]⟩
abbrev S150000 : Shape := ⟨1, ![150000]⟩
abbrev S32x32 : Shape := ⟨2, ![32, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S2550000x32 : Shape := ⟨2, ![2550000, 32]⟩
abbrev S1x32 : Shape := ⟨2, ![1, 32]⟩
abbrev S150000x64 : Shape := ⟨2, ![150000, 64]⟩
abbrev S2550000x64 : Shape := ⟨2, ![2550000, 64]⟩
abbrev S1x64 : Shape := ⟨2, ![1, 64]⟩
abbrev S8192x64 : Shape := ⟨2, ![8192, 64]⟩
abbrev S150000x1 : Shape := ⟨2, ![150000, 1]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 177
  | .vmem => 0
  | .smem => 0
  | _ => 0

abbrev hbmTy0_0 (i : Nat) : BufTy := match i % 128 with
  | 0 => ⟨S150000x32, .f32⟩
  | 1 => ⟨S2x2400000, .i32⟩
  | 2 => ⟨S150000, .i32⟩
  | 3 => ⟨S32x32, .f32⟩
  | 4 => ⟨S32, .f32⟩
  | 5 => ⟨S32, .f32⟩
  | 6 => ⟨S32, .f32⟩
  | 7 => ⟨S32x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S150000, .i32⟩
  | 14 => ⟨S1x2400000, .i32⟩
  | 15 => ⟨S2400000, .i32⟩
  | 16 => ⟨S2550000, .i32⟩
  | 17 => ⟨S1x2400000, .i32⟩
  | 18 => ⟨S2400000, .i32⟩
  | 19 => ⟨S2550000, .i32⟩
  | 20 => ⟨S_, .f32⟩
  | 21 => ⟨S2550000, .f32⟩
  | 22 => ⟨S_, .f32⟩
  | 23 => ⟨S150000, .f32⟩
  | 24 => ⟨S2550000x1, .i32⟩
  | 25 => ⟨S150000, .f32⟩
  | 26 => ⟨S_, .f32⟩
  | 27 => ⟨S150000, .f32⟩
  | 28 => ⟨S150000, .i1⟩
  | 29 => ⟨S_, .f32⟩
  | 30 => ⟨S150000, .f32⟩
  | 31 => ⟨S150000, .f32⟩
  | 32 => ⟨S150000, .f32⟩
  | 33 => ⟨S_, .f32⟩
  | 34 => ⟨S_, .f32⟩
  | 35 => ⟨S150000, .f32⟩
  | 36 => ⟨S150000, .f32⟩
  | 37 => ⟨S150000x32, .f32⟩
  | 38 => ⟨S_, .i32⟩
  | 39 => ⟨S2550000, .i32⟩
  | 40 => ⟨S2550000, .i1⟩
  | 41 => ⟨S_, .i32⟩
  | 42 => ⟨S2550000, .i32⟩
  | 43 => ⟨S2550000, .i32⟩
  | 44 => ⟨S2550000, .i32⟩
  | 45 => ⟨S2550000x1, .i32⟩
  | 46 => ⟨S2550000, .f32⟩
  | 47 => ⟨S_, .i32⟩
  | 48 => ⟨S2550000, .i32⟩
  | 49 => ⟨S2550000, .i1⟩
  | 50 => ⟨S_, .i32⟩
  | 51 => ⟨S2550000, .i32⟩
  | 52 => ⟨S2550000, .i32⟩
  | 53 => ⟨S2550000, .i32⟩
  | 54 => ⟨S2550000x1, .i32⟩
  | 55 => ⟨S2550000, .f32⟩
  | 56 => ⟨S2550000, .f32⟩
  | 57 => ⟨S_, .i32⟩
  | 58 => ⟨S2550000, .i32⟩
  | 59 => ⟨S2550000, .i1⟩
  | 60 => ⟨S_, .i32⟩
  | 61 => ⟨S2550000, .i32⟩
  | 62 => ⟨S2550000, .i32⟩
  | 63 => ⟨S2550000, .i32⟩
  | 64 => ⟨S2550000x1, .i32⟩
  | 65 => ⟨S2550000x32, .f32⟩
  | 66 => ⟨S2550000x1, .f32⟩
  | 67 => ⟨S2550000x32, .f32⟩
  | 68 => ⟨S2550000x32, .f32⟩
  | 69 => ⟨S_, .f32⟩
  | 70 => ⟨S150000x32, .f32⟩
  | 71 => ⟨S2550000x1, .i32⟩
  | 72 => ⟨S150000x32, .f32⟩
  | 73 => ⟨S1x32, .f32⟩
  | 74 => ⟨S150000x32, .f32⟩
  | 75 => ⟨S150000x32, .f32⟩
  | 76 => ⟨S_, .f32⟩
  | 77 => ⟨S32, .f32⟩
  | 78 => ⟨S_, .f32⟩
  | 79 => ⟨S32, .f32⟩
  | 80 => ⟨S32, .f32⟩
  | 81 => ⟨S1x32, .f32⟩
  | 82 => ⟨S150000x32, .f32⟩
  | 83 => ⟨S150000x32, .f32⟩
  | 84 => ⟨S150000x32, .f32⟩
  | 85 => ⟨S_, .f32⟩
  | 86 => ⟨S32, .f32⟩
  | 87 => ⟨S_, .f32⟩
  | 88 => ⟨S32, .f32⟩
  | 89 => ⟨S32, .f32⟩
  | 90 => ⟨S1x32, .f32⟩
  | 91 => ⟨S150000x32, .f32⟩
  | 92 => ⟨S150000x32, .f32⟩
  | 93 => ⟨S_, .f32⟩
  | 94 => ⟨S32, .f32⟩
  | 95 => ⟨S32, .f32⟩
  | 96 => ⟨S32, .f32⟩
  | 97 => ⟨S1x32, .f32⟩
  | 98 => ⟨S150000x32, .f32⟩
  | 99 => ⟨S150000x32, .f32⟩
  | 100 => ⟨S1x32, .f32⟩
  | 101 => ⟨S150000x32, .f32⟩
  | 102 => ⟨S150000x32, .f32⟩
  | 103 => ⟨S1x32, .f32⟩
  | 104 => ⟨S150000x32, .f32⟩
  | 105 => ⟨S150000x32, .f32⟩
  | 106 => ⟨S_, .f32⟩
  | 107 => ⟨S150000x32, .f32⟩
  | 108 => ⟨S150000x32, .f32⟩
  | 109 => ⟨S150000x64, .f32⟩
  | 110 => ⟨S_, .i32⟩
  | 111 => ⟨S2550000, .i32⟩
  | 112 => ⟨S2550000, .i1⟩
  | 113 => ⟨S_, .i32⟩
  | 114 => ⟨S2550000, .i32⟩
  | 115 => ⟨S2550000, .i32⟩
  | 116 => ⟨S2550000, .i32⟩
  | 117 => ⟨S2550000x1, .i32⟩
  | 118 => ⟨S2550000, .f32⟩
  | 119 => ⟨S_, .i32⟩
  | 120 => ⟨S2550000, .i32⟩
  | 121 => ⟨S2550000, .i1⟩
  | 122 => ⟨S_, .i32⟩
  | 123 => ⟨S2550000, .i32⟩
  | 124 => ⟨S2550000, .i32⟩
  | 125 => ⟨S2550000, .i32⟩
  | 126 => ⟨S2550000x1, .i32⟩
  | 127 => ⟨S2550000, .f32⟩
  | _ => ⟨S150000x32, .f32⟩

abbrev hbmTy0_1 (i : Nat) : BufTy := match i % 128 with
  | 0 => ⟨S2550000, .f32⟩
  | 1 => ⟨S_, .i32⟩
  | 2 => ⟨S2550000, .i32⟩
  | 3 => ⟨S2550000, .i1⟩
  | 4 => ⟨S_, .i32⟩
  | 5 => ⟨S2550000, .i32⟩
  | 6 => ⟨S2550000, .i32⟩
  | 7 => ⟨S2550000, .i32⟩
  | 8 => ⟨S2550000x1, .i32⟩
  | 9 => ⟨S2550000x64, .f32⟩
  | 10 => ⟨S2550000x1, .f32⟩
  | 11 => ⟨S2550000x64, .f32⟩
  | 12 => ⟨S2550000x64, .f32⟩
  | 13 => ⟨S_, .f32⟩
  | 14 => ⟨S150000x64, .f32⟩
  | 15 => ⟨S2550000x1, .i32⟩
  | 16 => ⟨S150000x64, .f32⟩
  | 17 => ⟨S1x64, .f32⟩
  | 18 => ⟨S150000x64, .f32⟩
  | 19 => ⟨S150000x64, .f32⟩
  | 20 => ⟨S_, .f32⟩
  | 21 => ⟨S8192x64, .f32⟩
  | 22 => ⟨S150000x1, .i32⟩
  | 23 => ⟨S8192x64, .f32⟩
  | 24 => ⟨S_, .f32⟩
  | 25 => ⟨S150000, .f32⟩
  | 26 => ⟨S_, .f32⟩
  | 27 => ⟨S8192, .f32⟩
  | 28 => ⟨S150000x1, .i32⟩
  | 29 => ⟨S8192, .f32⟩
  | 30 => ⟨S_, .f32⟩
  | 31 => ⟨S8192, .f32⟩
  | 32 => ⟨S8192, .f32⟩
  | 33 => ⟨S8192x1, .f32⟩
  | 34 => ⟨S8192x64, .f32⟩
  | 35 => ⟨S8192x64, .f32⟩
  | 36 => ⟨S8192x128, .f32⟩
  | 37 => ⟨S1x128, .f32⟩
  | 38 => ⟨S8192x128, .f32⟩
  | 39 => ⟨S8192x128, .f32⟩
  | 40 => ⟨S_, .f32⟩
  | 41 => ⟨S8192x128, .f32⟩
  | 42 => ⟨S8192x128, .f32⟩
  | 43 => ⟨S8192x128, .f32⟩
  | 44 => ⟨S1x128, .f32⟩
  | 45 => ⟨S8192x128, .f32⟩
  | 46 => ⟨S8192x128, .f32⟩
  | 47 => ⟨S8192x64, .f32⟩
  | 48 => ⟨S8192x64, .f32⟩
  | _ => ⟨S150000x32, .f32⟩

abbrev hbmTy (i : Nat) : BufTy := match i / 128 with
  | 0 => hbmTy0_0 i
  | 1 => hbmTy0_1 i
  | _ => ⟨S150000x32, .f32⟩

abbrev bufTy : (tb : Table) → Fin (tcTables nBuf tb) → BufTy
  | .hbm, ⟨i, _⟩ => hbmTy i
  | _, _ => ⟨S150000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_cst_11 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_cst : Ref sig .tc := ⟨.hbm, 106, rfl⟩
abbrev main_call1_v0 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_17 : Ref sig .tc := ⟨.hbm, 119, rfl⟩
abbrev main_v83 : Ref sig .tc := ⟨.hbm, 120, rfl⟩
abbrev main_v84 : Ref sig .tc := ⟨.hbm, 121, rfl⟩
abbrev main_c_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_23 : Ref sig .tc := ⟨.hbm, 152, rfl⟩
abbrev main_v110 : Ref sig .tc := ⟨.hbm, 153, rfl⟩
abbrev main_cst_24 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_25 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_call2_cst : Ref sig .tc := ⟨.hbm, 168, rfl⟩
abbrev main_call2_v0 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  reducesTo_S150000x32_S32_d0 : S150000x32.ReducesTo [0] S32
  h_S_ : 0 < S_.numel
  bcast_S_S32 : S_.BroadcastsInDim S32 (![] : Fin 0 → Fin S32.rank)
  bcast_S2550000x1_S2550000x64_0_1 : S2550000x1.BroadcastsInDim S2550000x64 (![0, 1] : Fin 2 → Fin S2550000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  bcast_S_S8192x64 : S_.BroadcastsInDim S8192x64 (![] : Fin 0 → Fin S8192x64.rank)
  bcast_S150000_S150000x1_0 : S150000.BroadcastsInDim S150000x1 (![0] : Fin 1 → Fin S150000x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  slices_S8192x128_S8192x64_0_0 : S8192x128.Slices ![0, 0] S8192x64
  slices_S8192x128_S8192x64_0_64 : S8192x128.Slices ![0, 64] S8192x64
  scatter_S150000_S2550000x1_S2550000_n_0_0_1_wf : ScatterDims.WF S150000 S2550000x1 S2550000 [] [0] [0] 1
  dot_S150000x32_S32x32_S150000x32_1_0_0_1_n_n_wf : DotDims.WF S150000x32 S32x32 S150000x32 [1] [0] [0] [1] [] []
  gather_S150000_S2550000x1_S2550000_n_0_n_n_0_1_1_wf : GatherDims.WF S150000 S2550000x1 S2550000 [] [0] [] [0] [] 1 ![1]
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S150000x32_S32x64_S150000x64_1_0_0_1_n_n_wf : DotDims.WF S150000x32 S32x64 S150000x64 [1] [0] [0] [1] [] []
  gather_S150000x64_S2550000x1_S2550000x64_1_0_n_n_0_1_164_wf : GatherDims.WF S150000x64 S2550000x1 S2550000x64 [1] [0] [] [0] [] 1 ![1, 64]
  scatter_S150000x64_S2550000x1_S2550000x64_1_0_0_1_wf : ScatterDims.WF S150000x64 S2550000x1 S2550000x64 [1] [0] [0] 1
  scatter_S8192x64_S150000x1_S150000x64_1_0_0_1_wf : ScatterDims.WF S8192x64 S150000x1 S150000x64 [1] [0] [0] 1
  scatter_S8192_S150000x1_S150000_n_0_0_1_wf : ScatterDims.WF S8192 S150000x1 S150000 [] [0] [0] 1
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S150000x32_S32x64_S150000x64_1_0_0_1_n_n : DotDims S150000x32 S32x64 S150000x64 where
  lhsContracting := [1]
  rhsContracting := [0]
  lhsNonContracting := [0]
  rhsNonContracting := [1]
  lhsBatch := []
  rhsBatch := []
  wf := dot_S150000x32_S32x64_S150000x64_1_0_0_1_n_n_wf
def gather_S150000x64_S2550000x1_S2550000x64_1_0_n_n_0_1_164 : GatherDims S150000x64 S2550000x1 S2550000x64 where
  offsetDims := [1]
  collapsedSliceDims := [0]
  operandBatchingDims := []
  startIndicesBatchingDims := []
  startIndexMap := [0]
  indexVectorDim := 1
  sliceSizes := ![1, 64]
  wf := gather_S150000x64_S2550000x1_S2550000x64_1_0_n_n_0_1_164_wf
def scatter_S150000x64_S2550000x1_S2550000x64_1_0_0_1 : ScatterDims S150000x64 S2550000x1 S2550000x64 where
  updateWindowDims := [1]
  insertedWindowDims := [0]
  scatterDimsToOperandDims := [0]
  indexVectorDim := 1
  wf := scatter_S150000x64_S2550000x1_S2550000x64_1_0_0_1_wf
def scatter_S8192x64_S150000x1_S150000x64_1_0_0_1 : ScatterDims S8192x64 S150000x1 S150000x64 where
  updateWindowDims := [1]
  insertedWindowDims := [0]
  scatterDimsToOperandDims := [0]
  indexVectorDim := 1
  wf := scatter_S8192x64_S150000x1_S150000x64_1_0_0_1_wf
def scatter_S8192_S150000x1_S150000_n_0_0_1 : ScatterDims S8192 S150000x1 S150000 where
  updateWindowDims := []
  insertedWindowDims := [0]
  scatterDimsToOperandDims := [0]
  indexVectorDim := 1
  wf := scatter_S8192_S150000x1_S150000_n_0_0_1_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelRun.lean ====
/-
  The idealized kernel program's run with its two results named.

  The program is five kernel regions among stretches of host operations. Its generated frame proof follows the
  buffer contents through the program as a fold `W0, W1, …, W11` from the launch memory: a host stretch applies
  its operations, a region replaces its arrays by what its write-backs leave. That proof concludes only that the
  argument arrays end as launched; the same argument, read at the two result buffers as well, says that every
  weakly fair execution ends with each result holding the last boundary's contents `W11` at that buffer.
-/
import proofs.«160986_j12446815224230_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, each result buffer ending at the last
    boundary's contents and each argument array as launched. -/
theorem run : θ_run defs (onTc (τ := τ) (main (F := F))) ⟨m, fun _ => 0, ρ⟩ (fun r => ∀ c : Dev nD,
      r.2.mem ((c.tc : Thread nD τ).loc main_v97) = W11 m ρ c (Proc.devRef .tc main_v97)
      ∧ r.2.mem ((c.tc : Thread nD τ).loc main_v98) = W11 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v97 (by decide)),
       h c _ (mem_uc main_v98 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c)⟩)

end Cert.KernelIdeal.KRun

end
-- ==== Proof.LibAfterCat.lean ====
/-
  Reading a line of host operations that contains a two-piece concatenation.

  A concatenation of two arrays is printed over a list of (shape, array) pairs. A rewriting pass that reads a line
  of host operations one result at a time cannot rewrite inside such a pair, so it stops at the pieces. Naming the
  two-piece concatenation as a function of its two pieces lets the pass go on: the pieces become plain arguments.
-/
import Idealize.ShloMosaic.Lib.StableHlo.Run

noncomputable section

namespace Cert.AfterCat

open Idealize.ShloMosaic Idealize.ShloMosaic.StableHlo

/-- The concatenation of two arrays along an axis, as a function of the two arrays. -/
def cat2 {α : Type} (t : Shape) (ax : Fin t.rank) (s1 s2 : Shape) (h : Shape.Concatenates [s1, s2] t ax)
    (a : s1.Idx → α) (b : s2.Idx → α) : t.Idx → α :=
  concatenate t ax [⟨s1, a⟩, ⟨s2, b⟩] h

theorem cat2_eq {α : Type} (t : Shape) (ax : Fin t.rank) (s1 s2 : Shape) (h : Shape.Concatenates [s1, s2] t ax)
    (a : s1.Idx → α) (b : s2.Idx → α) :
    concatenate t ax [⟨s1, a⟩, ⟨s2, b⟩] h = cat2 t ax s1 s2 h a b := rfl

/-- One pass reading every operation's result, two-piece concatenations named on the way. -/
macro "after_results_cat" : tactic =>
  `(tactic| (simp (disch := decide) only [Cert.AfterCat.cat2_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.AfterCat

end
-- ==== Proof.RefRes.lean ====
/-
  The reference program's two results, as its last two stages of the arguments.

  The run of the reference states each result as one composed term of the argument arrays; the stages are the same
  operations, one definition per operation. Unfolding the stages gives the composed term.
-/
import proofs.«160986_j12446815224230_2_alg».proof.Proof.RefRunP
import proofs.«160986_j12446815224230_2_alg».proof.Proof.RefReadP

set_option maxRecDepth 16384

noncomputable section

namespace Cert.ReferenceIdeal.RefRes

open Cert.ReferenceIdeal Cert.ReferenceIdeal.Gen Idealize.ShloMosaic Idealize.ShloMosaic.TcCoe Idealize.SL.Sem Idealize.ShloMosaic.StableHlo

variable {F : FTy → Type} [FloatOps F]

/-- The first result's composed term is the stage of the first half of the head's output. -/
theorem val128_eq (m : (ℓ : Loc nD τ sig) → Buf (Elt F) ℓ) (c : Dev nD) :
    Cert.ReferenceIdeal.ValueP.res_main_v128 m c
      = Cert.ReferenceIdeal.ReadP.val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v128; rfl

/-- The second result's composed term is the stage of the second half of the head's output. -/
theorem val129_eq (m : (ℓ : Loc nD τ sig) → Buf (Elt F) ℓ) (c : Dev nD) :
    Cert.ReferenceIdeal.ValueP.res_main_v129 m c
      = Cert.ReferenceIdeal.ReadP.val_main_v129 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.ValueP.res_main_v129; rfl

end Cert.ReferenceIdeal.RefRes

end
-- ==== Proof.LibTypedRef.lean ====
/-
  Typed references: carrying contents to the buffer's type and back is the identity.

  A host function called from @main is printed over TYPED references (a reference together with the fact that its
  buffer's type is the value's type); each of its operations carries its result to the buffer's type (`toBuf`) and
  each operand back (`ofBuf`), both transports along that fact. Read back, a line of such operations therefore leaves
  `x.ofBuf (x.toBuf v)` around every intermediate value. The pair is the identity for ANY typed reference, seen by
  taking the reference apart (the fact becomes `rfl` and both transports vanish) — no buffer type is ever computed.
  Rewriting with it collapses the pairs bottom-up, where comparing the two sides by unfolding has to open one transport
  inside the other at every level (a function of fifteen operations was out of reach that way).
-/
import Idealize.ShloMosaic.Lib.StableHlo

namespace Cert.LibTypedRef

open Idealize.ShloMosaic Idealize.ShloMosaic.StableHlo

/-- Contents carried to a typed reference's buffer type and back are unchanged. General: any signature, any value
    type, any element family. Use: `simp only [Cert.LibTypedRef.ofBuf_toBuf]` after reading a line of host operations
    that contains a called function's operations, before closing the equation. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTypedRef
-- ==== Proof.Carry.lean ====
/-
  Buffers that nothing writes between two boundaries of the kernel program.

  The program's buffer contents are followed as a fold W0, …, W11 through its host stretches and kernel regions.
  A host stretch changes only the buffers its operations write; a region changes only its output arrays (an
  input array ends as it was found). So a buffer written by nothing in between holds at a later boundary what it
  held at an earlier one. The lemmas below say so for the argument arrays and for the few intermediate values that
  are computed in one stretch and used in a later one: the edge endpoints, the degree scale, the edge weights, and
  the first convolution's output.
-/
import proofs.«160986_j12446815224230_2_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- No operation of a host stretch writes the buffer: each operation's written set is a singleton of another buffer. -/
macro "nw" : tactic => `(tactic| (
  simp only [hostOps0, hostOps0_1, hostOps1, hostOps2, hostOps4, hostOps5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- Buffer `main_arg0` is written by nothing between boundary 0 and boundary 2: it holds there what it held. -/
theorem carry_main_arg0_0_2 : W2 m ρ c (Proc.devRef .tc main_arg0) = W0 m ρ c (Proc.devRef .tc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by nw))
    _ = W0 m ρ c (Proc.devRef .tc main_arg0) := StableHlo.after_of_forall_not_mem (b := Proc.devRef .tc main_arg0) _ _ (List.forall_iff_forall_mem.mp (by nw))

/-- Buffer `main_arg3` is written by nothing between boundary 0 and boundary 2: it holds there what it held. -/
theorem carry_main_arg3_0_2 : W2 m ρ c (Proc.devRef .tc main_arg3) = W0 m ρ c (Proc.devRef .tc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by nw))
    _ = W0 m ρ c (Proc.devRef .tc main_arg3) := StableHlo.after_of_forall_not_mem (b := Proc.devRef .tc main_arg3) _ _ (List.forall_iff_forall_mem.mp (by nw))

/-- Buffer `main_arg4` is written by nothing between boundary 0 and boundary 3: it holds there what it held. -/
theorem carry_main_arg4_0_3 : W3 m ρ c (Proc.devRef .tc main_arg4) = W0 m ρ c (Proc.devRef .tc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by nw))
    _ = W0 m ρ c (Proc.devRef .tc main_arg4) := StableHlo.after_of_forall_not_mem (b := Proc.devRef .tc main_arg4) _ _ (List.forall_iff_forall_mem.mp (by nw))

/-- Buffer `main_arg5` is written by nothing between boundary 0 and boundary 5: it holds there what it held. -/
theorem carry_main_arg5_0_5 : W5 m ρ c (Proc.devRef .tc main_arg5) = W0 m ρ c (Proc.devRef .tc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_forall_not_mem (b := Proc.devRef .tc main_arg5) _ _ (List.forall_iff_forall_mem.mp (by nw))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by nw))
    _ = W0 m ρ c (Proc.devRef .tc main_arg5) := StableHlo.after_of_forall_not_mem (b := Proc.devRef .tc main_arg5) _ _ (List.forall_iff_forall_mem.mp (by nw))

/-- Buffer `main_arg6` is written by nothing between boundary 0 and boundary 5: it holds there what it held. -/
theorem carry_main_arg6_0_5 : W5 m ρ c (Proc.devRef .tc main_arg6) = W0 m ρ c (Proc.devRef .tc main_arg6) :=
  calc W5 m ρ c (Proc.devRef .tc main_arg6)
    _ = W4 m ρ c (Proc.devRef .tc main_arg6) := W5_of_ne m ρ c main_arg6 (by decide)
    _ = W3 m ρ c (Proc.devRef .tc main_arg6) := StableHlo.after_of_forall_not_mem (b := Proc.devRef .tc main_arg6) _ _ (List.forall_iff_forall_mem.mp (by nw))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by nw))
    _ = W0 m ρ c (Proc.devRef .tc main_arg6) := StableHlo.after_of_forall_not_mem (b := Proc.devRef .tc main_arg6) _ _ (List.forall_iff_forall_mem.mp (by nw))

/-- Buffer `main_arg7` is written by nothing between boundary 0 and boundary 7: it holds there what it held. -/
theorem carry_main_arg7_0_7 : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by nw))
    _ = W4 m ρ c (Proc.devRef .tc main_arg7) := W5_of_ne m ρ c main_arg7 (by decide)
    _ = W3 m ρ c (Proc.devRef .tc main_arg7) := StableHlo.after_of_forall_not_mem (b := Proc.devRef .tc main_arg7) _ _ (List.forall_iff_forall_mem.mp (by nw))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by nw))
    _ = W0 m ρ c (Proc.devRef .tc main_arg7) := StableHlo.after_of_forall_not_mem (b := Proc.devRef .tc main_arg7) _ _ (List.forall_iff_forall_mem.mp (by nw))

/-- Buffer `main_arg8` is written by nothing between boundary 0 and boundary 8: it holds there what it held. -/
theorem carry_main_arg8_0_8 : W8 m ρ c (Proc.devRef .tc main_arg8) = W0 m ρ c (Proc.devRef .tc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by nw))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by nw))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by nw))
    _ = W0 m ρ c (Proc.devRef .tc main_arg8) := StableHlo.after_of_forall_not_mem (b := Proc.devRef .tc main_arg8) _ _ (List.forall_iff_forall_mem.mp (by nw))

/-- Buffer `main_arg2` is written by nothing between boundary 0 and boundary 8: it holds there what it held. -/
theorem carry_main_arg2_0_8 : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by nw))
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by nw))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by nw))
    _ = W0 m ρ c (Proc.devRef .tc main_arg2) := StableHlo.after_of_forall_not_mem (b := Proc.devRef .tc main_arg2) _ _ (List.forall_iff_forall_mem.mp (by nw))

/-- Buffer `main_arg10` is written by nothing between boundary 0 and boundary 8: it holds there what it held. -/
theorem carry_main_arg10_0_8 : W8 m ρ c (Proc.devRef .tc main_arg10) = W0 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := StableHlo.after_of_forall_not_mem (b := Proc.devRef .tc main_arg10) _ _ (List.forall_iff_forall_mem.mp (by nw))
    _ = W4 m ρ c (Proc.devRef .tc main_arg10) := W5_of_ne m ρ c main_arg10 (by decide)
    _ = W3 m ρ c (Proc.devRef .tc main_arg10) := StableHlo.after_of_forall_not_mem (b := Proc.devRef .tc main_arg10) _ _ (List.forall_iff_forall_mem.mp (by nw))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by nw))
    _ = W0 m ρ c (Proc.devRef .tc main_arg10) := StableHlo.after_of_forall_not_mem (b := Proc.devRef .tc main_arg10) _ _ (List.forall_iff_forall_mem.mp (by nw))

/-- Buffer `main_arg12` is written by nothing between boundary 0 and boundary 8: it holds there what it held. -/
theorem carry_main_arg12_0_8 : W8 m ρ c (Proc.devRef .tc main_arg12) = W0 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := StableHlo.after_of_forall_not_mem (b := Proc.devRef .tc main_arg12) _ _ (List.forall_iff_forall_mem.mp (by nw))
    _ = W4 m ρ c (Proc.devRef .tc main_arg12) := W5_of_ne m ρ c main_arg12 (by decide)
    _ = W3 m ρ c (Proc.devRef .tc main_arg12) := StableHlo.after_of_forall_not_mem (b := Proc.devRef .tc main_arg12) _ _ (List.forall_iff_forall_mem.mp (by nw))
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by nw))
    _ = W0 m ρ c (Proc.devRef .tc main_arg12) := StableHlo.after_of_forall_not_mem (b := Proc.devRef .tc main_arg12) _ _ (List.forall_iff_forall_mem.mp (by nw))

/-- Buffer `main_arg9` is written by nothing between boundary 0 and boundary 9: it holds there what it held. -/
theorem carry_main_arg9_0_9 : W9 m ρ c (Proc.devRef .tc main_arg9) = W0 m ρ c (Proc.devRef .tc main_arg9) :=
  calc W9 m ρ c (Proc.devRef .tc main_arg9)
    _ = W8 m ρ c (Proc.devRef .tc main_arg9) := StableHlo.after_of_forall_not_mem (b := Proc.devRef .tc main_arg9) _ _ (List.forall_iff_forall_mem.mp (by nw))
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by nw))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by nw))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by nw))
    _ = W0 m ρ c (Proc.devRef .tc main_arg9) := StableHlo.after_of_forall_not_mem (b := Proc.devRef .tc main_arg9) _ _ (List.forall_iff_forall_mem.mp (by nw))

/-- Buffer `main_arg11` is written by nothing between boundary 0 and boundary 9: it holds there what it held. -/
theorem carry_main_arg11_0_9 : W9 m ρ c (Proc.devRef .tc main_arg11) = W0 m ρ c (Proc.devRef .tc main_arg11) :=
  calc W9 m ρ c (Proc.devRef .tc main_arg11)
    _ = W8 m ρ c (Proc.devRef .tc main_arg11) := StableHlo.after_of_forall_not_mem (b := Proc.devRef .tc main_arg11) _ _ (List.forall_iff_forall_mem.mp (by nw))
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := StableHlo.after_of_forall_not_mem (b := Proc.devRef .tc main_arg11) _ _ (List.forall_iff_forall_mem.mp (by nw))
    _ = W4 m ρ c (Proc.devRef .tc main_arg11) := W5_of_ne m ρ c main_arg11 (by decide)
    _ = W3 m ρ c (Proc.devRef .tc main_arg11) := StableHlo.after_of_forall_not_mem (b := Proc.devRef .tc main_arg11) _ _ (List.forall_iff_forall_mem.mp (by nw))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by nw))
    _ = W0 m ρ c (Proc.devRef .tc main_arg11) := StableHlo.after_of_forall_not_mem (b := Proc.devRef .tc main_arg11) _ _ (List.forall_iff_forall_mem.mp (by nw))

/-- Buffer `main_v3` is written by nothing between boundary 2 and boundary 3: it holds there what it held. -/
theorem carry_main_v3_2_3 : W3 m ρ c (Proc.devRef .tc main_v3) = W2 m ρ c (Proc.devRef .tc main_v3) :=
  calc W3 m ρ c (Proc.devRef .tc main_v3)
    _ = W2 m ρ c (Proc.devRef .tc main_v3) := W3_of_ne m ρ c main_v3 (by decide)

/-- Buffer `main_v6` is written by nothing between boundary 2 and boundary 3: it holds there what it held. -/
theorem carry_main_v6_2_3 : W3 m ρ c (Proc.devRef .tc main_v6) = W2 m ρ c (Proc.devRef .tc main_v6) :=
  calc W3 m ρ c (Proc.devRef .tc main_v6)
    _ = W2 m ρ c (Proc.devRef .tc main_v6) := W3_of_ne m ρ c main_v6 (by decide)

/-- Buffer `main_v16` is written by nothing between boundary 2 and boundary 3: it holds there what it held. -/
theorem carry_main_v16_2_3 : W3 m ρ c (Proc.devRef .tc main_v16) = W2 m ρ c (Proc.devRef .tc main_v16) :=
  calc W3 m ρ c (Proc.devRef .tc main_v16)
    _ = W2 m ρ c (Proc.devRef .tc main_v16) := W3_of_ne m ρ c main_v16 (by decide)

/-- Buffer `main_v3` is written by nothing between boundary 2 and boundary 8: it holds there what it held. -/
theorem carry_main_v3_2_8 : W8 m ρ c (Proc.devRef .tc main_v3) = W2 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by nw))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by nw))
    _ = W2 m ρ c (Proc.devRef .tc main_v3) := W3_of_ne m ρ c main_v3 (by decide)

/-- Buffer `main_v6` is written by nothing between boundary 2 and boundary 8: it holds there what it held. -/
theorem carry_main_v6_2_8 : W8 m ρ c (Proc.devRef .tc main_v6) = W2 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := W7_of_ne m ρ c main_v6 (by decide)
    _ = W5 m ρ c (Proc.devRef .tc main_v6) := StableHlo.after_of_forall_not_mem (b := Proc.devRef .tc main_v6) _ _ (List.forall_iff_forall_mem.mp (by nw))
    _ = W4 m ρ c (Proc.devRef .tc main_v6) := W5_of_ne m ρ c main_v6 (by decide)
    _ = W3 m ρ c (Proc.devRef .tc main_v6) := StableHlo.after_of_forall_not_mem (b := Proc.devRef .tc main_v6) _ _ (List.forall_iff_forall_mem.mp (by nw))
    _ = W2 m ρ c (Proc.devRef .tc main_v6) := W3_of_ne m ρ c main_v6 (by decide)

/-- Buffer `main_v32` is written by nothing between boundary 4 and boundary 8: it holds there what it held. -/
theorem carry_main_v32_4_8 : W8 m ρ c (Proc.devRef .tc main_v32) = W4 m ρ c (Proc.devRef .tc main_v32) :=
  calc W8 m ρ c (Proc.devRef .tc main_v32)
    _ = W7 m ρ c (Proc.devRef .tc main_v32) := W8_of_ne m ρ c main_v32 (by decide)
    _ = W6 m ρ c (Proc.devRef .tc main_v32) := W7_of_ne m ρ c main_v32 (by decide)
    _ = W5 m ρ c (Proc.devRef .tc main_v32) := StableHlo.after_of_forall_not_mem (b := Proc.devRef .tc main_v32) _ _ (List.forall_iff_forall_mem.mp (by nw))
    _ = W4 m ρ c (Proc.devRef .tc main_v32) := W5_of_ne m ρ c main_v32 (by decide)

/-- Buffer `main_v48` is written by nothing between boundary 4 and boundary 6: it holds there what it held. -/
theorem carry_main_v48_4_6 : W6 m ρ c (Proc.devRef .tc main_v48) = W4 m ρ c (Proc.devRef .tc main_v48) :=
  calc W6 m ρ c (Proc.devRef .tc main_v48)
    _ = W5 m ρ c (Proc.devRef .tc main_v48) := StableHlo.after_of_forall_not_mem (b := Proc.devRef .tc main_v48) _ _ (List.forall_iff_forall_mem.mp (by nw))
    _ = W4 m ρ c (Proc.devRef .tc main_v48) := (W5_arr m ρ c 0).trans (((dat1 (V4 m ρ) c).arrAt_in 0 rfl _).trans (A_eq1 (V4 m ρ) c 0))

/-- An argument array holds at the launch what the launch memory holds. -/
theorem W0_arg (b : Ref sig .tc) : W0 m ρ c (Proc.devRef .tc b) = m ((c : Thread nD τ).loc b) := rfl

end Cert.KernelIdeal.Carry

end
-- ==== Proof.Stretch.lean ====
/-
  The kernel program's host stretches, read against the reference program's stages.

  Between its kernel regions the kernel program runs the same host operations as the reference: the edge lists with
  self-loops, the degree scale 1/√deg, the edge weights, the gather–scale–scatter of each graph convolution, the mean
  pooling by graph. Reading a stretch one operation at a time gives its results as the operations' composed term of
  what the stretch found; where what it found are the reference's stages of the arguments, the composed term is the
  reference's next stage, by unfolding the stages' definitions. The statistics stretch after the second region is
  read entry by entry instead: mean = S/n, var = max(SS/n − mean², 0) over the column sums S and SS.
-/
import proofs.«160986_j12446815224230_2_alg».proof.Proof.Gen.KernelIdeal.Frame
import proofs.«160986_j12446815224230_2_alg».proof.Proof.RefReadP
import proofs.«160986_j12446815224230_2_alg».proof.Proof.LibAfterCat
import proofs.«160986_j12446815224230_2_alg».proof.Proof.LibTypedRef
import proofs.«160986_j12446815224230_2_alg».proof.Proof.Carry
import Idealize.ShloMosaic.Lib.ValueIdx
import Idealize.ShloMosaic.Lib.ValueLayout
import Idealize.ShloMosaic.PureOps.Ideal

set_option maxRecDepth 16384

noncomputable section

namespace Cert.KernelIdeal.Stretch

open Cert.KernelIdeal Cert.KernelIdeal.Gen Cert.KernelIdeal.Carry
open Idealize.ShloMosaic Idealize.ShloMosaic.TcCoe Idealize.SL.Sem Idealize.ShloMosaic.StableHlo
open Idealize.ShloMosaic.ValueIdx
open Cert.ReferenceIdeal.ReadP

variable (m : (ℓ : Loc nD τ sig) → Buf (Elt Ideal) ℓ) (ρ : Dev nD → PrngReg) (c : Dev nD)

/-! ## Before the first region: the edge endpoints and the degree scale -/

/-- The source endpoints with self-loops. -/
theorem W2_v3 : W2 m ρ c (Proc.devRef .tc main_v3) = val_main_v3 (F := Ideal) (m ((c : Thread nD τ).loc main_arg1)) := by
  show StableHlo.after hostOps0_1 (StableHlo.after hostOps0 (W0 m ρ c)) (Proc.devRef .tc main_v3) = _
  dsimp only [hostOps0_1, hostOps0]
  after_results_cat
  rfl

/-- The target endpoints with self-loops. -/
theorem W2_v6 : W2 m ρ c (Proc.devRef .tc main_v6) = val_main_v6 (F := Ideal) (m ((c : Thread nD τ).loc main_arg1)) := by
  show StableHlo.after hostOps0_1 (StableHlo.after hostOps0 (W0 m ρ c)) (Proc.devRef .tc main_v6) = _
  dsimp only [hostOps0_1, hostOps0]
  after_results_cat
  rfl

/-- The three operations of the selection, from any contents: where the degree is positive take the inverse square
    root, elsewhere the zero. -/
theorem where_result (W : Valuation τ sig (Elt Ideal)) :
    StableHlo.after (hostOps0_1 (F := Ideal)) W (Proc.devRef .tc main_v16)
      = select (W (Proc.devRef .tc main_v12)) (W (Proc.devRef .tc main_v15))
          (broadcastInDim S150000 ![] bcast_S_S150000 (W (Proc.devRef .tc main_cst_3))) := by
  dsimp only [hostOps0_1]
  after_results_cat
  try simp only [Cert.LibTypedRef.ofBuf_toBuf]
  rfl

/-- The degree scale 1/√deg (0 where the degree is 0). -/
theorem W2_v16 : W2 m ρ c (Proc.devRef .tc main_v16) = val_main_v16 (F := Ideal) (m ((c : Thread nD τ).loc main_arg1)) := by
  show StableHlo.after hostOps0_1 (W1 m ρ c) (Proc.devRef .tc main_v16) = _
  rw [where_result]
  show select (StableHlo.after hostOps0 (W0 m ρ c) (Proc.devRef .tc main_v12))
      (StableHlo.after hostOps0 (W0 m ρ c) (Proc.devRef .tc main_v15))
      (broadcastInDim S150000 ![] bcast_S_S150000 (StableHlo.after hostOps0 (W0 m ρ c) (Proc.devRef .tc main_cst_3))) = _
  dsimp only [hostOps0]
  after_results_cat
  rfl

/-! ## Between the first and the second region: the first convolution's aggregation -/

/-- The edge weights: the product of the two endpoints' degree scales. -/
theorem W4_v32 : W4 m ρ c (Proc.devRef .tc main_v32) = val_main_v32 (F := Ideal) (m ((c : Thread nD τ).loc main_arg1)) := by
  show StableHlo.after hostOps1 (W3 m ρ c) (Proc.devRef .tc main_v32) = _
  dsimp only [hostOps1]
  after_results_cat
  rw [carry_main_v3_2_3, carry_main_v6_2_3, carry_main_v16_2_3, W2_v3, W2_v6, W2_v16]
  rfl

/-- The first convolution's output, given that the first region left the projected features. -/
theorem W4_v48 (h17 : W3 m ρ c (Proc.devRef .tc main_v17) = val_main_v17 (F := Ideal) (m ((c : Thread nD τ).loc main_arg0)) (m ((c : Thread nD τ).loc main_arg3))) :
    W4 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) := by
  show StableHlo.after hostOps1 (W3 m ρ c) (Proc.devRef .tc main_v48) = _
  dsimp only [hostOps1]
  after_results_cat
  rw [h17, carry_main_v3_2_3, carry_main_v6_2_3, carry_main_v16_2_3, carry_main_arg4_0_3, W2_v3, W2_v6, W2_v16]
  rfl

/-! ## Between the second and the third region: mean and variance from the column sums -/

/-- A row of column sums divided by the number of rows, as a vector. -/
def meanRow (S : S1x32.Idx → EReal) : S32.Idx → EReal :=
  shapeCast S32 (Host.divf (F := Ideal) (φ := .f32) S
    (broadcastInDim S1x32 ![] bcast_S_S1x32 (constant (F := Ideal) S_ .f32 0x48127C00#32))) shapeCasts_S1x32_S32

theorem meanRow_apply (S : S1x32.Idx → EReal) (q : Fin 32) :
    meanRow S (ix1 q) = Ideal.div (S (ix2 (0 : Fin 1) q)) (Ideal.ofBits .f32 0x48127C00#32) := by
  unfold meanRow
  rw [shapeCast_1a_a_apply]
  rfl

/-- The clamped one-pass variance from the two rows of column sums, as a vector. -/
def varRow (S SS : S1x32.Idx → EReal) : S32.Idx → EReal :=
  maximumf (F := Ideal) (φ := .f32) (subf (meanRow SS) (mulf (meanRow S) (meanRow S)))
    (broadcastInDim S32 ![] bcast_S_S32 (constant (F := Ideal) S_ .f32 0x00000000#32))

theorem varRow_apply (S SS : S1x32.Idx → EReal) (q : Fin 32) :
    varRow S SS (ix1 q)
      = max (Ideal.div (SS (ix2 (0 : Fin 1) q)) (Ideal.ofBits .f32 0x48127C00#32)
              - Ideal.div (S (ix2 (0 : Fin 1) q)) (Ideal.ofBits .f32 0x48127C00#32)
                * Ideal.div (S (ix2 (0 : Fin 1) q)) (Ideal.ofBits .f32 0x48127C00#32))
          (Ideal.ofBits .f32 0x00000000#32) := by
  unfold varRow
  rw [maximumf_apply, subf_apply, mulf_apply, meanRow_apply, meanRow_apply]
  rfl

/-- The mean row the third region is given. -/
theorem W6_v60 : W6 m ρ c (Proc.devRef .tc main_v60)
    = shapeCast S1x32 (meanRow (W5 m ρ c (Proc.devRef .tc main_v49_0))) shapeCasts_S32_S1x32 := by
  show StableHlo.after hostOps2 (W5 m ρ c) (Proc.devRef .tc main_v60) = _
  dsimp only [hostOps2]
  after_results_cat
  rfl

/-- The variance row the third region is given. -/
theorem W6_v61 : W6 m ρ c (Proc.devRef .tc main_v61)
    = shapeCast S1x32 (varRow (W5 m ρ c (Proc.devRef .tc main_v49_0)) (W5 m ρ c (Proc.devRef .tc main_v49_1)))
        shapeCasts_S32_S1x32 := by
  show StableHlo.after hostOps2 (W5 m ρ c) (Proc.devRef .tc main_v61) = _
  dsimp only [hostOps2]
  after_results_cat
  rfl

/-- The scale row the third region is given. -/
theorem W6_v62 : W6 m ρ c (Proc.devRef .tc main_v62) = shapeCast S1x32 (m ((c : Thread nD τ).loc main_arg5)) shapeCasts_S32_S1x32 := by
  show StableHlo.after hostOps2 (W5 m ρ c) (Proc.devRef .tc main_v62) = _
  dsimp only [hostOps2]
  after_results_cat
  rw [carry_main_arg5_0_5]
  rfl

/-- The shift row the third region is given. -/
theorem W6_v63 : W6 m ρ c (Proc.devRef .tc main_v63) = shapeCast S1x32 (m ((c : Thread nD τ).loc main_arg6)) shapeCasts_S32_S1x32 := by
  show StableHlo.after hostOps2 (W5 m ρ c) (Proc.devRef .tc main_v63) = _
  dsimp only [hostOps2]
  after_results_cat
  rw [carry_main_arg6_0_5]
  rfl

/-- A vector cast to one row, read at column q. -/
theorem row32_apply {α : Type} (x : S32.Idx → α) (q : Fin 32) :
    shapeCast S1x32 x shapeCasts_S32_S1x32 (ix2 (0 : Fin 1) q) = x (ix1 q) :=
  shapeCast_a_1a_apply x shapeCasts_S32_S1x32 0 q

/-! ## Between the fourth and the fifth region: the second convolution's aggregation and the pooling -/

/-- The pooled graph features, given that the fourth region left the second projection. -/
theorem W9_v93 (h65 : W8 m ρ c (Proc.devRef .tc main_v65) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :
    W9 m ρ c (Proc.devRef .tc main_v93) = val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W8 m ρ c) (Proc.devRef .tc main_v93) = _
  dsimp only [hostOps4]
  after_results_cat
  rw [h65, carry_main_v3_2_8, carry_main_v6_2_8, carry_main_v32_4_8, carry_main_arg8_0_8, carry_main_arg2_0_8,
    W2_v3, W2_v6, W4_v32]
  rfl

/-- A vector of 128 entries cast to one row is the reference's broadcast of it to one row. -/
theorem row128_eq (x : S128.Idx → EReal) :
    shapeCast S1x128 x shapeCasts_S128_S1x128 = val_main_v120 (F := Ideal) x := by
  funext i
  obtain ⟨u, q, rfl⟩ : ∃ (u : Fin 1) (q : Fin 128), i = ix2 u q := ⟨i 0, i 1, eq_ix2 i⟩
  rw [shapeCast_a_1a_apply, val_main_v120_apply]
  exact congrArg x (funext fun a => Fin.ext (by match a with | ⟨0, _⟩ => rfl))

/-- The first bias row of the head. -/
theorem W9_v94 : W9 m ρ c (Proc.devRef .tc main_v94) = val_main_v120 (F := Ideal) (m ((c : Thread nD τ).loc main_arg10)) := by
  rw [← row128_eq]
  show StableHlo.after hostOps4 (W8 m ρ c) (Proc.devRef .tc main_v94) = _
  dsimp only [hostOps4]
  after_results_cat
  rw [carry_main_arg10_0_8]
  rfl

/-- The second bias row of the head (the reference's stage v125 is the same broadcast as v120). -/
theorem W9_v95 : W9 m ρ c (Proc.devRef .tc main_v95) = val_main_v125 (F := Ideal) (m ((c : Thread nD τ).loc main_arg12)) := by
  show _ = val_main_v120 (F := Ideal) (m ((c : Thread nD τ).loc main_arg12))
  rw [← row128_eq]
  show StableHlo.after hostOps4 (W8 m ρ c) (Proc.devRef .tc main_v95) = _
  dsimp only [hostOps4]
  after_results_cat
  rw [carry_main_arg12_0_8]
  rfl

/-! ## After the fifth region: the two halves of the head's output -/

theorem W11_v97 (h96 : W10 m ρ c (Proc.devRef .tc main_v96) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W11 m ρ c (Proc.devRef .tc main_v97) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v97) = _
  dsimp only [hostOps5]
  after_results_cat
  rw [h96]
  rfl

theorem W11_v98 (h96 : W10 m ρ c (Proc.devRef .tc main_v96) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) :
    W11 m ρ c (Proc.devRef .tc main_v98) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps5 (W10 m ρ c) (Proc.devRef .tc main_v98) = _
  dsimp only [hostOps5]
  after_results_cat
  rw [h96]
  rfl

end Cert.KernelIdeal.Stretch

end
-- ==== Proof.LibPlainDot.lean ====
import Idealize.ShloMosaic.PureOps.Ideal.Laws
import Idealize.ShloMosaic.Lib.ValueIdx

/-!
# A plain matrix product read at an entry

For the dimension numbers of an M×K by K×N product with no batch axis, entry (p, q) of the product into a
zero accumulator is the sum over k of left (p, k) times right (k, q), on the extended reals.
-/

noncomputable section

namespace Cert.PlainDot

open Idealize.ShloMosaic Idealize.ShloMosaic.ValueIdx
open scoped BigOperators

theorem contr_rank (M K N : Nat) : (DotDims.plain M K N).contr.rank = 1 := rfl

theorem contr_size (M K N : Nat) :
    (DotDims.plain M K N).contr.size ⟨0, by rw [contr_rank]; exact Nat.one_pos⟩ = K := rfl

/-- The left operand's index at output (p, q) and contraction coordinate k is (p, k). -/
theorem lhsIdx_eq (M K N : Nat) (p : Fin M) (q : Fin N) (k : Fin K) :
    (DotDims.plain M K N).lhsIdx (ix2 p q)
        ((contrEquiv1 (DotDims.plain M K N) K (contr_rank M K N) (contr_size M K N)).symm k) = ix2 p k := by
  have hk := contrEquiv1_symm_val (DotDims.plain M K N) K (contr_rank M K N) (contr_size M K N) k
  funext a
  refine Fin.ext ?_
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl _ _).trans hk

/-- The right operand's index at output (p, q) and contraction coordinate k is (k, q). -/
theorem rhsIdx_eq (M K N : Nat) (p : Fin M) (q : Fin N) (k : Fin K) :
    (DotDims.plain M K N).rhsIdx (ix2 p q)
        ((contrEquiv1 (DotDims.plain M K N) K (contr_rank M K N) (contr_size M K N)).symm k) = ix2 k q := by
  have hk := contrEquiv1_symm_val (DotDims.plain M K N) K (contr_rank M K N) (contr_size M K N) k
  funext a
  refine Fin.ext ?_
  match a with
  | ⟨0, _⟩ =>
    exact ((DotDims.plain M K N).rhsIdx_val_of_single (cr := (0 : Fin 2)) rfl _ _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- A plain product into the zero accumulator, at entry (p, q). -/
theorem matmul_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    matmul (DotDims.plain M K N) prec l r (constant (F := Ideal) ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply,
    ← Equiv.sum_comp (contrEquiv1 (DotDims.plain M K N) K (contr_rank M K N) (contr_size M K N)).symm]
  refine Finset.sum_congr rfl fun k _ => ?_
  rw [lhsIdx_eq, rhsIdx_eq]

end Cert.PlainDot

end
-- ==== Proof.RegDot.lean ====
import proofs.«160986_j12446815224230_2_alg».proof.Proof.Gen.KernelIdeal.Frame
import proofs.«160986_j12446815224230_2_alg».proof.Proof.Gen.ReferenceIdeal
import proofs.«160986_j12446815224230_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The two plain matrix-product regions, each as one whole-array equation

Region 0 multiplies the 150000×32 array, taken in 25 row blocks of 6000 rows, by a 32×32 matrix held whole; region 3
does the same with a 32×64 matrix. On the extended reals a format change is the identity and a product into the zero
accumulator is the plain sum over the contracted axis, so what each point writes back is the corresponding row block of
the whole product of the two arrays; the 25 row blocks tile the output array, which therefore ends holding that product.
-/

noncomputable section

namespace Cert.KernelIdeal.RegDot

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The two zero offsets of a rank-2 rectangle, as the constant function. -/
theorem zero2 : (![0, 0] : Fin 2 → Nat) = fun _ => 0 := funext fun a => by fin_cases a <;> rfl

/-- The host's plain M×K by K×N product at entry (r, q): on the extended reals, the sum over the contracted axis of
    left (r, k) times right (k, q). -/
theorem hostDot_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    Host.dotGeneral (F := Ideal) (DotDims.plain M K N) prec A B (ix2 r q) = ∑ k : Fin K, A (ix2 r k) * B (ix2 k q) := by
  show FloatOps.dotGeneral (DotDims.plain M K N) prec .single A B (ix2 r q) = _
  rw [Ideal.dotGeneral_apply,
    ← Equiv.sum_comp (contrEquiv1 (DotDims.plain M K N) K (Cert.PlainDot.contr_rank M K N) (Cert.PlainDot.contr_size M K N)).symm]
  refine Finset.sum_congr rfl fun k _ => ?_
  rw [Cert.PlainDot.lhsIdx_eq, Cert.PlainDot.rhsIdx_eq]

variable (V : (c : Dev nD) → (b : Ref sig .tc) → Buf (Elt Ideal) ((c : Thread nD τ).loc b))

/-! ## Region 0: the 150000×32 array times a 32×32 matrix -/

/-- The whole product at entry (r, q): the sum over the contracted axis. -/
theorem dot0_apply (A : FVec Ideal S150000x32 .f32) (B : FVec Ideal S32x32 .f32) (r : Fin 150000) (q : Fin 32) :
    Host.dotGeneral (F := Ideal) (φ₁ := .f32) (φ₂ := .f32) Cert.ReferenceIdeal.dot_S150000x32_S32x32_S150000x32_1_0_0_1_n_n none A B (ix2 r q)
      = ∑ k : Fin 32, A (ix2 r k) * B (ix2 k q) :=
  hostDot_apply 150000 32 32 none A B r q

/-- One row block's product at entry (p, q): the format changes are the identity on the extended reals and the
    product into the zero accumulator is the plain sum. -/
theorem pay0_apply (x0 : Vec Ideal S6000x32 .f32) (x1 : Vec Ideal S32x32 .f32) (p : Fin 6000) (q : Fin 32) :
    k0_pay1 (F := Ideal) x0 x1 (ix2 p q) = ∑ k : Fin 32, x0 (ix2 p k) * x1 (ix2 k q) := by
  unfold k0_pay1
  exact Cert.PlainDot.matmul_zero_apply 6000 32 32 none (truncf .bf16 x0 bitsLt_bf16_f32) (truncf .bf16 x1 bitsLt_bf16_f32) p q

/-- The block indices of the three windows at point t: the row-blocked ones are at block (t, 0), the matrix at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 6000 t … 6000 t + 5999 of its array. -/
theorem lhs0_apply (c : Dev nD) (t : Fin cfg0.N) (p : Fin 6000) (k : Fin 32) (r : Fin 150000)
    (hr : r.val = t.val * 6000 + p.val) :
    (iblk0 (F := Ideal) V c 0 t : Vec Ideal S6000x32 .f32) (ix2 p k) = (V c main_arg0 : Vec Ideal S150000x32 .f32) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 6000 + 1 * p.val = r.val; rw [e0, hr]; omega
  | ⟨1, _⟩ => show win0_0.index t (1 : Fin 2) * 32 + 1 * k.val = k.val; rw [e1]; omega

/-- The right operand's block at every point is the whole matrix. -/
theorem rhs0_apply (c : Dev nD) (t : Fin cfg0.N) (k : Fin 32) (q : Fin 32) :
    (iblk0 (F := Ideal) V c 1 t : Vec Ideal S32x32 .f32) (ix2 k q) = (V c main_arg3 : Vec Ideal S32x32 .f32) (ix2 k q) := by
  obtain ⟨-, -, e2, e3, -⟩ := idx0 t
  unfold iblk0
  rw [View.read_apply]
  show V c main_arg3 _ = V c main_arg3 _
  congr 1
  funext a
  apply Fin.ext
  match a with
  | ⟨0, _⟩ => show win0_1.index t (0 : Fin 2) * 32 + 1 * k.val = k.val; rw [e2]; omega
  | ⟨1, _⟩ => show win0_1.index t (1 : Fin 2) * 32 + 1 * q.val = q.val; rw [e3]; omega

/-- What point t writes back is row block t of the whole product. -/
theorem flushed0 (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S150000x32_S32x32_S150000x32_1_0_0_1_n_n none (V c main_arg0) (V c main_arg3)) := by
  show (cfg0.win 2).cut (grid0.coords t) ((dat0 (F := Ideal) V c).after 2 t) = _
  rw [after0_2]
  unfold out0_2
  rw [View.canon_unit_zero zero2]
  simp only [View.ld_unit_zero (S := S6000x32) zero2, View.ld_unit_zero (S := S32x32) zero2]
  obtain ⟨-, -, -, -, e4, e5⟩ := idx0 t
  funext j
  obtain ⟨p, q, rfl⟩ : ∃ (p : Fin 6000) (q : Fin 32), j = ix2 p q := ⟨j 0, j 1, eq_ix2 j⟩
  have hN : cfg0.N = 25 := rfl
  have hr : t.val * 6000 + p.val < 150000 := by have := t.isLt; have := p.isLt; omega
  show k0_pay1 (iblk0 V c 0 t) (iblk0 V c 1 t) (ix2 p q)
    = Host.dotGeneral (F := Ideal) (φ₁ := .f32) (φ₂ := .f32) Cert.ReferenceIdeal.dot_S150000x32_S32x32_S150000x32_1_0_0_1_n_n none (V c main_arg0) (V c main_arg3)
        (((cfg0.win 2).blk t).view.emb (ix2 p q))
  have hemb : ((cfg0.win 2).blk t).view.emb (ix2 p q) = ix2 (⟨t.val * 6000 + p.val, hr⟩ : Fin 150000) q := by
    funext a
    apply Fin.ext
    match a with
    | ⟨0, _⟩ => show win0_2.index t (0 : Fin 2) * 6000 + 1 * p.val = t.val * 6000 + p.val; rw [e4]; omega
    | ⟨1, _⟩ => show win0_2.index t (1 : Fin 2) * 32 + 1 * q.val = q.val; rw [e5]; omega
  rw [hemb]
  refine (pay0_apply (iblk0 V c 0 t) (iblk0 V c 1 t) p q).trans ?_
  refine Eq.trans ?_ (dot0_apply (V c main_arg0) (V c main_arg3) ⟨t.val * 6000 + p.val, hr⟩ q).symm
  refine Finset.sum_congr rfl fun k _ => ?_
  rw [lhs0_apply V c t p k ⟨t.val * 6000 + p.val, hr⟩ rfl, rhs0_apply V c t k q]

/-- An index of the array is in point t's block iff each coordinate is in the block's range on its axis. -/
theorem mem_blk0 (t : Fin cfg0.N) (i : S150000x32.Idx) :
    i ∈ ((cfg0.win 2).blk t).view.set ↔ ∀ a : Fin 2, win0_2.index t a * S6000x32.size a ≤ (i a).val
      ∧ (i a).val < win0_2.index t a * S6000x32.size a + S6000x32.size a := by
  show i ∈ ((View.whole main_v17).slice (win0_2.rect t)).set ↔ _
  rw [View.set_slice_whole, Rect.mem_set_unit]
  exact Iff.rfl

/-- The 25 row blocks tile the array: row r is in the block of point r / 6000. -/
theorem cover0 (i : S150000x32.Idx) :
    ∃ t : Fin cfg0.N, (cfg0.win 2).flush t = true ∧ i ∈ ((cfg0.win 2).blk t).view.set := by
  have hi0 : (i 0).val < 150000 := idx2_lt0 i
  have hi1 : (i 1).val < 32 := idx2_lt1 i
  have hN : cfg0.N = 25 := rfl
  obtain ⟨t, ht⟩ : ∃ t : Fin cfg0.N, t.val = (i 0).val / 6000 := ⟨⟨(i 0).val / 6000, by omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 6000 ≤ (i 0).val ∧ (i 0).val < win0_2.index t (0 : Fin 2) * 6000 + 6000
    rw [e4, ht]; omega
  | ⟨1, _⟩ =>
    show win0_2.index t (1 : Fin 2) * 32 ≤ (i 1).val ∧ (i 1).val < win0_2.index t (1 : Fin 2) * 32 + 32
    rw [e5]; omega

/-- The output array after the region's 25 points is the whole product of the two arrays as the region finds them. -/
theorem final0 (c : Dev nD) : (dat0 (F := Ideal) V c).arrAt 2 cfg0.N
    = Host.dotGeneral (F := Ideal) (φ₁ := .f32) (φ₂ := .f32) Cert.ReferenceIdeal.dot_S150000x32_S32x32_S150000x32_1_0_0_1_n_n none (V c main_arg0) (V c main_arg3) :=
  (dat0 (F := Ideal) V c).arrAt_eq_of_cover 2 _ (fun t _ => flushed0 V c t) (cover0)

/-! ## Region 3: the 150000×32 array times a 32×64 matrix -/

/-- The whole product at entry (r, q): the sum over the contracted axis. -/
theorem dot3_apply (A : FVec Ideal S150000x32 .f32) (B : FVec Ideal S32x64 .f32) (r : Fin 150000) (q : Fin 64) :
    Host.dotGeneral (F := Ideal) (φ₁ := .f32) (φ₂ := .f32) Cert.ReferenceIdeal.dot_S150000x32_S32x64_S150000x64_1_0_0_1_n_n none A B (ix2 r q)
      = ∑ k : Fin 32, A (ix2 r k) * B (ix2 k q) :=
  hostDot_apply 150000 32 64 none A B r q

/-- One row block's product at entry (p, q): the format changes are the identity on the extended reals and the
    product into the zero accumulator is the plain sum. -/
theorem pay3_apply (x0 : Vec Ideal S6000x32 .f32) (x1 : Vec Ideal S32x64 .f32) (p : Fin 6000) (q : Fin 64) :
    k3_pay1 (F := Ideal) x0 x1 (ix2 p q) = ∑ k : Fin 32, x0 (ix2 p k) * x1 (ix2 k q) := by
  unfold k3_pay1
  refine (Cert.PlainDot.matmul_zero_apply 6000 32 64 none
    (truncf .bf16 (shapeCast S6000x32 x0 shapeCasts_S6000x32_S6000x32) bitsLt_bf16_f32) (truncf .bf16 x1 bitsLt_bf16_f32) p q).trans ?_
  refine Finset.sum_congr rfl fun k _ => ?_
  rw [truncf_apply, truncf_apply, shapeCast_self]

/-- The block indices of the three windows at point t: the row-blocked ones are at block (t, 0), the matrix at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t is rows 6000 t … 6000 t + 5999 of its array. -/
theorem lhs3_apply (c : Dev nD) (t : Fin cfg3.N) (p : Fin 6000) (k : Fin 32) (r : Fin 150000)
    (hr : r.val = t.val * 6000 + p.val) :
    (iblk3 (F := Ideal) V c 0 t : Vec Ideal S6000x32 .f32) (ix2 p k) = (V c main_v64 : Vec Ideal S150000x32 .f32) (ix2 r k) := by
  obtain ⟨e0, e1, -⟩ := idx3 t
  unfold iblk3
  rw [View.read_apply]
  show V c main_v64 _ = V c main_v64 _
  congr 1
  funext a
  apply Fin.ext
  match a with
  | ⟨0, _⟩ => show win3_0.index t (0 : Fin 2) * 6000 + 1 * p.val = r.val; rw [e0, hr]; omega
  | ⟨1, _⟩ => show win3_0.index t (1 : Fin 2) * 32 + 1 * k.val = k.val; rw [e1]; omega

/-- The right operand's block at every point is the whole matrix. -/
theorem rhs3_apply (c : Dev nD) (t : Fin cfg3.N) (k : Fin 32) (q : Fin 64) :
    (iblk3 (F := Ideal) V c 1 t : Vec Ideal S32x64 .f32) (ix2 k q) = (V c main_arg7 : Vec Ideal S32x64 .f32) (ix2 k q) := by
  obtain ⟨-, -, e2, e3, -⟩ := idx3 t
  unfold iblk3
  rw [View.read_apply]
  show V c main_arg7 _ = V c main_arg7 _
  congr 1
  funext a
  apply Fin.ext
  match a with
  | ⟨0, _⟩ => show win3_1.index t (0 : Fin 2) * 32 + 1 * k.val = k.val; rw [e2]; omega
  | ⟨1, _⟩ => show win3_1.index t (1 : Fin 2) * 64 + 1 * q.val = q.val; rw [e3]; omega

/-- What point t writes back is row block t of the whole product. -/
theorem flushed3 (c : Dev nD) (t : Fin cfg3.N) :
    (dat3 (F := Ideal) V c).flushed 2 t = ((cfg3.win 2).blk t).view.read (Elt Ideal)
      (Host.dotGeneral (F := Ideal) (φ₁ := .f32) (φ₂ := .f32) Cert.ReferenceIdeal.dot_S150000x32_S32x64_S150000x64_1_0_0_1_n_n none (V c main_v64) (V c main_arg7)) := by
  show (cfg3.win 2).cut (grid3.coords t) ((dat3 (F := Ideal) V c).after 2 t) = _
  rw [after3_2]
  unfold out3_2
  rw [View.canon_unit_zero zero2]
  simp only [View.ld_unit_zero (S := S6000x32) zero2, View.ld_unit_zero (S := S32x64) zero2]
  obtain ⟨-, -, -, -, e4, e5⟩ := idx3 t
  funext j
  obtain ⟨p, q, rfl⟩ : ∃ (p : Fin 6000) (q : Fin 64), j = ix2 p q := ⟨j 0, j 1, eq_ix2 j⟩
  have hN : cfg3.N = 25 := rfl
  have hr : t.val * 6000 + p.val < 150000 := by have := t.isLt; have := p.isLt; omega
  show k3_pay1 (iblk3 V c 0 t) (iblk3 V c 1 t) (ix2 p q)
    = Host.dotGeneral (F := Ideal) (φ₁ := .f32) (φ₂ := .f32) Cert.ReferenceIdeal.dot_S150000x32_S32x64_S150000x64_1_0_0_1_n_n none (V c main_v64) (V c main_arg7)
        (((cfg3.win 2).blk t).view.emb (ix2 p q))
  have hemb : ((cfg3.win 2).blk t).view.emb (ix2 p q) = ix2 (⟨t.val * 6000 + p.val, hr⟩ : Fin 150000) q := by
    funext a
    apply Fin.ext
    match a with
    | ⟨0, _⟩ => show win3_2.index t (0 : Fin 2) * 6000 + 1 * p.val = t.val * 6000 + p.val; rw [e4]; omega
    | ⟨1, _⟩ => show win3_2.index t (1 : Fin 2) * 64 + 1 * q.val = q.val; rw [e5]; omega
  rw [hemb]
  refine (pay3_apply (iblk3 V c 0 t) (iblk3 V c 1 t) p q).trans ?_
  refine Eq.trans ?_ (dot3_apply (V c main_v64) (V c main_arg7) ⟨t.val * 6000 + p.val, hr⟩ q).symm
  refine Finset.sum_congr rfl fun k _ => ?_
  rw [lhs3_apply V c t p k ⟨t.val * 6000 + p.val, hr⟩ rfl, rhs3_apply V c t k q]

/-- An index of the array is in point t's block iff each coordinate is in the block's range on its axis. -/
theorem mem_blk3 (t : Fin cfg3.N) (i : S150000x64.Idx) :
    i ∈ ((cfg3.win 2).blk t).view.set ↔ ∀ a : Fin 2, win3_2.index t a * S6000x64.size a ≤ (i a).val
      ∧ (i a).val < win3_2.index t a * S6000x64.size a + S6000x64.size a := by
  show i ∈ ((View.whole main_v65).slice (win3_2.rect t)).set ↔ _
  rw [View.set_slice_whole, Rect.mem_set_unit]
  exact Iff.rfl

/-- The 25 row blocks tile the array: row r is in the block of point r / 6000. -/
theorem cover3 (i : S150000x64.Idx) :
    ∃ t : Fin cfg3.N, (cfg3.win 2).flush t = true ∧ i ∈ ((cfg3.win 2).blk t).view.set := by
  have hi0 : (i 0).val < 150000 := idx2_lt0 i
  have hi1 : (i 1).val < 64 := idx2_lt1 i
  have hN : cfg3.N = 25 := rfl
  obtain ⟨t, ht⟩ : ∃ t : Fin cfg3.N, t.val = (i 0).val / 6000 := ⟨⟨(i 0).val / 6000, by omega⟩, rfl⟩
  obtain ⟨-, -, -, -, e4, e5⟩ := idx3 t
  refine ⟨t, flush3_2 t, ?_⟩
  rw [mem_blk3]
  intro a
  match a with
  | ⟨0, _⟩ =>
    show win3_2.index t (0 : Fin 2) * 6000 ≤ (i 0).val ∧ (i 0).val < win3_2.index t (0 : Fin 2) * 6000 + 6000
    rw [e4, ht]; omega
  | ⟨1, _⟩ =>
    show win3_2.index t (1 : Fin 2) * 64 ≤ (i 1).val ∧ (i 1).val < win3_2.index t (1 : Fin 2) * 64 + 64
    rw [e5]; omega

/-- The output array after the region's 25 points is the whole product of the two arrays as the region finds them. -/
theorem final3 (c : Dev nD) : (dat3 (F := Ideal) V c).arrAt 2 cfg3.N
    = Host.dotGeneral (F := Ideal) (φ₁ := .f32) (φ₂ := .f32) Cert.ReferenceIdeal.dot_S150000x32_S32x64_S150000x64_1_0_0_1_n_n none (V c main_v64) (V c main_arg7) :=
  (dat3 (F := Ideal) V c).arrAt_eq_of_cover 2 _ (fun t _ => flushed3 V c t) (cover3)

end Cert.KernelIdeal.RegDot

end
-- ==== Proof.RegStats.lean ====
/-
  The batch-statistics accumulator (the second region of the kernel program), read as column sums.

  The region walks the 25 row blocks [6000, 32] of an array x : f32[150000, 32] and carries two rows [1, 32] across
  the walk: at the first block it stores zeros into both, and at every block it adds the block's column sums to the
  first row and the column sums of the block's squares to the second; both rows are written back once, after the last
  block. Read over the extended reals this module proves, for every column q,

      first  result (0, q) = 0₃₂ + ∑ r : Fin 150000, x (r, q)
      second result (0, q) = 0₃₂ + ∑ r : Fin 150000, x (r, q) * x (r, q)

  where 0₃₂ is the f32 zero word read over the extended reals (it is 0). The steps: what each of the two control
  cases leaves in each row, as one payload of the loaded block and the row's earlier contents; each payload at a
  column, as "earlier contents plus a sum over the block's 6000 rows"; the invariant "after block n the rows hold the
  sums over the first 6000 (n + 1) rows of x", by induction on n; the single write-back at the last block, whose block
  is the whole result array. Sums on the extended reals are sums in an additive commutative monoid: splitting a range
  of rows into consecutive blocks needs no finiteness.
-/
import proofs.«160986_j12446815224230_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RegStats

open Cert.KernelIdeal Cert.KernelIdeal.Gen Idealize.ShloMosaic Idealize.ShloMosaic.ValueIdx
open scoped BigOperators

/-! ## What each control case leaves in each accumulator row -/

section Cases
variable {F : FTy → Type} [FloatOps F]

/-- The two zero offsets of a rank-2 block, as the constant function. -/
theorem hz : (![0, 0] : Fin 2 → Nat) = fun _ => 0 := funext fun a => by fin_cases a <;> rfl

/-- A later point (the reset not taken): the body leaves in the first output's buffer, which held `xo1`, the
    payload "`xo1` plus the column sums of the row block `x`". -/
theorem out_B_1 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : ¬cond1_0 i) (x : Vec F S6000x32 .f32) (xo1 xo2 : Vec F S1x32 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S6000x32) hz,
    View.ld_unit_zero (S := S1x32) hz]

/-- A later point: the second output's buffer, which held `xo2`, ends at "`xo2` plus the column sums of the
    squares of the row block `x`". -/
theorem out_B_2 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : ¬cond1_0 i) (x : Vec F S6000x32 .f32) (xo1 xo2 : Vec F S1x32 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S6000x32) hz,
    View.ld_unit_zero (S := S1x32) hz]

/-- The first point (the reset taken): the body stores the zero row, reads it back, and leaves in the first
    output's buffer "zero plus the column sums of the row block `x`". -/
theorem out_A_1 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : cond1_0 i) (x : Vec F S6000x32 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S6000x32) hz]

/-- The first point: the second output's buffer ends at "zero plus the column sums of the squares of `x`". -/
theorem out_A_2 (c : Dev nD) (i : grid1.Coords) (a1 : Memref sig .tc .vmem S6000x32 .f32) (h1 : a1.IsWhole)
    (a2 : Memref sig .tc .vmem S1x32 .f32) (h2 : a2.IsWhole) (a3 : Memref sig .tc .vmem S1x32 .f32) (h3 : a3.IsWhole)
    (hc : cond1_0 i) (x : Vec F S6000x32 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x32) hz, View.readCov_unit_zero (S := S1x32) _ hz]
  simp only [View.readAt_eq_ld, h1.read_unread, View.ld_unit_zero (S := S6000x32) hz]

end Cases

/-! ## The payloads at an index, over the extended reals -/

/-- Inserting row `k` above the column index `q` of the reduced row gives the entry `(k, q)` of the block. -/
theorem lift_eq (q : Fin 32) (k : Fin 6000) : reduces_S6000x32_S32.lift (ix1 q) k = ix2 k q := by
  funext a
  apply Fin.ext
  match a with
  | ⟨0, _⟩ => rfl
  | ⟨1, _⟩ => rfl

/-- The sum of a [6000, 32] block over its rows, at column `q`. -/
theorem colsum_apply (x : FVec Ideal S6000x32 .f32) (hφ : FKind.Formats .f32)
    (hacc : (0x00000000#32 : BitVec FTy.f32.bits) = FKind.add.neutral .f32 hφ) (q : Fin 32) :
    multiReduction .add [0] S32 x 0x00000000#32 reduces_S6000x32_S32 hφ hacc (ix1 q) = ∑ k : Fin 6000, x (ix2 k q) :=
  (Ideal.multiReduction_add_single x 0x00000000#32 reduces_S6000x32_S32 hφ hacc (ix1 q)).trans
    (Finset.sum_congr rfl fun k _ => congrArg x (lift_eq q k))

/-- The first accumulator's payload at column `q`: what it held plus the block's column sum. -/
theorem pay4_apply (x : Vec Ideal S6000x32 .f32) (v : Vec Ideal S1x32 .f32) (u : Fin 1) (q : Fin 32) :
    k1_pay4 (F := Ideal) x v (ix2 u q) = v (ix2 u q) + ∑ k : Fin 6000, x (ix2 k q) := by
  unfold k1_pay4 k1_pay3
  dsimp only
  rw [shapeCast_self, shapeCast_self]
  refine (addf_apply _ _ _).trans (congrArg (v (ix2 u q) + ·) ?_)
  refine (shapeCast_a_1a_apply _ shapeCasts_S32_S1x32 u q).trans ?_
  exact colsum_apply x _ _ q

/-- The second accumulator's payload at column `q`: what it held plus the column sum of the block's squares. -/
theorem pay5_apply (x : Vec Ideal S6000x32 .f32) (v : Vec Ideal S1x32 .f32) (u : Fin 1) (q : Fin 32) :
    k1_pay5 (F := Ideal) x v (ix2 u q) = v (ix2 u q) + ∑ k : Fin 6000, x (ix2 k q) * x (ix2 k q) := by
  unfold k1_pay5 k1_pay3
  dsimp only
  rw [shapeCast_self, shapeCast_self]
  refine (addf_apply _ _ _).trans (congrArg (v (ix2 u q) + ·) ?_)
  refine (shapeCast_a_1a_apply _ shapeCasts_S32_S1x32 u q).trans ?_
  exact colsum_apply (mulf x x) _ _ q

/-- What the reset stores: the zero of f32, read over the extended reals. -/
abbrev Z : EReal := Ideal.ofBits .f32 0x00000000#32

theorem pay1_apply (j : S1x32.Idx) : k1_pay1 (F := Ideal) j = Z := rfl
theorem pay2_apply (j : S1x32.Idx) : k1_pay2 (F := Ideal) j = Z := rfl

/-! ## Sums over consecutive rows -/

/-- Row `r` of an array of 150000 rows at column `q`, as a function of a natural number (zero past the end). -/
def rowv (f : S150000x32.Idx → EReal) (q : Fin 32) (r : ℕ) : EReal :=
  if h : r < 150000 then f (ix2 ⟨r, h⟩ q) else 0

theorem rowv_lt (f : S150000x32.Idx → EReal) (q : Fin 32) (r : Fin 150000) : rowv f q r.val = f (ix2 r q) := by
  unfold rowv
  rw [dif_pos r.isLt]

/-- One more block of 6000 rows. -/
theorem range_block_succ (g : ℕ → EReal) (n : ℕ) :
    ∑ r ∈ Finset.range (6000 * (n + 1 + 1)), g r
      = ∑ r ∈ Finset.range (6000 * (n + 1)), g r + ∑ x ∈ Finset.range 6000, g (6000 * (n + 1) + x) := by
  rw [show 6000 * (n + 1 + 1) = 6000 * (n + 1) + 6000 from by ring, Finset.sum_range_add]

/-- The first block of 6000 rows. -/
theorem range_block_zero (g : ℕ → EReal) :
    ∑ x ∈ Finset.range 6000, g (6000 * 0 + x) = ∑ r ∈ Finset.range (6000 * (0 + 1)), g r := by
  rw [show 6000 * (0 + 1) = 6000 from by norm_num]
  exact Finset.sum_congr rfl fun x _ => by rw [Nat.mul_zero, Nat.zero_add]

/-- All 25 blocks: the sum over the natural numbers below 150000 is the sum over the rows. -/
theorem sum_rowv (f : S150000x32.Idx → EReal) (q : Fin 32) :
    ∑ r ∈ Finset.range (6000 * (24 + 1)), rowv f q r = ∑ r : Fin 150000, f (ix2 r q) := by
  rw [show 6000 * (24 + 1) = 150000 from by norm_num, ← Fin.sum_univ_eq_sum_range (fun r => rowv f q r) 150000]
  exact Finset.sum_congr rfl fun r _ => rowv_lt f q r

theorem sum_rowv_sq (f : S150000x32.Idx → EReal) (q : Fin 32) :
    ∑ r ∈ Finset.range (6000 * (24 + 1)), rowv f q r * rowv f q r = ∑ r : Fin 150000, f (ix2 r q) * f (ix2 r q) := by
  rw [show 6000 * (24 + 1) = 150000 from by norm_num,
    ← Fin.sum_univ_eq_sum_range (fun r => rowv f q r * rowv f q r) 150000]
  exact Finset.sum_congr rfl fun r _ => by rw [rowv_lt f q r]

/-! ## The region: the accumulators after each point, and the two result arrays -/

variable (V : (c : Dev nD) → (b : Ref sig .tc) → Buf (Elt Ideal) ((c : Thread nD τ).loc b))

/-- The input array as the region finds it, as a function of its index into the extended reals. -/
abbrev arr (c : Dev nD) : S150000x32.Idx → EReal := V c main_v48

/-- The input window's block at point `t`, as a [6000, 32] vector over the extended reals. -/
abbrev blk (c : Dev nD) (t : Fin cfg1.N) : Vec Ideal S6000x32 .f32 := iblk1 (F := Ideal) V c 0 t

/-- The input window's block index at point `t` is `(t, 0)`: decided over the 25 points. -/
theorem idx_facts : ∀ t : Fin cfg1.N, win1_0.index t (0 : Fin 2) = t.val ∧ win1_0.index t (1 : Fin 2) = 0 :=
  (by decide +kernel : ∀ t : Fin grid1.N, _)

/-- Entry `(k, q)` of the input block at point `t` is entry `(6000 t + k, q)` of the array. -/
theorem blk_apply (c : Dev nD) (t : Fin cfg1.N) (k : Fin 6000) (q : Fin 32) :
    blk V c t (ix2 k q)
      = rowv (arr V c) q (6000 * t.val + k.val) := by
  have hN : t.val < 25 := lt_of_lt_of_eq t.isLt (show cfg1.N = 25 from N_1)
  have hk : k.val < 6000 := k.isLt
  have hb : 6000 * t.val + k.val < 150000 := by omega
  obtain ⟨e0, e1⟩ := idx_facts t
  unfold rowv
  rw [dif_pos hb]
  show arr V c (((cfg1.win 0).blk t).view.emb (ix2 k q)) = arr V c (ix2 ⟨6000 * t.val + k.val, hb⟩ q)
  refine congrArg (arr V c) ?_
  funext a
  apply Fin.ext
  match a with
  | ⟨0, _⟩ => show win1_0.index t (0 : Fin 2) * 6000 + 1 * k.val = 6000 * t.val + k.val; rw [e0]; omega
  | ⟨1, _⟩ => show win1_0.index t (1 : Fin 2) * 32 + 1 * q.val = q.val; rw [e1]; omega

/-- The column sum of the block at point `t` is the sum of rows `6000 t` … `6000 t + 5999` of the array. -/
theorem blk_colsum (c : Dev nD) (t : Fin cfg1.N) (q : Fin 32) :
    ∑ k : Fin 6000, blk V c t (ix2 k q)
      = ∑ x ∈ Finset.range 6000, rowv (arr V c) q (6000 * t.val + x) := by
  rw [← Fin.sum_univ_eq_sum_range (fun x => rowv (arr V c) q (6000 * t.val + x)) 6000]
  exact Finset.sum_congr rfl fun k _ => blk_apply V c t k q

theorem blk_colsum_sq (c : Dev nD) (t : Fin cfg1.N) (q : Fin 32) :
    ∑ k : Fin 6000, blk V c t (ix2 k q)
        * blk V c t (ix2 k q)
      = ∑ x ∈ Finset.range 6000, rowv (arr V c) q (6000 * t.val + x) * rowv (arr V c) q (6000 * t.val + x) := by
  rw [← Fin.sum_univ_eq_sum_range
    (fun x => rowv (arr V c) q (6000 * t.val + x) * rowv (arr V c) q (6000 * t.val + x)) 6000]
  exact Finset.sum_congr rfl fun k _ => by rw [blk_apply V c t k q]

/-- THE INVARIANT. After point `n` the first accumulator holds, at column `q`, the zero plus the sum of the first
    `6000 (n + 1)` rows of the array, the second the zero plus the sum of their squares — by induction on the point. -/
theorem outsAt_eq (c : Dev nD) (u : Fin 1) (q : Fin 32) : ∀ (n : ℕ) (h : n < cfg1.N),
    (outsAt1 (F := Ideal) V c n h).1 (ix2 u q)
        = Z + ∑ r ∈ Finset.range (6000 * (n + 1)), rowv (arr V c) q r
      ∧ (outsAt1 (F := Ideal) V c n h).2 (ix2 u q)
        = Z + ∑ r ∈ Finset.range (6000 * (n + 1)), rowv (arr V c) q r * rowv (arr V c) q r
  | 0, h => by
    rw [outsAt1_A V c ⟨0, h⟩ rfl]
    dsimp only
    rw [out_A_1, out_A_2]
    constructor
    · refine (pay4_apply (blk V c ⟨0, h⟩) (k1_pay1 (F := Ideal)) u q).trans ?_
      rw [pay1_apply, blk_colsum V c ⟨0, h⟩ q]
      exact congrArg (Z + ·) (range_block_zero (fun r => rowv (arr V c) q r))
    · refine (pay5_apply (blk V c ⟨0, h⟩) (k1_pay2 (F := Ideal)) u q).trans ?_
      rw [pay2_apply, blk_colsum_sq V c ⟨0, h⟩ q]
      exact congrArg (Z + ·) (range_block_zero (fun r => rowv (arr V c) q r * rowv (arr V c) q r))
  | n + 1, h => by
    have hN : cfg1.N = 25 := N_1
    have hB : ¬(⟨n + 1, h⟩ : Fin cfg1.N).val % 25 = 0 := by dsimp only; omega
    obtain ⟨ih1, ih2⟩ := outsAt_eq c u q n (Nat.lt_of_succ_lt h)
    rw [outsAt1_B V c ⟨n + 1, h⟩ hB]
    dsimp only
    rw [out_B_1, out_B_2]
    constructor
    · refine (pay4_apply (blk V c ⟨n + 1, h⟩)
        (outsAt1 (F := Ideal) V c n (Nat.lt_of_succ_lt h)).1 u q).trans ?_
      rw [ih1, blk_colsum V c ⟨n + 1, h⟩ q, range_block_succ, add_assoc]
    · refine (pay5_apply (blk V c ⟨n + 1, h⟩)
        (outsAt1 (F := Ideal) V c n (Nat.lt_of_succ_lt h)).2 u q).trans ?_
      rw [ih2, blk_colsum_sq V c ⟨n + 1, h⟩ q, range_block_succ, add_assoc]

/-- The last point. -/
theorem h24 : 24 < cfg1.N := by rw [show cfg1.N = 25 from N_1]; decide
abbrev t24 : Fin cfg1.N := ⟨24, h24⟩

/-- The two accumulators after the last point, as contents of the two result arrays (each one's single block is
    the whole array). -/
abbrev res1 (c : Dev nD) : Buf (Elt Ideal) ((c : Thread nD τ).loc main_v49_0) := (outsAt1 (F := Ideal) V c 24 h24).1
abbrev res2 (c : Dev nD) : Buf (Elt Ideal) ((c : Thread nD τ).loc main_v49_1) := (outsAt1 (F := Ideal) V c 24 h24).2

/-- The one write-back of the first result, at the last point, writes the first accumulator. -/
theorem flushed_eq1 (c : Dev nD) (t : Fin cfg1.N) (hf : (cfg1.win 1).flush t = true) :
    (dat1 (F := Ideal) V c).flushed 1 t = ((cfg1.win 1).blk t).view.read (Elt Ideal) (res1 V c) := by
  have hN : cfg1.N = 25 := N_1
  have h3 : t.val = 24 := by have := (flush1_1 t).mp hf; have := t.isLt; omega
  obtain rfl : t = t24 := Fin.ext h3
  show (cfg1.win 1).cut (grid1.coords t24) ((dat1 (F := Ideal) V c).after 1 t24) = _
  rw [after1_1]
  have hz' : (fun a => win1_1.index t24 a * main_v49_0.ty.shape.size a) = fun _ => 0 :=
    funext fun a => by fin_cases a <;> decide
  exact (Memref.read_access_unit_zero (Elt Ideal) main_v49_0 hz' (fun a => by rw [congrFun hz' a]; simp) (res1 V c)).symm

/-- The one write-back of the second result, at the last point, writes the second accumulator. -/
theorem flushed_eq2 (c : Dev nD) (t : Fin cfg1.N) (hf : (cfg1.win 2).flush t = true) :
    (dat1 (F := Ideal) V c).flushed 2 t = ((cfg1.win 2).blk t).view.read (Elt Ideal) (res2 V c) := by
  have hN : cfg1.N = 25 := N_1
  have h3 : t.val = 24 := by have := (flush1_2 t).mp hf; have := t.isLt; omega
  obtain rfl : t = t24 := Fin.ext h3
  show (cfg1.win 2).cut (grid1.coords t24) ((dat1 (F := Ideal) V c).after 2 t24) = _
  rw [after1_2]
  have hz' : (fun a => win1_2.index t24 a * main_v49_1.ty.shape.size a) = fun _ => 0 :=
    funext fun a => by fin_cases a <;> decide
  exact (Memref.read_access_unit_zero (Elt Ideal) main_v49_1 hz' (fun a => by rw [congrFun hz' a]; simp) (res2 V c)).symm

/-- So the first result array ends holding the first accumulator after the last point (whose block covers it). -/
theorem final1 (c : Dev nD) : (dat1 (F := Ideal) V c).arrAt 1 cfg1.N = res1 V c :=
  (dat1 (F := Ideal) V c).arrAt_eq_of_cover 1 (res1 V c) (flushed_eq1 V c) fun i =>
    ⟨t24, (flush1_1 t24).mpr rfl, by
      show i ∈ ((View.whole main_v49_0).slice (win1_1.rect t24)).set
      rw [View.set_slice_whole, Rect.mem_set_unit]
      intro a
      have h0 : (i 0 : Nat) < 1 := (i 0).isLt
      have h1 : (i 1 : Nat) < 32 := (i 1).isLt
      match a with
      | ⟨0, _⟩ => show win1_1.index t24 0 * win1_1.size 0 ≤ (i 0 : Nat) ∧ (i 0 : Nat) < win1_1.index t24 0 * win1_1.size 0 + win1_1.xsize (grid1.coords t24) 0
                  rw [show win1_1.index t24 0 * win1_1.size 0 = 0 from by decide +kernel, show win1_1.xsize (grid1.coords t24) 0 = 1 from by decide +kernel]; omega
      | ⟨1, _⟩ => show win1_1.index t24 1 * win1_1.size 1 ≤ (i 1 : Nat) ∧ (i 1 : Nat) < win1_1.index t24 1 * win1_1.size 1 + win1_1.xsize (grid1.coords t24) 1
                  rw [show win1_1.index t24 1 * win1_1.size 1 = 0 from by decide +kernel, show win1_1.xsize (grid1.coords t24) 1 = 32 from by decide +kernel]; omega⟩

/-- And the second result array the second accumulator. -/
theorem final2 (c : Dev nD) : (dat1 (F := Ideal) V c).arrAt 2 cfg1.N = res2 V c :=
  (dat1 (F := Ideal) V c).arrAt_eq_of_cover 2 (res2 V c) (flushed_eq2 V c) fun i =>
    ⟨t24, (flush1_2 t24).mpr rfl, by
      show i ∈ ((View.whole main_v49_1).slice (win1_2.rect t24)).set
      rw [View.set_slice_whole, Rect.mem_set_unit]
      intro a
      have h0 : (i 0 : Nat) < 1 := (i 0).isLt
      have h1 : (i 1 : Nat) < 32 := (i 1).isLt
      match a with
      | ⟨0, _⟩ => show win1_2.index t24 0 * win1_2.size 0 ≤ (i 0 : Nat) ∧ (i 0 : Nat) < win1_2.index t24 0 * win1_2.size 0 + win1_2.xsize (grid1.coords t24) 0
                  rw [show win1_2.index t24 0 * win1_2.size 0 = 0 from by decide +kernel, show win1_2.xsize (grid1.coords t24) 0 = 1 from by decide +kernel]; omega
      | ⟨1, _⟩ => show win1_2.index t24 1 * win1_2.size 1 ≤ (i 1 : Nat) ∧ (i 1 : Nat) < win1_2.index t24 1 * win1_2.size 1 + win1_2.xsize (grid1.coords t24) 1
                  rw [show win1_2.index t24 1 * win1_2.size 1 = 0 from by decide +kernel, show win1_2.xsize (grid1.coords t24) 1 = 32 from by decide +kernel]; omega⟩

/-- THE FIRST RESULT: entry `(0, q)` of the first result array is the zero plus the sum of column `q` of the
    input array over all its 150000 rows. -/
theorem final_sum (c : Dev nD) (i : S1x32.Idx) :
    (dat1 (F := Ideal) V c).arrAt 1 cfg1.N i = Z + ∑ r : Fin 150000, arr V c (ix2 r (i 1)) := by
  obtain ⟨u, q, rfl⟩ : ∃ (u : Fin 1) (q : Fin 32), i = ix2 u q := ⟨i 0, i 1, eq_ix2 i⟩
  rw [final1]
  show (outsAt1 (F := Ideal) V c 24 h24).1 (ix2 u q) = Z + ∑ r : Fin 150000, arr V c (ix2 r q)
  rw [(outsAt_eq V c u q 24 h24).1, sum_rowv]

/-- THE SECOND RESULT: entry `(0, q)` of the second result array is the zero plus the sum of the squares of
    column `q` of the input array over all its 150000 rows. -/
theorem final_sumsq (c : Dev nD) (i : S1x32.Idx) :
    (dat1 (F := Ideal) V c).arrAt 2 cfg1.N i
      = Z + ∑ r : Fin 150000, arr V c (ix2 r (i 1)) * arr V c (ix2 r (i 1)) := by
  obtain ⟨u, q, rfl⟩ : ∃ (u : Fin 1) (q : Fin 32), i = ix2 u q := ⟨i 0, i 1, eq_ix2 i⟩
  rw [final2]
  show (outsAt1 (F := Ideal) V c 24 h24).2 (ix2 u q)
    = Z + ∑ r : Fin 150000, arr V c (ix2 r q) * arr V c (ix2 r q)
  rw [(outsAt_eq V c u q 24 h24).2, sum_rowv_sq]

/-- The same two results with the zero word read: it is the zero of the extended reals. -/
theorem final_sum_zero (c : Dev nD) (i : S1x32.Idx) :
    (dat1 (F := Ideal) V c).arrAt 1 cfg1.N i = ∑ r : Fin 150000, arr V c (ix2 r (i 1)) := by
  rw [final_sum, show Z = 0 from Ideal.ofBits_zero_f32, zero_add]

theorem final_sumsq_zero (c : Dev nD) (i : S1x32.Idx) :
    (dat1 (F := Ideal) V c).arrAt 2 cfg1.N i
      = ∑ r : Fin 150000, arr V c (ix2 r (i 1)) * arr V c (ix2 r (i 1)) := by
  rw [final_sumsq, show Z = 0 from Ideal.ofBits_zero_f32, zero_add]

end Cert.KernelIdeal.RegStats

end
-- ==== Proof.RegNorm.lean ====
/-
  The batch-normalisation region of the kernel program, read as one whole-array function.

  The region walks the node array h : [150000, 32] in 25 row blocks of 6000 rows; the four row vectors
  mean, var, gamma, beta : [1, 32] are whole blocks whose index never moves. At every point it writes back
      out(r, q) = max ((h(r, q) − mean(0, q)) · rsqrt (var(0, q) + ε) · gamma(0, q) + beta(0, q), 0)
  for the rows r of the block, so after the last point the output array is that function of the five arrays the
  region found, entry by entry: the 25 blocks tile the array.
-/
import proofs.«160986_j12446815224230_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegNorm

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One normalised entry: shift by the mean, scale by the inverse deviation and by gamma, shift by beta, clamp at 0. -/
def norm1 (h mean var gamma beta : EReal) : EReal :=
  max ((h - mean) * Ideal.rsqrt (var + Ideal.ofBits .f32 0x3727C5AC#32) * gamma + beta)
    (Ideal.ofBits .f32 0x00000000#32)

/-- Column q of a one-row array. -/
abbrev rowIdx (q : Fin 32) : S1x32.Idx := ix2 (0 : Fin 1) q

/-- The entry of a one-row array in the column of an entry of the node array. -/
abbrev colOf (i : S150000x32.Idx) : S1x32.Idx := fun a => match a with
  | ⟨0, _⟩ => ⟨0, Nat.one_pos⟩
  | ⟨1, _⟩ => ⟨(i 1).val, (i 1).isLt⟩

/-- The whole normalised array from the node array and the four row vectors. -/
def G (h : S150000x32.Idx → EReal) (mean var gamma beta : S1x32.Idx → EReal) : S150000x32.Idx → EReal :=
  fun i => norm1 (h i) (mean (colOf i)) (var (colOf i)) (gamma (colOf i)) (beta (colOf i))

/-- A row vector broadcast along the rows, read at (p, q), is its column q. -/
theorem bcast_row {α : Type} (x : S1x32.Idx → α) (p : Fin 6000) (q : Fin 32) :
    broadcastTo S6000x32 x broadcasts_S1x32_S6000x32 (ix2 p q) = x (rowIdx q) :=
  broadcastTo_apply x broadcasts_S1x32_S6000x32 (ix2 p q) (rowIdx q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The body's arithmetic at entry (p, q) of a block. -/
theorem pay_apply (x0 : Vec Ideal S6000x32 .f32) (v mn g b : Vec Ideal S1x32 .f32) (p : Fin 6000) (q : Fin 32) :
    k2_pay1 x0 v mn g b (ix2 p q)
      = norm1 (x0 (ix2 p q)) (mn (rowIdx q)) (v (rowIdx q)) (g (rowIdx q)) (b (rowIdx q)) := by
  unfold k2_pay1 norm1
  simp only [shapeCast_self, maximumf_apply, addf_apply, mulf_apply, subf_apply, bcast_row, broadcast_apply]
  rfl

/-- The windows' block indices over the 25 points: the node array's and the output's blocks move down the rows, the
    row vectors' block stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the whole normalised array. -/
theorem flushed_eq (c : Dev nD) (t : Fin cfg2.N) :
    (dat2 (F := Ideal) V c).flushed 5 t
      = ((cfg2.win 5).blk t).view.read (Elt Ideal)
          (G (V c main_v48) (V c main_v60) (V c main_v61) (V c main_v62) (V c main_v63)) := by
  show (cfg2.win 5).cut (grid2.coords t) ((dat2 (F := Ideal) V c).after 5 t) = _
  rw [after2_5]
  unfold out2_5
  rw [View.canon_unit_zero hz]
  simp only [View.ld_unit_zero (S := S6000x32) hz, View.ld_unit_zero (S := S1x32) hz]
  obtain ⟨e00, e01, e10, e11, e20, e21, e30, e31, e40, e41, e50, e51⟩ := idx_facts t
  funext j
  obtain ⟨p, q, rfl⟩ : ∃ (p : Fin 6000) (q : Fin 32), j = ix2 p q := ⟨j 0, j 1, eq_ix2 j⟩
  show k2_pay1 (iblk2 V c 0 t) (iblk2 V c 2 t) (iblk2 V c 1 t) (iblk2 V c 3 t) (iblk2 V c 4 t) (ix2 p q)
    = G (V c main_v48) (V c main_v60) (V c main_v61) (V c main_v62) (V c main_v63)
        (((cfg2.win 5).blk t).view.emb (ix2 p q))
  refine (pay_apply (iblk2 V c 0 t) (iblk2 V c 2 t) (iblk2 V c 1 t) (iblk2 V c 3 t) (iblk2 V c 4 t) p q).trans ?_
  have h0 : iblk2 V c 0 t (ix2 p q) = V c main_v48 (((cfg2.win 5).blk t).view.emb (ix2 p q)) := by
    show V c main_v48 (((cfg2.win 0).blk t).view.emb (ix2 p q)) = _
    refine congrArg (V c main_v48) (funext fun a => Fin.ext ?_)
    match a with
    | ⟨0, _⟩ => show win2_0.index t (0 : Fin 2) * 6000 + 1 * p.val = win2_5.index t (0 : Fin 2) * 6000 + 1 * p.val; omega
    | ⟨1, _⟩ => show win2_0.index t (1 : Fin 2) * 32 + 1 * q.val = win2_5.index t (1 : Fin 2) * 32 + 1 * q.val; omega
  have hc : colOf (((cfg2.win 5).blk t).view.emb (ix2 p q)) = rowIdx q := by
    funext a; apply Fin.ext
    match a with
    | ⟨0, _⟩ => rfl
    | ⟨1, _⟩ => show win2_5.index t (1 : Fin 2) * 32 + 1 * q.val = q.val; omega
  have h1 : iblk2 V c 1 t (rowIdx q) = V c main_v60 (rowIdx q) := by
    show V c main_v60 (((cfg2.win 1).blk t).view.emb (rowIdx q)) = _
    refine congrArg (V c main_v60) (funext fun a => Fin.ext ?_)
    match a with
    | ⟨0, _⟩ => show win2_1.index t (0 : Fin 2) * 1 + 1 * 0 = 0; omega
    | ⟨1, _⟩ => show win2_1.index t (1 : Fin 2) * 32 + 1 * q.val = q.val; omega
  have h2 : iblk2 V c 2 t (rowIdx q) = V c main_v61 (rowIdx q) := by
    show V c main_v61 (((cfg2.win 2).blk t).view.emb (rowIdx q)) = _
    refine congrArg (V c main_v61) (funext fun a => Fin.ext ?_)
    match a with
    | ⟨0, _⟩ => show win2_2.index t (0 : Fin 2) * 1 + 1 * 0 = 0; omega
    | ⟨1, _⟩ => show win2_2.index t (1 : Fin 2) * 32 + 1 * q.val = q.val; omega
  have h3 : iblk2 V c 3 t (rowIdx q) = V c main_v62 (rowIdx q) := by
    show V c main_v62 (((cfg2.win 3).blk t).view.emb (rowIdx q)) = _
    refine congrArg (V c main_v62) (funext fun a => Fin.ext ?_)
    match a with
    | ⟨0, _⟩ => show win2_3.index t (0 : Fin 2) * 1 + 1 * 0 = 0; omega
    | ⟨1, _⟩ => show win2_3.index t (1 : Fin 2) * 32 + 1 * q.val = q.val; omega
  have h4 : iblk2 V c 4 t (rowIdx q) = V c main_v63 (rowIdx q) := by
    show V c main_v63 (((cfg2.win 4).blk t).view.emb (rowIdx q)) = _
    refine congrArg (V c main_v63) (funext fun a => Fin.ext ?_)
    match a with
    | ⟨0, _⟩ => show win2_4.index t (0 : Fin 2) * 1 + 1 * 0 = 0; omega
    | ⟨1, _⟩ => show win2_4.index t (1 : Fin 2) * 32 + 1 * q.val = q.val; omega
  unfold G
  rw [hc, h0, h1, h2, h3, h4]

/-- An index of the output array is in point t's block iff each coordinate is in the block's range on its axis. -/
theorem mem_blk (t : Fin cfg2.N) (i : S150000x32.Idx) :
    i ∈ ((cfg2.win 5).blk t).view.set ↔ ∀ a : Fin 2, win2_5.index t a * S6000x32.size a ≤ (i a).val
      ∧ (i a).val < win2_5.index t a * S6000x32.size a + S6000x32.size a := by
  show i ∈ ((View.whole main_v64).slice (win2_5.rect t)).set ↔ _
  rw [View.set_slice_whole, Rect.mem_set_unit]
  exact Iff.rfl

/-- After the 25 points the output array is the whole normalised array: row r lies in the block of point r / 6000. -/
theorem final (c : Dev nD) :
    (dat2 (F := Ideal) V c).arrAt 5 cfg2.N
      = G (V c main_v48) (V c main_v60) (V c main_v61) (V c main_v62) (V c main_v63) :=
  (dat2 (F := Ideal) V c).arrAt_eq_of_cover 5 _ (fun t _ => flushed_eq V c t) (fun i => by
    have hi0 : (i 0).val < 150000 := (i 0).isLt
    have hi1 : (i 1).val < 32 := (i 1).isLt
    have hN : cfg2.N = 25 := N_2
    have ht : (i 0).val / 6000 < cfg2.N := by rw [hN]; omega
    refine ⟨⟨(i 0).val / 6000, ht⟩, flush2_5 _, ?_⟩
    rw [mem_blk]
    obtain ⟨e00, e01, e10, e11, e20, e21, e30, e31, e40, e41, e50, e51⟩ := idx_facts ⟨(i 0).val / 6000, ht⟩
    intro a
    match a with
    | ⟨0, _⟩ =>
      show win2_5.index ⟨(i 0).val / 6000, ht⟩ (0 : Fin 2) * 6000 ≤ (i 0).val
        ∧ (i 0).val < win2_5.index ⟨(i 0).val / 6000, ht⟩ (0 : Fin 2) * 6000 + 6000
      rw [e50]; show (i 0).val / 6000 * 6000 ≤ (i 0).val ∧ (i 0).val < (i 0).val / 6000 * 6000 + 6000; omega
    | ⟨1, _⟩ =>
      show win2_5.index ⟨(i 0).val / 6000, ht⟩ (1 : Fin 2) * 32 ≤ (i 1).val
        ∧ (i 1).val < win2_5.index ⟨(i 0).val / 6000, ht⟩ (1 : Fin 2) * 32 + 32
      rw [e51]; omega)

end Cert.KernelIdeal.RegNorm

end
-- ==== Proof.RegHead.lean ====
import proofs.«160986_j12446815224230_2_alg».proof.Proof.Gen.KernelIdeal.Frame
import proofs.«160986_j12446815224230_2_alg».proof.Proof.Gen.ReferenceIdeal
import proofs.«160986_j12446815224230_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

/-!
# The two-layer head region as one whole-array equation

Region 4 takes the 8192×64 array in 4 row blocks of 2048 rows and holds two weight matrices (64×128, 128×128) and two
bias rows (1×128) whole. On the extended reals a format change is the identity and a product into the zero accumulator
is the plain sum over the contracted axis, so each point writes back the corresponding row block of

  max (A · B + b₁, 0) · W + b₂

with the bias rows repeated down the rows; the 4 row blocks tile the output array, which therefore ends holding that
expression of the arrays as the region finds them.
-/

noncomputable section

namespace Cert.KernelIdeal.RegHead

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The two zero offsets of a rank-2 rectangle, as the constant function. -/
theorem zero2 : (![0, 0] : Fin 2 → Nat) = fun _ => 0 := funext fun a => by fin_cases a <;> rfl

/-- The host's plain M×K by K×N product at entry (r, q): on the extended reals, the sum over the contracted axis of
    left (r, k) times right (k, q). -/
theorem hostDot_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    Host.dotGeneral (F := Ideal) (DotDims.plain M K N) prec A B (ix2 r q) = ∑ k : Fin K, A (ix2 r k) * B (ix2 k q) := by
  show FloatOps.dotGeneral (DotDims.plain M K N) prec .single A B (ix2 r q) = _
  rw [Ideal.dotGeneral_apply,
    ← Equiv.sum_comp (contrEquiv1 (DotDims.plain M K N) K (Cert.PlainDot.contr_rank M K N) (Cert.PlainDot.contr_size M K N)).symm]
  refine Finset.sum_congr rfl fun k _ => ?_
  rw [Cert.PlainDot.lhsIdx_eq, Cert.PlainDot.rhsIdx_eq]

/-! ## The head at one entry -/

/-- Entry q of the head applied to one row a of the input: the hidden row max (a · B + b₁, 0), times W, plus b₂. -/
def headAt (a : Fin 64 → EReal) (B : FVec Ideal S64x128 .f32) (b1 : FVec Ideal S1x128 .f32)
    (W : FVec Ideal S128x128 .f32) (b2 : FVec Ideal S1x128 .f32) (q : Fin 128) : EReal :=
  (∑ j : Fin 128, max ((∑ k : Fin 64, a k * B (ix2 k j)) + b1 (ix2 (0 : Fin 1) j)) (Ideal.ofBits .f32 0x00000000#32)
      * W (ix2 j q)) + b2 (ix2 (0 : Fin 1) q)

/-- One row block's head at entry (p, q). -/
theorem pay4_apply (x0 : Vec Ideal S2048x64 .f32) (x1 : Vec Ideal S64x128 .f32) (x2 : Vec Ideal S1x128 .f32)
    (x3 : Vec Ideal S128x128 .f32) (x4 : Vec Ideal S1x128 .f32) (p : Fin 2048) (q : Fin 128) :
    k4_pay1 (F := Ideal) x0 x1 x2 x3 x4 (ix2 p q) = headAt (fun k => x0 (ix2 p k)) x1 x2 x3 x4 q := by
  unfold k4_pay1 headAt
  refine (addf_apply _ _ (ix2 p q)).trans ?_
  refine congrArg₂ (· + ·) ?_ ?_
  · refine (Cert.PlainDot.matmul_zero_apply 2048 128 128 none _ _ p q).trans ?_
    refine Finset.sum_congr rfl fun j _ => ?_
    refine congrArg₂ (· * ·) ?_ rfl
    refine (truncf_apply (ψ := .bf16) _ bitsLt_bf16_f32 (ix2 p j)).trans ?_
    refine (maximumf_apply _ _ (ix2 p j)).trans ?_
    refine congrArg₂ max ?_ rfl
    refine (addf_apply _ _ (ix2 p j)).trans ?_
    refine congrArg₂ (· + ·) ?_ ?_
    · refine (Cert.PlainDot.matmul_zero_apply 2048 64 128 none _ _ p j).trans ?_
      refine Finset.sum_congr rfl fun k _ => ?_
      rw [truncf_apply, truncf_apply, shapeCast_self]
    · rw [shapeCast_self]
      exact broadcastTo_1b_ab_apply x2 _ p j
  · rw [shapeCast_self]
    exact broadcastTo_1b_ab_apply x4 _ p q

/-- The reference's head, as its operations: two products, two repeated bias rows, a maximum with the zero constant. -/
def refHead (A : FVec Ideal S8192x64 .f32) (B : FVec Ideal S64x128 .f32) (b1 : FVec Ideal S1x128 .f32)
    (W : FVec Ideal S128x128 .f32) (b2 : FVec Ideal S1x128 .f32) : FVec Ideal S8192x128 .f32 :=
  addf (Host.dotGeneral (F := Ideal) Cert.ReferenceIdeal.dot_S8192x128_S128x128_S8192x128_1_0_0_1_n_n none
      (maximumf (addf (Host.dotGeneral (F := Ideal) Cert.ReferenceIdeal.dot_S8192x64_S64x128_S8192x128_1_0_0_1_n_n none A B)
          (broadcastInDim S8192x128 ![0, 1] Cert.ReferenceIdeal.Facts₀.bcast_S1x128_S8192x128_0_1 b1))
        (broadcastInDim S8192x128 ![] Cert.ReferenceIdeal.Facts₀.bcast_S_S8192x128 (constant (F := Ideal) S_ .f32 0x00000000#32))) W)
    (broadcastInDim S8192x128 ![0, 1] Cert.ReferenceIdeal.Facts₀.bcast_S1x128_S8192x128_0_1 b2)

/-- A bias row repeated down 8192 rows reads, at (r, q), the row at q. -/
theorem biasRow_apply (b : FVec Ideal S1x128 .f32) (r : Fin 8192) (q : Fin 128) :
    broadcastInDim S8192x128 ![0, 1] Cert.ReferenceIdeal.Facts₀.bcast_S1x128_S8192x128_0_1 b (ix2 r q) = b (ix2 (0 : Fin 1) q) := by
  refine broadcastInDim_apply _ Cert.ReferenceIdeal.Facts₀.bcast_S1x128_S8192x128_0_1 b (ix2 r q) (ix2 (0 : Fin 1) q) fun a => ?_
  match a with
  | ⟨0, _⟩ => show 0 = if (1 : Nat) = 1 then 0 else r.val; rw [if_pos rfl]
  | ⟨1, _⟩ => show q.val = if (128 : Nat) = 1 then 0 else q.val; rw [if_neg (by decide)]

/-- The zero constant repeated over the array reads the zero word's value everywhere. -/
theorem zeroFill_apply (i : S8192x128.Idx) :
    broadcastInDim S8192x128 ![] Cert.ReferenceIdeal.Facts₀.bcast_S_S8192x128 (constant (F := Ideal) S_ .f32 0x00000000#32) i
      = Ideal.ofBits .f32 0x00000000#32 :=
  broadcastInDim_apply _ Cert.ReferenceIdeal.Facts₀.bcast_S_S8192x128 (constant (F := Ideal) S_ .f32 0x00000000#32) i ix0
    (fun a => a.elim0)

/-- The reference's head at entry (r, q). -/
theorem refHead_apply (A : FVec Ideal S8192x64 .f32) (B : FVec Ideal S64x128 .f32) (b1 : FVec Ideal S1x128 .f32)
    (W : FVec Ideal S128x128 .f32) (b2 : FVec Ideal S1x128 .f32) (r : Fin 8192) (q : Fin 128) :
    refHead A B b1 W b2 (ix2 r q) = headAt (fun k => A (ix2 r k)) B b1 W b2 q := by
  unfold refHead headAt
  refine (addf_apply _ _ (ix2 r q)).trans ?_
  refine congrArg₂ (· + ·) ?_ (biasRow_apply b2 r q)
  refine (hostDot_apply 8192 128 128 none _ W r q).trans ?_
  refine Finset.sum_congr rfl fun j _ => ?_
  refine congrArg₂ (· * ·) ?_ rfl
  refine (maximumf_apply _ _ (ix2 r j)).trans ?_
  refine congrArg₂ max ?_ (zeroFill_apply (ix2 r j))
  refine (addf_apply _ _ (ix2 r j)).trans ?_
  exact congrArg₂ (· + ·) (hostDot_apply 8192 64 128 none A B r j) (biasRow_apply b1 r j)

variable (V : (c : Dev nD) → (b : Ref sig .tc) → Buf (Elt Ideal) ((c : Thread nD τ).loc b))

/-! ## Region 4: the blocks, what each point writes back, and the whole array -/

/-- The block indices of the six windows at point t: the row-blocked input and output are at block (t, 0), the weights
    and bias rows at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The input's block at point t is rows 2048 t … 2048 t + 2047 of its array. -/
theorem in4_apply (c : Dev nD) (t : Fin cfg4.N) (p : Fin 2048) (k : Fin 64) (r : Fin 8192)
    (hr : r.val = t.val * 2048 + p.val) :
    (iblk4 (F := Ideal) V c 0 t : Vec Ideal S2048x64 .f32) (ix2 p k) = (V c main_v93 : Vec Ideal S8192x64 .f32) (ix2 r k) := by
  obtain ⟨e0, e1, -⟩ := idx4 t
  unfold iblk4
  rw [View.read_apply]
  show V c main_v93 _ = V c main_v93 _
  congr 1
  funext a
  apply Fin.ext
  match a with
  | ⟨0, _⟩ => show win4_0.index t (0 : Fin 2) * 2048 + 1 * p.val = r.val; rw [e0, hr]; omega
  | ⟨1, _⟩ => show win4_0.index t (1 : Fin 2) * 64 + 1 * k.val = k.val; rw [e1]; omega

/-- The first weight matrix's block at every point is the whole matrix. -/
theorem w1_eq (c : Dev nD) (t : Fin cfg4.N) :
    (iblk4 (F := Ideal) V c 1 t : Vec Ideal S64x128 .f32) = (V c main_arg9 : Vec Ideal S64x128 .f32) := by
  obtain ⟨-, -, e0, e1, -⟩ := idx4 t
  funext j
  unfold iblk4
  rw [View.read_apply]
  show V c main_arg9 _ = V c main_arg9 _
  congr 1
  funext a
  apply Fin.ext
  match a with
  | ⟨0, _⟩ => show win4_1.index t (0 : Fin 2) * 64 + 1 * (j 0).val = (j 0).val; rw [e0]; omega
  | ⟨1, _⟩ => show win4_1.index t (1 : Fin 2) * 128 + 1 * (j 1).val = (j 1).val; rw [e1]; omega

/-- The first bias row's block at every point is the whole row. -/
theorem b1_eq (c : Dev nD) (t : Fin cfg4.N) :
    (iblk4 (F := Ideal) V c 2 t : Vec Ideal S1x128 .f32) = (V c main_v94 : Vec Ideal S1x128 .f32) := by
  obtain ⟨-, -, -, -, e0, e1, -⟩ := idx4 t
  funext j
  unfold iblk4
  rw [View.read_apply]
  show V c main_v94 _ = V c main_v94 _
  congr 1
  funext a
  apply Fin.ext
  match a with
  | ⟨0, _⟩ => show win4_2.index t (0 : Fin 2) * 1 + 1 * (j 0).val = (j 0).val; rw [e0]; omega
  | ⟨1, _⟩ => show win4_2.index t (1 : Fin 2) * 128 + 1 * (j 1).val = (j 1).val; rw [e1]; omega

/-- The second weight matrix's block at every point is the whole matrix. -/
theorem w2_eq (c : Dev nD) (t : Fin cfg4.N) :
    (iblk4 (F := Ideal) V c 3 t : Vec Ideal S128x128 .f32) = (V c main_arg11 : Vec Ideal S128x128 .f32) := by
  obtain ⟨-, -, -, -, -, -, e0, e1, -⟩ := idx4 t
  funext j
  unfold iblk4
  rw [View.read_apply]
  show V c main_arg11 _ = V c main_arg11 _
  congr 1
  funext a
  apply Fin.ext
  match a with
  | ⟨0, _⟩ => show win4_3.index t (0 : Fin 2) * 128 + 1 * (j 0).val = (j 0).val; rw [e0]; omega
  | ⟨1, _⟩ => show win4_3.index t (1 : Fin 2) * 128 + 1 * (j 1).val = (j 1).val; rw [e1]; omega

/-- The second bias row's block at every point is the whole row. -/
theorem b2_eq (c : Dev nD) (t : Fin cfg4.N) :
    (iblk4 (F := Ideal) V c 4 t : Vec Ideal S1x128 .f32) = (V c main_v95 : Vec Ideal S1x128 .f32) := by
  obtain ⟨-, -, -, -, -, -, -, -, e0, e1, -⟩ := idx4 t
  funext j
  unfold iblk4
  rw [View.read_apply]
  show V c main_v95 _ = V c main_v95 _
  congr 1
  funext a
  apply Fin.ext
  match a with
  | ⟨0, _⟩ => show win4_4.index t (0 : Fin 2) * 1 + 1 * (j 0).val = (j 0).val; rw [e0]; omega
  | ⟨1, _⟩ => show win4_4.index t (1 : Fin 2) * 128 + 1 * (j 1).val = (j 1).val; rw [e1]; omega

/-- What point t writes back is row block t of the head of the arrays. -/
theorem flushed4 (c : Dev nD) (t : Fin cfg4.N) :
    (dat4 (F := Ideal) V c).flushed 5 t = ((cfg4.win 5).blk t).view.read (Elt Ideal)
      (refHead (V c main_v93) (V c main_arg9) (V c main_v94) (V c main_arg11) (V c main_v95)) := by
  show (cfg4.win 5).cut (grid4.coords t) ((dat4 (F := Ideal) V c).after 5 t) = _
  rw [after4_5]
  unfold out4_5
  rw [View.canon_unit_zero zero2]
  simp only [View.ld_unit_zero (S := S2048x64) zero2, View.ld_unit_zero (S := S64x128) zero2,
    View.ld_unit_zero (S := S1x128) zero2, View.ld_unit_zero (S := S128x128) zero2]
  obtain ⟨-, -, -, -, -, -, -, -, -, -, e4, e5⟩ := idx4 t
  funext j
  obtain ⟨p, q, rfl⟩ : ∃ (p : Fin 2048) (q : Fin 128), j = ix2 p q := ⟨j 0, j 1, eq_ix2 j⟩
  have hN : cfg4.N = 4 := rfl
  have hr : t.val * 2048 + p.val < 8192 := by have := t.isLt; have := p.isLt; omega
  show k4_pay1 (iblk4 V c 0 t) (iblk4 V c 1 t) (iblk4 V c 2 t) (iblk4 V c 3 t) (iblk4 V c 4 t) (ix2 p q)
    = refHead (V c main_v93) (V c main_arg9) (V c main_v94) (V c main_arg11) (V c main_v95)
        (((cfg4.win 5).blk t).view.emb (ix2 p q))
  have hemb : ((cfg4.win 5).blk t).view.emb (ix2 p q) = ix2 (⟨t.val * 2048 + p.val, hr⟩ : Fin 8192) q := by
    funext a
    apply Fin.ext
    match a with
    | ⟨0, _⟩ => show win4_5.index t (0 : Fin 2) * 2048 + 1 * p.val = t.val * 2048 + p.val; rw [e4]; omega
    | ⟨1, _⟩ => show win4_5.index t (1 : Fin 2) * 128 + 1 * q.val = q.val; rw [e5]; omega
  rw [hemb]
  refine (pay4_apply (iblk4 V c 0 t) (iblk4 V c 1 t) (iblk4 V c 2 t) (iblk4 V c 3 t) (iblk4 V c 4 t) p q).trans ?_
  refine Eq.trans ?_ (refHead_apply (V c main_v93) (V c main_arg9) (V c main_v94) (V c main_arg11) (V c main_v95)
    ⟨t.val * 2048 + p.val, hr⟩ q).symm
  rw [w1_eq V c t, b1_eq V c t, w2_eq V c t, b2_eq V c t]
  refine congrArg (fun a => headAt a (V c main_arg9) (V c main_v94) (V c main_arg11) (V c main_v95) q) (funext fun k => ?_)
  exact in4_apply V c t p k ⟨t.val * 2048 + p.val, hr⟩ rfl

/-- An index of the array is in point t's block iff each coordinate is in the block's range on its axis. -/
theorem mem_blk4 (t : Fin cfg4.N) (i : S8192x128.Idx) :
    i ∈ ((cfg4.win 5).blk t).view.set ↔ ∀ a : Fin 2, win4_5.index t a * S2048x128.size a ≤ (i a).val
      ∧ (i a).val < win4_5.index t a * S2048x128.size a + S2048x128.size a := by
  show i ∈ ((View.whole main_v96).slice (win4_5.rect t)).set ↔ _
  rw [View.set_slice_whole, Rect.mem_set_unit]
  exact Iff.rfl

/-- The 4 row blocks tile the array: row r is in the block of point r / 2048. -/
theorem cover4 (i : S8192x128.Idx) :
    ∃ t : Fin cfg4.N, (cfg4.win 5).flush t = true ∧ i ∈ ((cfg4.win 5).blk t).view.set := by
  have hi0 : (i 0).val < 8192 := idx2_lt0 i
  have hi1 : (i 1).val < 128 := idx2_lt1 i
  have hN : cfg4.N = 4 := rfl
  obtain ⟨t, ht⟩ : ∃ t : Fin cfg4.N, t.val = (i 0).val / 2048 := ⟨⟨(i 0).val / 2048, by omega⟩, rfl⟩
  obtain ⟨-, -, -, -, -, -, -, -, -, -, e4, e5⟩ := idx4 t
  refine ⟨t, flush4_5 t, ?_⟩
  rw [mem_blk4]
  intro a
  match a with
  | ⟨0, _⟩ =>
    show win4_5.index t (0 : Fin 2) * 2048 ≤ (i 0).val ∧ (i 0).val < win4_5.index t (0 : Fin 2) * 2048 + 2048
    rw [e4, ht]; omega
  | ⟨1, _⟩ =>
    show win4_5.index t (1 : Fin 2) * 128 ≤ (i 1).val ∧ (i 1).val < win4_5.index t (1 : Fin 2) * 128 + 128
    rw [e5]; omega

/-- The output array after the region's 4 points is the head of the arrays as the region finds them. -/
theorem final4' (c : Dev nD) : (dat4 (F := Ideal) V c).arrAt 5 cfg4.N
    = refHead (V c main_v93) (V c main_arg9) (V c main_v94) (V c main_arg11) (V c main_v95) :=
  (dat4 (F := Ideal) V c).arrAt_eq_of_cover 5 _ (fun t _ => flushed4 V c t) cover4

/-- The same with the reference's operations written out. -/
theorem final4 (c : Dev nD) : (dat4 (F := Ideal) V c).arrAt 5 cfg4.N
    = addf (Host.dotGeneral (F := Ideal) (φ₁ := .f32) (φ₂ := .f32) Cert.ReferenceIdeal.dot_S8192x128_S128x128_S8192x128_1_0_0_1_n_n none
        (maximumf (addf (Host.dotGeneral (F := Ideal) (φ₁ := .f32) (φ₂ := .f32) Cert.ReferenceIdeal.dot_S8192x64_S64x128_S8192x128_1_0_0_1_n_n none
            (V c main_v93) (V c main_arg9))
            (broadcastInDim S8192x128 ![0, 1] Cert.ReferenceIdeal.Facts₀.bcast_S1x128_S8192x128_0_1 (V c main_v94)))
          (broadcastInDim S8192x128 ![] Cert.ReferenceIdeal.Facts₀.bcast_S_S8192x128 (constant (F := Ideal) S_ .f32 0x00000000#32)))
        (V c main_arg11))
      (broadcastInDim S8192x128 ![0, 1] Cert.ReferenceIdeal.Facts₀.bcast_S1x128_S8192x128_0_1 (V c main_v95)) :=
  final4' V c

end Cert.KernelIdeal.RegHead

end
-- ==== Proof.Glue.lean ====
/-
  The boundary contents of the kernel program, read through its five kernel regions.

  The program's buffer contents are followed as a fold W0, …, W11 through its host stretches and kernel regions. At the
  exit of a region each of its output arrays holds what the region's value lemma says of the contents the region was
  entered with, and a buffer that nothing wrote since the launch still holds the launch memory. This module composes
  the two for the six arrays the regions produce:

    the first product           W3  at the first convolution's output   = x · w            (launch arrays)
    the batch sums              W5  at the two statistics rows          = 0₃₂ + ∑ over the 150000 rows (and of squares)
    the normalised array        W7  at the normalisation's output       = the entry-wise normalisation of W6's arrays
    the second product          W8  at the second convolution's output  = (W7's normalised array) · w'
    the head                    W10 at the head's output                = the two-layer head of W9's arrays and the
                                                                          launch weights
-/
import proofs.«160986_j12446815224230_2_alg».proof.Proof.Gen.KernelIdeal.Frame
import proofs.«160986_j12446815224230_2_alg».proof.Proof.Carry
import proofs.«160986_j12446815224230_2_alg».proof.Proof.RegDot
import proofs.«160986_j12446815224230_2_alg».proof.Proof.RegStats
import proofs.«160986_j12446815224230_2_alg».proof.Proof.RegNorm
import proofs.«160986_j12446815224230_2_alg».proof.Proof.RegHead

noncomputable section

namespace Cert.KernelIdeal.Glue

open Cert.KernelIdeal Cert.KernelIdeal.Gen Cert.KernelIdeal.Carry
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg) (c : Dev nD)

/-! ## Launch arrays, as the regions find them -/

/-- The first product's two operands are still the launch arrays when its region is entered. -/
theorem V2_arg0 : V2 m ρ c main_arg0 = m ((c : Thread nD τ).loc main_arg0) :=
  (carry_main_arg0_0_2 m ρ c).trans (W0_arg m ρ c main_arg0)
theorem V2_arg3 : V2 m ρ c main_arg3 = m ((c : Thread nD τ).loc main_arg3) :=
  (carry_main_arg3_0_2 m ρ c).trans (W0_arg m ρ c main_arg3)
/-- The second product's weight is still the launch array when its region is entered. -/
theorem V7_arg7 : V7 m ρ c main_arg7 = m ((c : Thread nD τ).loc main_arg7) :=
  (carry_main_arg7_0_7 m ρ c).trans (W0_arg m ρ c main_arg7)
/-- The head's two weight matrices are still the launch arrays when its region is entered. -/
theorem V9_arg9 : V9 m ρ c main_arg9 = m ((c : Thread nD τ).loc main_arg9) :=
  (carry_main_arg9_0_9 m ρ c).trans (W0_arg m ρ c main_arg9)
theorem V9_arg11 : V9 m ρ c main_arg11 = m ((c : Thread nD τ).loc main_arg11) :=
  (carry_main_arg11_0_9 m ρ c).trans (W0_arg m ρ c main_arg11)

/-! ## The regions' outputs at the boundaries -/

/-- After the first region its output array is the product of the two launch arrays. -/
theorem W3_v17 : W3 m ρ c (Proc.devRef .tc main_v17)
    = Host.dotGeneral (F := Ideal) (φ₁ := .f32) (φ₂ := .f32) Cert.ReferenceIdeal.dot_S150000x32_S32x32_S150000x32_1_0_0_1_n_n none
        (m ((c : Thread nD τ).loc main_arg0)) (m ((c : Thread nD τ).loc main_arg3)) := by
  refine (W3_arr m ρ c 2).trans ((RegDot.final0 (V2 m ρ) c).trans ?_)
  rw [V2_arg0, V2_arg3]

/-- After the second region its first row holds, at column `q`, the zero plus the column's sum over all rows of the
    array the region was entered with. -/
theorem W5_sum (q : Fin 32) : W5 m ρ c (Proc.devRef .tc main_v49_0) (ix2 (0 : Fin 1) q)
    = RegStats.Z + ∑ r : Fin 150000, RegStats.arr (V4 m ρ) c (ix2 r q) := by
  rw [show W5 m ρ c (Proc.devRef .tc main_v49_0) = _ from W5_arr m ρ c 1]
  exact RegStats.final_sum (V4 m ρ) c (ix2 (0 : Fin 1) q)

/-- And its second row the zero plus the sum of the column's squares. -/
theorem W5_sumsq (q : Fin 32) : W5 m ρ c (Proc.devRef .tc main_v49_1) (ix2 (0 : Fin 1) q)
    = RegStats.Z + ∑ r : Fin 150000, RegStats.arr (V4 m ρ) c (ix2 r q) * RegStats.arr (V4 m ρ) c (ix2 r q) := by
  rw [show W5 m ρ c (Proc.devRef .tc main_v49_1) = _ from W5_arr m ρ c 2]
  exact RegStats.final_sumsq (V4 m ρ) c (ix2 (0 : Fin 1) q)

/-- After the third region its output array is the entry-wise normalisation of the arrays it was entered with. -/
theorem W7_v64 : W7 m ρ c (Proc.devRef .tc main_v64)
    = RegNorm.G (W6 m ρ c (Proc.devRef .tc main_v48)) (W6 m ρ c (Proc.devRef .tc main_v60))
        (W6 m ρ c (Proc.devRef .tc main_v61)) (W6 m ρ c (Proc.devRef .tc main_v62)) (W6 m ρ c (Proc.devRef .tc main_v63)) :=
  (W7_arr m ρ c 5).trans (RegNorm.final (V6 m ρ) c)

/-- After the fourth region its output array is the product of the normalised array and the launch weight. -/
theorem W8_v65 : W8 m ρ c (Proc.devRef .tc main_v65)
    = Host.dotGeneral (F := Ideal) (φ₁ := .f32) (φ₂ := .f32) Cert.ReferenceIdeal.dot_S150000x32_S32x64_S150000x64_1_0_0_1_n_n none
        (W7 m ρ c (Proc.devRef .tc main_v64)) (m ((c : Thread nD τ).loc main_arg7)) := by
  refine (W8_arr m ρ c 2).trans ((RegDot.final3 (V7 m ρ) c).trans ?_)
  rw [V7_arg7]

/-- After the fifth region its output array is the two-layer head of the arrays it was entered with, its two weight
    matrices the launch arrays. -/
theorem W10_v96 : W10 m ρ c (Proc.devRef .tc main_v96)
    = addf (Host.dotGeneral (F := Ideal) (φ₁ := .f32) (φ₂ := .f32) Cert.ReferenceIdeal.dot_S8192x128_S128x128_S8192x128_1_0_0_1_n_n none
        (maximumf (addf (Host.dotGeneral (F := Ideal) (φ₁ := .f32) (φ₂ := .f32) Cert.ReferenceIdeal.dot_S8192x64_S64x128_S8192x128_1_0_0_1_n_n none
            (W9 m ρ c (Proc.devRef .tc main_v93)) (m ((c : Thread nD τ).loc main_arg9)))
            (broadcastInDim S8192x128 ![0, 1] Cert.ReferenceIdeal.Facts₀.bcast_S1x128_S8192x128_0_1 (W9 m ρ c (Proc.devRef .tc main_v94))))
          (broadcastInDim S8192x128 ![] Cert.ReferenceIdeal.Facts₀.bcast_S_S8192x128 (constant (F := Ideal) S_ .f32 0x00000000#32)))
        (m ((c : Thread nD τ).loc main_arg11)))
      (broadcastInDim S8192x128 ![0, 1] Cert.ReferenceIdeal.Facts₀.bcast_S1x128_S8192x128_0_1 (W9 m ρ c (Proc.devRef .tc main_v95))) := by
  refine (W10_arr m ρ c 5).trans ((RegHead.final4 (V9 m ρ) c).trans ?_)
  rw [V9_arg9, V9_arg11]

end Cert.KernelIdeal.Glue

end
-- ==== Proof.LibReal.lean ====
import Mathlib.Data.EReal.Inv
import Idealize.ShloMosaic.PureOps.Ideal

/-!
# Real-valued extended reals

An extended real is *real* when it is the image of a real number, that is when it is neither
of the two infinities. The sum, difference, product, maximum and finite sums of real extended
reals are real, and so is the quotient of one by a nonzero real; a coercion of a finite sum of
reals is the sum of the coercions. The last sections read a few `f32` bit patterns as the
extended reals they denote, and read back the comparison `|x| < +∞`.
-/

noncomputable section

namespace Cert.GinMath

open Idealize.ShloMosaic
open scoped BigOperators

/-- An extended real is *real* when it is the image of a real number. -/
def IsReal (x : EReal) : Prop := ∃ r : ℝ, x = (r : EReal)

/-- The image of a real number is real. -/
theorem IsReal.coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither `⊤` nor `⊥`. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | coe r => exact ⟨r, rfl⟩
    | top => exact absurd rfl ht

/-- An extended real strictly between `⊥` and `⊤` is real. -/
theorem isReal_of_lt {x : EReal} (hb : ⊥ < x) (ht : x < ⊤) : IsReal x :=
  isReal_iff.mpr ⟨ne_of_lt ht, ne_of_gt hb⟩

/-- The sum of two real extended reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The difference of two real extended reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two real extended reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The negation of a real extended real is real. -/
theorem IsReal.neg {x : EReal} (hx : IsReal x) : IsReal (-x) := by
  obtain ⟨a, rfl⟩ := hx
  exact ⟨-a, (EReal.coe_neg a).symm⟩

/-- The maximum of two real extended reals is real. -/
theorem IsReal.max {x y : EReal} (hx : IsReal x) (hy : IsReal y) : IsReal (max x y) := by
  rcases max_choice x y with h | h <;> rw [h] <;> assumption

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- The quotient of a real extended real by a nonzero real is real. -/
theorem IsReal.div_coe {x : EReal} {y : ℝ} (hy : y ≠ 0) (hx : IsReal x) :
    IsReal (Ideal.div x (y : EReal)) := by
  rw [Ideal.div_coe hy]
  exact hx.mul (IsReal.coe _)

/-- The quotient of two reals, the divisor not zero, as an extended real. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the coercion of a family of reals. -/
theorem exists_real_fun {ι : Type*} {f : ι → EReal} (h : ∀ i, IsReal (f i)) :
    ∃ g : ι → ℝ, ∀ i, f i = (g i : EReal) :=
  ⟨fun i => Classical.choose (h i), fun i => Classical.choose_spec (h i)⟩

/-! ### A few `f32` patterns -/

/-- The pattern of `+0.0` denotes zero. -/
theorem ofBits_zero : Ideal.ofBits .f32 0x00000000#32 = 0 := by
  simp [Ideal.ofBits, Ideal.ieee]

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x47C35000` denotes `100000 = (2^23 + 4411392) · 2^(-7)`. -/
theorem ofBits_1e5 : Ideal.ofBits .f32 0x47C35000#32 = ((100000 : ℝ) : EReal) := by
  simp [Ideal.ofBits, Ideal.ieee, -EReal.coe_mul]; norm_num

/-- The pattern `0x3727C5AC` (the `f32` nearest `10⁻⁵`) has an exponent field that is neither
all zeros nor all ones, so it denotes a real number. -/
theorem isReal_ofBits_eps : IsReal (Ideal.ofBits .f32 0x3727C5AC#32) := by
  simp [Ideal.ofBits, Ideal.ieee, -EReal.coe_mul]
  exact ⟨_, rfl⟩

/-- The pattern `0x7F800000` (sign clear, exponent all ones, fraction zero) denotes `⊤`. -/
theorem ofBits_inf : Ideal.ofBits .f32 0x7F800000#32 = ⊤ := by
  simp [Ideal.ofBits, Ideal.ieee]

/-! ### A finiteness test read back -/

/-- A one-bit word made from a Boolean is `1` exactly when the Boolean is true. -/
theorem ofBool_eq_one_iff (b : Bool) : BitVec.ofBool b = 1#1 ↔ b = true := by
  cases b <;> decide

/-- An extended real whose absolute value `max x (-x)` is below `⊤` is real: `x < ⊤` excludes
`⊤`, and `-x < ⊤` excludes `⊥`. -/
theorem isReal_of_abs_lt_top {x : EReal} (h : max x (-x) < ⊤) : IsReal x := by
  rw [max_lt_iff] at h
  refine isReal_iff.mpr ⟨ne_of_lt h.1, ?_⟩
  rintro rfl
  simp at h

/-- The comparison `|x| < +∞` against the pattern of `+∞`, answered `1`, says `x` is real. -/
theorem isReal_of_cmp_abs_lt_inf {x : EReal}
    (h : Ideal.cmp .olt (max x (-x)) (Ideal.ofBits .f32 0x7F800000#32) = 1#1) : IsReal x := by
  rw [ofBits_inf] at h
  have e : Ideal.cmp .olt (max x (-x)) ⊤ = BitVec.ofBool (decide (max x (-x) < ⊤)) := rfl
  rw [e, ofBool_eq_one_iff, decide_eq_true_eq] at h
  exact isReal_of_abs_lt_top h

end Cert.GinMath

end
-- ==== Proof.LibVarLaw.lean ====
/-
  Batch statistics over the extended reals.

  For real numbers a_1, …, a_n with mean μ = (Σ a_r)/n, the mean of the squares minus the squared mean is the mean
  of the squared deviations, (Σ a_r²)/n − μ² = (Σ (a_r − μ)²)/n, and this number is not negative, so taking its
  maximum with zero changes nothing. On the extended reals the law needs every a_r to be real: an infinite entry
  makes the left side ∞ − ∞. This module states it in the form the two programs compute it (sums started from
  zero, quotients by the real n), and reads the f32 word of 150000.
-/
import proofs.«160986_j12446815224230_2_alg».proof.Proof.LibReal

noncomputable section

namespace Cert.Bridge.VarLaw

open Idealize.ShloMosaic Cert.GinMath
open scoped BigOperators

/-- The real identity: with μ the mean, Σ (a − μ)² / N = Σ a² / N − μ², and it is nonnegative. -/
theorem real_var {ι : Type*} [Fintype ι] (a : ι → ℝ) (N : ℝ) (hN : N = (Fintype.card ι : ℝ)) (hpos : 0 < N) :
    max ((∑ r, a r * a r) / N - (∑ r, a r) / N * ((∑ r, a r) / N)) 0
      = (∑ r, (a r - (∑ r, a r) / N) * (a r - (∑ r, a r) / N)) / N := by
  set S := ∑ r, a r with hS
  set μ := S / N with hμ
  have hne : N ≠ 0 := ne_of_gt hpos
  have hexp : ∑ r, (a r - μ) * (a r - μ) = (∑ r, a r * a r) - N * μ * μ := by
    have h1 : ∀ r, (a r - μ) * (a r - μ) = a r * a r - 2 * μ * a r + μ * μ := fun r => by ring
    simp only [h1]
    rw [Finset.sum_add_distrib, Finset.sum_sub_distrib, ← Finset.mul_sum, Finset.sum_const, Finset.card_univ,
      nsmul_eq_mul, ← hN, ← hS]
    have : S = N * μ := by rw [hμ]; field_simp
    rw [this]; ring
  have hEq : (∑ r, (a r - μ) * (a r - μ)) / N = (∑ r, a r * a r) / N - μ * μ := by
    rw [hexp]; field_simp
  rw [hEq]
  apply max_eq_left
  rw [← hEq]
  exact div_nonneg (Finset.sum_nonneg fun r _ => mul_self_nonneg _) hpos.le

/-- The law on the extended reals, all entries real: sums started from zero, quotients by the real N = n. -/
theorem var_law {ι : Type*} [Fintype ι] (a : ι → EReal) (ha : ∀ r, IsReal (a r)) (N : ℝ)
    (hN : N = (Fintype.card ι : ℝ)) (hpos : 0 < N) :
    max (Ideal.div (0 + ∑ r, a r * a r) (N : EReal)
          - Ideal.div (0 + ∑ r, a r) (N : EReal) * Ideal.div (0 + ∑ r, a r) (N : EReal)) 0
      = Ideal.div (0 + ∑ r, (a r - Ideal.div (0 + ∑ r, a r) (N : EReal)) * (a r - Ideal.div (0 + ∑ r, a r) (N : EReal)))
          (N : EReal) := by
  obtain ⟨a', ha'⟩ := exists_real_fun ha
  have hne : N ≠ 0 := ne_of_gt hpos
  simp only [ha', zero_add, ← EReal.coe_mul, ← coe_sum, div_coe_coe _ hne, ← EReal.coe_sub]
  have hm : ∀ x : ℝ, max (x : EReal) ((0 : ℝ) : EReal) = ((max x 0 : ℝ) : EReal) := fun x =>
    (EReal.coe_strictMono.monotone.map_max).symm
  rw [← EReal.coe_zero, hm, real_var a' N hN hpos]

/-- The mean of real entries is real. -/
theorem isReal_mean {ι : Type*} [Fintype ι] (a : ι → EReal) (ha : ∀ r, IsReal (a r)) (N : ℝ) (hne : N ≠ 0) :
    IsReal (Ideal.div (0 + ∑ r, a r) (N : EReal)) :=
  IsReal.div_coe hne (isReal_zero.add (IsReal.sum fun r _ => ha r))

/-- The f32 word 0x48127C00 denotes 150000 = (2^23 + 1211392) · 2^(-6). -/
theorem ofBits_150000 : Ideal.ofBits .f32 0x48127C00#32 = ((150000 : ℝ) : EReal) := by
  simp [Ideal.ofBits, Ideal.ieee, -EReal.coe_mul]; norm_num

end Cert.Bridge.VarLaw

end
-- ==== Proof.RefNorm.lean ====
import proofs.«160986_j12446815224230_2_alg».proof.Proof.RefReadP
import proofs.«160986_j12446815224230_2_alg».proof.Proof.LibVarLaw
import proofs.«160986_j12446815224230_2_alg».proof.Proof.LibReal
import proofs.«160986_j12446815224230_2_alg».proof.Proof.RegNorm

/-!
# The reference's batch normalisation read at an entry, and the one-pass variance

The reference normalises the 150000×32 array h column by column: with Z the zero word's value, N the value of the
word of 150000, and for column q

  mean q = (Z + Σ_r h(r, q)) / N,   dev q = (Z + Σ_r (h(r, q) − mean q)²) / N,

entry (r, q) of its result is max ((h(r, q) − mean q) · rsqrt (dev q + ε) · γ q + β q, Z). This module reads the
reference's operations at an entry to that expression and, when every entry of h is real, replaces the mean of the
squared deviations by the clamped one-pass form max ((Z + Σ_r h(r, q)²) / N − (mean q)², Z), which is equal to it.
-/

noncomputable section

namespace Cert.Bridge.RefNorm

open Cert.ReferenceIdeal Cert.ReferenceIdeal.ReadP Idealize.ShloMosaic Idealize.ShloMosaic.ValueIdx Cert.GinMath
open scoped BigOperators

/-! ## Column statistics of an array -/

/-- The sum of column q, started from the zero word's value. -/
def colSum (h : S150000x32.Idx → EReal) (q : Fin 32) : EReal :=
  Ideal.ofBits .f32 0x00000000#32 + ∑ r : Fin 150000, h (ix2 r q)

/-- The sum of the squares of column q, started from the zero word's value. -/
def colSumSq (h : S150000x32.Idx → EReal) (q : Fin 32) : EReal :=
  Ideal.ofBits .f32 0x00000000#32 + ∑ r : Fin 150000, h (ix2 r q) * h (ix2 r q)

/-- The mean of column q. -/
def colMean (h : S150000x32.Idx → EReal) (q : Fin 32) : EReal :=
  Ideal.div (colSum h q) (Ideal.ofBits .f32 0x48127C00#32)

/-- The mean of the squared deviations of column q from its mean. -/
def colDev (h : S150000x32.Idx → EReal) (q : Fin 32) : EReal :=
  Ideal.div (Ideal.ofBits .f32 0x00000000#32
      + ∑ r : Fin 150000, (h (ix2 r q) - colMean h q) * (h (ix2 r q) - colMean h q))
    (Ideal.ofBits .f32 0x48127C00#32)

/-- The column of an entry. -/
abbrev colOf (i : S150000x32.Idx) : Fin 32 := ⟨(i 1).val, (i 1).isLt⟩

/-- For real entries the mean of the squared deviations is the clamped one-pass variance. -/
theorem colDev_eq (h : S150000x32.Idx → EReal) (hh : ∀ j, IsReal (h j)) (q : Fin 32) :
    colDev h q = max (Ideal.div (colSumSq h q) (Ideal.ofBits .f32 0x48127C00#32) - colMean h q * colMean h q)
      (Ideal.ofBits .f32 0x00000000#32) := by
  unfold colDev colMean colSum colSumSq
  rw [ofBits_zero, Cert.Bridge.VarLaw.ofBits_150000]
  exact (Cert.Bridge.VarLaw.var_law (fun r : Fin 150000 => h (ix2 r q)) (fun r => hh _) 150000 (by simp)
    (by norm_num)).symm

/-! ## The reference's operations at an entry -/

variable (x0 : (⟨S150000x32, .f32⟩ : BufTy).Contents (Elt Ideal)) (x1 : (⟨S2x2400000, .i32⟩ : BufTy).Contents (Elt Ideal))
  (x3 : (⟨S32x32, .f32⟩ : BufTy).Contents (Elt Ideal)) (x4 x5 x6 : (⟨S32, .f32⟩ : BufTy).Contents (Elt Ideal))

local notation "H₀" => val_main_v48 (F := Ideal) x0 x1 x3 x4

/-- The first column sum. -/
theorem v49_at (q : Fin 32) : val_main_v49 (F := Ideal) x0 x1 x3 x4 (ix1 q) = colSum H₀ q := by
  rw [val_main_v49_apply]
  unfold colSum
  refine congrArg₂ (· + ·) rfl (Finset.sum_congr rfl fun k _ => congrArg H₀ ?_)
  funext a
  match a with
  | ⟨0, _⟩ => rfl
  | ⟨1, _⟩ => rfl

/-- The column mean. -/
theorem v51_at (q : Fin 32) : val_main_v51 (F := Ideal) x0 x1 x3 x4 (ix1 q) = colMean H₀ q := by
  rw [val_main_v51_apply, v49_at, val_main_v50_apply]
  rfl

/-- The column of an entry, as an index of a 32-vector read through the two row broadcasts. -/
theorem col52 (i : S150000x32.Idx) : idx_main_v52 (idx_main_v53 i) = ix1 (colOf i) :=
  funext fun a => by match a with | ⟨0, _⟩ => rfl
theorem col59 (i : S150000x32.Idx) : idx_main_v59 (idx_main_v60 i) = ix1 (colOf i) :=
  funext fun a => by match a with | ⟨0, _⟩ => rfl
theorem col65 (i : S150000x32.Idx) : idx_main_v65 (idx_main_v66 i) = ix1 (colOf i) :=
  funext fun a => by match a with | ⟨0, _⟩ => rfl
theorem col68 (i : S150000x32.Idx) : idx_main_v68 (idx_main_v69 i) = ix1 (colOf i) :=
  funext fun a => by match a with | ⟨0, _⟩ => rfl
theorem col71 (i : S150000x32.Idx) : idx_main_v71 (idx_main_v72 i) = ix1 (colOf i) :=
  funext fun a => by match a with | ⟨0, _⟩ => rfl

/-- The mean repeated down the rows, first copy. -/
theorem v53_at (i : S150000x32.Idx) : val_main_v53 (F := Ideal) x0 x1 x3 x4 i = colMean H₀ (colOf i) := by
  rw [val_main_v53_apply, val_main_v52_apply, col52, v51_at]

/-- The mean repeated down the rows, second copy. -/
theorem v60_at (i : S150000x32.Idx) : val_main_v60 (F := Ideal) x0 x1 x3 x4 i = colMean H₀ (colOf i) := by
  rw [val_main_v60_apply, val_main_v59_apply, col59, v51_at]

/-- The sum of the squared deviations of a column. -/
theorem v56_at (q : Fin 32) : val_main_v56 (F := Ideal) x0 x1 x3 x4 (ix1 q)
    = Ideal.ofBits .f32 0x00000000#32 + ∑ r : Fin 150000, (H₀ (ix2 r q) - colMean H₀ q) * (H₀ (ix2 r q) - colMean H₀ q) := by
  rw [val_main_v56_apply]
  refine congrArg₂ (· + ·) rfl (Finset.sum_congr rfl fun k _ => ?_)
  have e : idx_main_v56 (ix1 q) k = ix2 k q := funext fun a => by
    match a with
    | ⟨0, _⟩ => rfl
    | ⟨1, _⟩ => rfl
  rw [e, val_main_v55_apply, val_main_v54_apply, v53_at]
  rfl

/-- The mean of the squared deviations of a column. -/
theorem v58_at (q : Fin 32) : val_main_v58 (F := Ideal) x0 x1 x3 x4 (ix1 q) = colDev H₀ q := by
  rw [val_main_v58_apply, v56_at, val_main_v57_apply]
  rfl

/-- The inverse deviation repeated down the rows. -/
theorem v66_at (i : S150000x32.Idx) : val_main_v66 (F := Ideal) x0 x1 x3 x4 i
    = Ideal.rsqrt (colDev H₀ (colOf i) + Ideal.ofBits .f32 0x3727C5AC#32) := by
  rw [val_main_v66_apply, val_main_v65_apply, col65, val_main_v64_apply, val_main_v63_apply, v58_at, val_main_v62_apply]
  rfl

/-- The scale vector repeated down the rows. -/
theorem v69_at (i : S150000x32.Idx) : val_main_v69 (F := Ideal) x5 i = x5 (ix1 (colOf i)) := by
  rw [val_main_v69_apply, val_main_v68_apply, col68]

/-- The shift vector repeated down the rows. -/
theorem v72_at (i : S150000x32.Idx) : val_main_v72 (F := Ideal) x6 i = x6 (ix1 (colOf i)) := by
  rw [val_main_v72_apply, val_main_v71_apply, col71]

/-- The reference's normalised and clamped entry, with the two-pass deviation. -/
theorem v74_at (i : S150000x32.Idx) : val_main_v74 (F := Ideal) x0 x1 x3 x4 x5 x6 i
    = Cert.KernelIdeal.RegNorm.norm1 (H₀ i) (colMean H₀ (colOf i)) (colDev H₀ (colOf i)) (x5 (ix1 (colOf i)))
        (x6 (ix1 (colOf i))) := by
  rw [val_main_v74_apply, val_main_v73_apply, val_main_v70_apply, val_main_v67_apply, val_main_v61_apply, v60_at, v66_at,
    v69_at, v72_at, val_main_call1_v0_apply]
  rfl

/-- THE BRIDGE: for real entries of h, the reference's entry is the normalisation with the column mean and the clamped
    one-pass variance of the column sums. -/
theorem norm_bridge (i : S150000x32.Idx) (hH : ∀ j, IsReal (H₀ j)) :
    val_main_v74 (F := Ideal) x0 x1 x3 x4 x5 x6 i
      = Cert.KernelIdeal.RegNorm.norm1 (H₀ i)
          (Ideal.div (Ideal.ofBits .f32 0x00000000#32 + ∑ r : Fin 150000, H₀ (ix2 r (colOf i))) (Ideal.ofBits .f32 0x48127C00#32))
          (max (Ideal.div (Ideal.ofBits .f32 0x00000000#32 + ∑ r : Fin 150000, H₀ (ix2 r (colOf i)) * H₀ (ix2 r (colOf i)))
                  (Ideal.ofBits .f32 0x48127C00#32)
                - Ideal.div (Ideal.ofBits .f32 0x00000000#32 + ∑ r : Fin 150000, H₀ (ix2 r (colOf i))) (Ideal.ofBits .f32 0x48127C00#32)
                  * Ideal.div (Ideal.ofBits .f32 0x00000000#32 + ∑ r : Fin 150000, H₀ (ix2 r (colOf i))) (Ideal.ofBits .f32 0x48127C00#32))
            (Ideal.ofBits .f32 0x00000000#32))
          (x5 (ix1 (colOf i))) (x6 (ix1 (colOf i))) := by
  rw [v74_at, colDev_eq H₀ hH (colOf i)]
  rfl

end Cert.Bridge.RefNorm

end
-- ==== Proof.LibRealOps.lean ====
import proofs.«160986_j12446815224230_2_alg».proof.Proof.LibReal
import Idealize.ShloMosaic.Lib.ValueIdx

/-!
# Real entries through a few host operations

Every entry of a concatenation is an entry of one of its pieces, and every entry of a gather is an entry of
its operand; so a property of all entries passes through both. The inverse square root of a positive real is
real, hence so is "1/√d where d > 0, else a real".
-/

noncomputable section

namespace Cert.RealOps

open Idealize.ShloMosaic Cert.GinMath

/-- A property of every entry of every piece holds of every entry of their concatenation. -/
theorem forall_concatenate {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  exact hP _ (List.getElem_mem _) _

/-- A property of every entry of the operand holds of every entry of a gather. -/
theorem forall_gather {α : Type} (P : α → Prop) {s si so : Shape} {w : Nat} (ds : GatherDims s si so)
    (x : s.Idx → α) (idx : IVec si w) (hP : ∀ i, P (x i)) (j : so.Idx) : P (Host.gather ds x idx j) := by
  unfold Host.gather
  exact hP _

/-- The inverse square root of a positive real is real. -/
theorem isReal_rsqrt_of_pos {r : ℝ} (hr : 0 < r) : IsReal (Ideal.rsqrt (r : EReal)) := by
  rw [Ideal.rsqrt_coe, if_neg (not_lt.mpr hr.le), if_neg hr.ne']
  exact IsReal.coe _

/-- "1/√d where d > z, else z'" is real when d and z' are and z is zero. -/
theorem isReal_select_rsqrt (d z z' : EReal) (hd : IsReal d) (hz : z = 0) (hz' : IsReal z') :
    IsReal (Scalar.select (Ideal.cmp .ogt d z) (Ideal.rsqrt d) z') := by
  obtain ⟨r, rfl⟩ := hd
  subst hz
  by_cases hpos : (0 : ℝ) < r
  · have hc : Ideal.cmp .ogt (r : EReal) 0 = 1#1 := by
      unfold Ideal.cmp
      have : (0 : EReal) < (r : EReal) := by exact_mod_cast hpos
      simp [this]
    rw [hc, ValueIdx.select_one]
    exact isReal_rsqrt_of_pos hpos
  · have hc : Ideal.cmp .ogt (r : EReal) 0 = 0#1 := by
      unfold Ideal.cmp
      have : ¬ (0 : EReal) < (r : EReal) := by
        intro h; exact hpos (by exact_mod_cast h)
      simp [this]
    rw [hc, ValueIdx.select_zero]
    exact hz'

end Cert.RealOps

end
-- ==== Proof.LibRowIndex.lean ====
import Idealize.ShloMosaic.PureOps.Ideal
import Idealize.ShloMosaic.Lib.ValueIdx

/-!
# Rows picked by an index column: a gather of rows, a gather of entries, a scatter of rows

An array of E start indices, laid out as a column [E, 1], picks for each e one row of an operand with N rows.
A gather reads the start index as a signed integer and clamps it into [0, N − 1]; a scatter reads it signed and
does not clamp: an update whose row falls outside [0, N) lands nowhere. The three facts below read the two
gathers at an index and say which updates of the scatter land on a given entry.
-/

noncomputable section

namespace Cert.RowIndex

open Idealize.ShloMosaic Idealize.ShloMosaic.ValueIdx

/-- The row a start index selects in a gather: read signed, clamped into [0, N − 1]. -/
def clampRow {w : Nat} (N : Nat) (hN : 0 < N) (b : BitVec w) : Fin N := ⟨min b.toInt.toNat (N - 1), by omega⟩

/-- Dimension numbers of a gather of whole rows: operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of a gather of single entries of a vector: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of a scatter of whole rows: operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A gather of rows at (e, c): the operand at the clamped row of the e-th start index, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
        + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
        + (rowGatherDims N E C wf).offCoord (ix2 e c) 1 = _
    rw [GatherDims.batchCoord_eq_zero _ _ _ List.not_mem_nil]
    have h1 : (1 : Fin 2) ∉ (rowGatherDims N E C wf).startIndexMap := by
      intro h; exact absurd (congrArg Fin.val (List.mem_singleton.mp h)) Nat.one_ne_zero
    unfold GatherDims.start
    rw [dif_neg h1]
    simp only [Nat.add_zero, Nat.zero_add]
    rfl

/-- A gather of entries at e: the operand at the clamped e-th start index. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
      + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Update (e, c) of a scatter of rows lands on entry (p, q) exactly when the e-th scatter index, read signed,
    is p, and the columns agree. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (p : Fin N) (q : Fin C) :
    (rowScatterDims N E C wf).resultIdx? (ix2 e c) idx = some (ix2 p q)
      ↔ (idx (ix2 e (0 : Fin 1))).toInt = (p.val : ℤ) ∧ c = q := by
  have hw0 : (rowScatterDims N E C wf).window (ix2 e c) 0 = 0 := by
    unfold ScatterDims.window
    rw [dif_neg]
    intro h
    have h' := (List.mem_filter.mp h).2
    simp at h'
  have hst0 : (rowScatterDims N E C wf).start (ix2 e c) idx 0 = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hst1 : (rowScatterDims N E C wf).start (ix2 e c) idx 1 = 0 := by
    unfold ScatterDims.start
    rw [dif_neg]
    intro h
    exact absurd (congrArg Fin.val (List.mem_singleton.mp h)) Nat.one_ne_zero
  have hw1 : (rowScatterDims N E C wf).window (ix2 e c) 1 = c.val := by
    unfold ScatterDims.window
    rw [dif_pos]
    · rfl
    · refine List.mem_filter.mpr ⟨List.mem_finRange _, ?_⟩
      apply decide_eq_true
      intro h
      exact absurd (congrArg Fin.val (List.mem_singleton.mp h)) Nat.one_ne_zero
  have hsum0 : (rowScatterDims N E C wf).start (ix2 e c) idx 0
      + (((rowScatterDims N E C wf).window (ix2 e c) 0 : ℕ) : ℤ) = (idx (ix2 e (0 : Fin 1))).toInt := by
    rw [hst0, hw0]; simp
  have hsum1 : (rowScatterDims N E C wf).start (ix2 e c) idx 1
      + (((rowScatterDims N E C wf).window (ix2 e c) 1 : ℕ) : ℤ) = (c.val : ℤ) := by
    rw [hst1, hw1]; simp
  unfold ScatterDims.resultIdx?
  split
  · rename_i h
    rw [Option.some.injEq]
    constructor
    · intro hf
      have h0 : ((rowScatterDims N E C wf).start (ix2 e c) idx 0
          + (((rowScatterDims N E C wf).window (ix2 e c) 0 : ℕ) : ℤ)).toNat = p.val :=
        congrArg (fun f => (f 0).val) hf
      have h1 : ((rowScatterDims N E C wf).start (ix2 e c) idx 1
          + (((rowScatterDims N E C wf).window (ix2 e c) 1 : ℕ) : ℤ)).toNat = q.val :=
        congrArg (fun f => (f 1).val) hf
      have hh := (h 0).1
      rw [hsum0] at h0 hh
      rw [hsum1] at h1
      exact ⟨by omega, Fin.ext (by omega)⟩
    · rintro ⟨hp, rfl⟩
      funext a; refine Fin.ext ?_
      match a with
      | ⟨0, _⟩ =>
        show ((rowScatterDims N E C wf).start (ix2 e c) idx 0
          + (((rowScatterDims N E C wf).window (ix2 e c) 0 : ℕ) : ℤ)).toNat = p.val
        rw [hsum0, hp]; simp
      | ⟨1, _⟩ =>
        show ((rowScatterDims N E C wf).start (ix2 e c) idx 1
          + (((rowScatterDims N E C wf).window (ix2 e c) 1 : ℕ) : ℤ)).toNat = c.val
        rw [hsum1]; simp
  · rename_i h
    constructor
    · intro hf; exact absurd hf (by simp)
    · rintro ⟨hp, rfl⟩
      exfalso; apply h
      intro a
      match a with
      | ⟨0, _⟩ =>
        show 0 ≤ (rowScatterDims N E C wf).start (ix2 e c) idx 0
              + (((rowScatterDims N E C wf).window (ix2 e c) 0 : ℕ) : ℤ)
          ∧ (rowScatterDims N E C wf).start (ix2 e c) idx 0
              + (((rowScatterDims N E C wf).window (ix2 e c) 0 : ℕ) : ℤ) < (N : ℤ)
        rw [hsum0, hp]
        have := p.isLt
        omega
      | ⟨1, _⟩ =>
        show 0 ≤ (rowScatterDims N E C wf).start (ix2 e c) idx 1
              + (((rowScatterDims N E C wf).window (ix2 e c) 1 : ℕ) : ℤ)
          ∧ (rowScatterDims N E C wf).start (ix2 e c) idx 1
              + (((rowScatterDims N E C wf).window (ix2 e c) 1 : ℕ) : ℤ) < (C : ℤ)
        rw [hsum1]
        have := c.isLt
        omega

end Cert.RowIndex

end
-- ==== Proof.LibScaleSum.lean ====
import proofs.«160986_j12446815224230_2_alg».proof.Proof.LibReal
import proofs.«160986_j12446815224230_2_alg».proof.Proof.LibRowIndex

/-!
# A row scale passes through a scatter-add of rows

Let every row p of an [N, C] array collect the updates e whose scatter index is p. If each update is a product
h_e · s_e with a further factor depending only on the target row, that factor can be taken out of the sum —
provided every number in sight is real, since on the extended reals a product does not distribute over a sum
that meets both infinities.
-/

noncomputable section

namespace Cert.ScaleSum

open Idealize.ShloMosaic Idealize.ShloMosaic.ValueIdx Cert.GinMath Cert.RowIndex
open scoped BigOperators

/-- A real factor goes inside a finite sum of real extended reals. -/
private theorem mul_sum_of_isReal {ι : Type*} (s : Finset ι) (a : EReal) (ha : IsReal a) (f : ι → EReal)
    (hf : ∀ i ∈ s, IsReal (f i)) : a * ∑ i ∈ s, f i = ∑ i ∈ s, a * f i := by
  classical
  obtain ⟨r, rfl⟩ := ha
  induction s using Finset.induction_on with
  | empty => simp
  | insert b s hb ih =>
    rw [Finset.sum_insert hb, Finset.sum_insert hb, ← ih (fun i hi => hf i (Finset.mem_insert_of_mem hi))]
    obtain ⟨x, hx⟩ := hf b (Finset.mem_insert_self b s)
    obtain ⟨y, hy⟩ := IsReal.sum (fun i hi => hf i (Finset.mem_insert_of_mem hi))
    rw [hx, hy, ← EReal.coe_add, ← EReal.coe_mul, ← EReal.coe_mul, ← EReal.coe_mul, ← EReal.coe_add, mul_add]

/-- A scatter-add of real updates into a real array is real. -/
theorem isReal_scatterAdd {s si su : Shape} {w : Nat} (ds : ScatterDims s si su)
    (z : s.Idx → EReal) (hz : ∀ i, IsReal (z i)) (idx : IVec si w) (u : su.Idx → EReal) (hu : ∀ j, IsReal (u j)) (i : s.Idx) :
    IsReal (Host.scatterAdd (F := Ideal) (φ := .f32) ds z idx u i) := by
  show IsReal (Ideal.hostScatterAdd ds z idx u i)
  unfold Ideal.hostScatterAdd
  exact (hz i).add (IsReal.sum fun j _ => hu j)

/-- The p-th scale times what a scatter-add of rows collects on (p, q), the updates being h · s with s the
    scale at the update's source row, is what the scatter-add collects when every update carries the product
    of both scales: the source row's and the (wrapped, clamped) target row's. Updates land on row p only if
    their scatter index is p, where wrapping a nonnegative index and clamping an index below N change nothing. -/
theorem scale_through_scatterAdd {N E C : Nat} (hN : 0 < N)
    (wfs : ScatterDims.WF ⟨2, ![N, C]⟩ ⟨2, ![E, 1]⟩ ⟨2, ![E, C]⟩ [1] [0] [0] 1)
    (H : (⟨2, ![N, C]⟩ : Shape).Idx → EReal) (hH : ∀ i, IsReal (H i))
    (d : (⟨1, ![N]⟩ : Shape).Idx → EReal) (hd : ∀ n, IsReal (d n))
    (z : (⟨2, ![N, C]⟩ : Shape).Idx → EReal) (hz : ∀ i, z i = 0)
    (src dst dstW : IVec ⟨2, ![E, 1]⟩ 32)
    (hW : ∀ e : Fin E, 0 ≤ (dst (ix2 e (0 : Fin 1))).toInt → dstW (ix2 e (0 : Fin 1)) = dst (ix2 e (0 : Fin 1)))
    (updK updR : (⟨2, ![E, C]⟩ : Shape).Idx → EReal)
    (hK : ∀ (e : Fin E) (c : Fin C), updK (ix2 e c)
        = H (ix2 (clampRow N hN (src (ix2 e (0 : Fin 1)))) c) * d (ix1 (clampRow N hN (src (ix2 e (0 : Fin 1))))))
    (hR : ∀ (e : Fin E) (c : Fin C), updR (ix2 e c)
        = H (ix2 (clampRow N hN (src (ix2 e (0 : Fin 1)))) c)
            * (d (ix1 (clampRow N hN (src (ix2 e (0 : Fin 1))))) * d (ix1 (clampRow N hN (dstW (ix2 e (0 : Fin 1)))))))
    (p : Fin N) (q : Fin C) :
    d (ix1 p) * Host.scatterAdd (F := Ideal) (φ := .f32) (rowScatterDims N E C wfs) z dst updK (ix2 p q)
      = Host.scatterAdd (F := Ideal) (φ := .f32) (rowScatterDims N E C wfs) z dst updR (ix2 p q) := by
  show d (ix1 p) * Ideal.hostScatterAdd (rowScatterDims N E C wfs) z dst updK (ix2 p q)
    = Ideal.hostScatterAdd (rowScatterDims N E C wfs) z dst updR (ix2 p q)
  unfold Ideal.hostScatterAdd
  rw [hz, zero_add, zero_add]
  have hKreal : ∀ j, IsReal (updK j) := by
    intro j
    obtain ⟨e, c, rfl⟩ : ∃ (e : Fin E) (c : Fin C), j = ix2 e c := ⟨j 0, j 1, eq_ix2 j⟩
    rw [hK]; exact (hH _).mul (hd _)
  rw [mul_sum_of_isReal _ _ (hd (ix1 p)) _ (fun j _ => hKreal j)]
  refine Finset.sum_congr rfl ?_
  intro j hj
  obtain ⟨e, c, rfl⟩ : ∃ (e : Fin E) (c : Fin C), j = ix2 e c := ⟨j 0, j 1, eq_ix2 j⟩
  obtain ⟨hp, -⟩ := (rowScatter_resultIdx wfs dst e c p q).mp (Finset.mem_filter.mp hj).2
  have hnn : 0 ≤ (dst (ix2 e (0 : Fin 1))).toInt := by rw [hp]; exact Int.natCast_nonneg _
  have hcl : clampRow N hN (dst (ix2 e (0 : Fin 1))) = p := by
    apply Fin.ext
    show min (dst (ix2 e (0 : Fin 1))).toInt.toNat (N - 1) = p.val
    rw [hp, Int.toNat_natCast]
    have := p.isLt
    omega
  rw [hK, hR, hW e hnn, hcl, mul_comm (d (ix1 p)), mul_assoc]

end Cert.ScaleSum

end
-- ==== Proof.RealChain.lean ====
import proofs.«160986_j12446815224230_2_alg».proof.Proof.RefReadP
import proofs.«160986_j12446815224230_2_alg».proof.Proof.LibReal
import proofs.«160986_j12446815224230_2_alg».proof.Proof.LibRealOps
import proofs.«160986_j12446815224230_2_alg».proof.Proof.LibScaleSum

/-!
# The first graph convolution of the reference has real entries

With real node features x, a real weight matrix W and a real bias b, every entry of

  out = segment_sum(h[src] · (s[src] · s[dst]), dst) + b,   h = x W,   s = where(deg > 0, 1/√max(deg, 1), 0),

deg = segment_sum(1, dst), is real. Stage by stage: deg is a finite sum of ones added to zero; max(deg, 1) is
a real number at least 1, so its inverse square root is real, and the selected value is either that or zero;
a gather only picks entries of its operand; an entry of x W is a finite sum of products of reals; a product of
reals is real; a scatter-add adds finitely many real updates to zero; and adding the bias keeps it real.
No index is ever evaluated: the facts hold whatever the edge list is.
-/

noncomputable section

namespace Cert.Bridge.RealChain

open Idealize.ShloMosaic Cert.ReferenceIdeal Cert.ReferenceIdeal.ReadP Cert.GinMath Cert.RealOps Cert.ScaleSum

/-- A selection between two real values is real, whatever the selecting bit. -/
theorem isReal_select (c : BitVec 1) {a b : EReal} (ha : IsReal a) (hb : IsReal b) :
    IsReal (Scalar.select c a b) := by
  unfold Scalar.select
  split
  · exact ha
  · exact hb

/-- For a real d, the number max(d, 1) is a real at least 1, so its inverse square root is real. -/
theorem isReal_rsqrt_max_one {d : EReal} (hd : IsReal d) :
    IsReal (Ideal.rsqrt (max d ((1 : ℝ) : EReal))) := by
  obtain ⟨r, rfl⟩ := hd
  rw [← EReal.coe_strictMono.monotone.map_max]
  exact isReal_rsqrt_of_pos (lt_of_lt_of_le one_pos (le_max_right r 1))

variable (x0 : (⟨S150000x32, .f32⟩ : BufTy).Contents (Elt Ideal))
  (x1 : (⟨S2x2400000, .i32⟩ : BufTy).Contents (Elt Ideal))
  (x3 : (⟨S32x32, .f32⟩ : BufTy).Contents (Elt Ideal))
  (x4 : (⟨S32, .f32⟩ : BufTy).Contents (Elt Ideal))

/-- The array of ones that the degree count adds up. -/
theorem isReal_v7 (i : S2550000.Idx) : IsReal (val_main_v7 (F := Ideal) i) := by
  rw [val_main_v7_apply, val_main_cst_apply, Ideal.ofBits_def, ofBits_one]
  exact IsReal.coe 1

/-- The array of zeros the degree count starts from. -/
theorem isReal_v8 (i : S150000.Idx) : IsReal (val_main_v8 (F := Ideal) i) := by
  rw [val_main_v8_apply, val_main_cst_0_apply, Ideal.ofBits_def, ofBits_zero]
  exact isReal_zero

/-- The degrees: a scatter-add of ones into zeros. -/
theorem isReal_v10 (i : S150000.Idx) : IsReal (val_main_v10 (F := Ideal) x1 i) := by
  unfold val_main_v10
  exact isReal_scatterAdd _ _ isReal_v8 _ _ isReal_v7 i

/-- 1/√max(deg, 1). -/
theorem isReal_v15 (i : S150000.Idx) : IsReal (val_main_v15 (F := Ideal) x1 i) := by
  rw [val_main_v15_apply, val_main_v14_apply, val_main_v13_apply, val_main_cst_2_apply, Ideal.ofBits_def,
    ofBits_one, Ideal.maximumf_def, Ideal.hostUnary_rsqrt_def]
  exact isReal_rsqrt_max_one (isReal_v10 x1 i)

/-- The zero the selection falls back to. -/
theorem isReal_call0_v1 (i : S150000.Idx) : IsReal (val_main_call0_v1 (F := Ideal) i) := by
  rw [val_main_call0_v1_apply, val_main_call0_v0_apply, val_main_cst_3_apply, Ideal.ofBits_def, ofBits_zero]
  exact isReal_zero

/-- The inverse square root of the degree where it is positive, zero elsewhere. -/
theorem isReal_v16 (i : S150000.Idx) : IsReal (val_main_v16 (F := Ideal) x1 i) := by
  rw [val_main_v16_apply]
  exact isReal_select _ (isReal_v15 x1 i) (isReal_call0_v1 i)

/-- The scale at each edge's source. -/
theorem isReal_v24 (i : S2550000.Idx) : IsReal (val_main_v24 (F := Ideal) x1 i) := by
  unfold val_main_v24
  exact forall_gather IsReal _ _ _ (isReal_v16 x1) i

/-- The scale at each edge's target. -/
theorem isReal_v31 (i : S2550000.Idx) : IsReal (val_main_v31 (F := Ideal) x1 i) := by
  unfold val_main_v31
  exact forall_gather IsReal _ _ _ (isReal_v16 x1) i

/-- The product of the two scales of an edge. -/
theorem isReal_v32 (i : S2550000.Idx) : IsReal (val_main_v32 (F := Ideal) x1 i) := by
  rw [val_main_v32_apply, Ideal.mulf_def]
  exact (isReal_v24 x1 i).mul (isReal_v31 x1 i)

/-- The edge scale, repeated along the feature axis. -/
theorem isReal_v41 (i : S2550000x32.Idx) : IsReal (val_main_v41 (F := Ideal) x1 i) := by
  rw [val_main_v41_apply, val_main_v40_apply]
  exact isReal_v32 x1 _

/-- The transformed features x W: each entry is a finite sum of products of reals. -/
theorem isReal_v17 (h0 : ∀ i, IsReal (x0 i)) (h3 : ∀ i, IsReal (x3 i)) (i : S150000x32.Idx) :
    IsReal (val_main_v17 (F := Ideal) x0 x3 i) := by
  rw [val_main_v17_apply]
  exact IsReal.sum fun k _ => (h0 _).mul (h3 _)

/-- The transformed features at each edge's source. -/
theorem isReal_v39 (h0 : ∀ i, IsReal (x0 i)) (h3 : ∀ i, IsReal (x3 i)) (i : S2550000x32.Idx) :
    IsReal (val_main_v39 (F := Ideal) x0 x1 x3 i) := by
  unfold val_main_v39
  exact forall_gather IsReal _ _ _ (isReal_v17 x0 x3 h0 h3) i

/-- The messages: source features times the edge scale. -/
theorem isReal_v42 (h0 : ∀ i, IsReal (x0 i)) (h3 : ∀ i, IsReal (x3 i)) (i : S2550000x32.Idx) :
    IsReal (val_main_v42 (F := Ideal) x0 x1 x3 i) := by
  rw [val_main_v42_apply, Ideal.mulf_def]
  exact (isReal_v39 x0 x1 x3 h0 h3 i).mul (isReal_v41 x1 i)

/-- The zeros the messages are added into. -/
theorem isReal_v43 (i : S150000x32.Idx) : IsReal (val_main_v43 (F := Ideal) i) := by
  rw [val_main_v43_apply, val_main_cst_9_apply, Ideal.ofBits_def, ofBits_zero]
  exact isReal_zero

/-- The messages summed at each edge's target. -/
theorem isReal_v45 (h0 : ∀ i, IsReal (x0 i)) (h3 : ∀ i, IsReal (x3 i)) (i : S150000x32.Idx) :
    IsReal (val_main_v45 (F := Ideal) x0 x1 x3 i) := by
  unfold val_main_v45
  exact isReal_scatterAdd _ _ isReal_v43 _ _ (isReal_v42 x0 x1 x3 h0 h3) i

/-- The bias, repeated along the node axis. -/
theorem isReal_v47 (h4 : ∀ i, IsReal (x4 i)) (i : S150000x32.Idx) : IsReal (val_main_v47 (F := Ideal) x4 i) := by
  rw [val_main_v47_apply, val_main_v46_apply]
  exact h4 _

/-- Every entry of the first graph convolution's output is real when the features, the weights and the bias are. -/
theorem isReal_v48 (x0 : (⟨Cert.ReferenceIdeal.S150000x32, .f32⟩ : BufTy).Contents (Elt Ideal))
    (x1 : (⟨Cert.ReferenceIdeal.S2x2400000, .i32⟩ : BufTy).Contents (Elt Ideal))
    (x3 : (⟨Cert.ReferenceIdeal.S32x32, .f32⟩ : BufTy).Contents (Elt Ideal))
    (x4 : (⟨Cert.ReferenceIdeal.S32, .f32⟩ : BufTy).Contents (Elt Ideal))
    (h0 : ∀ i, Cert.GinMath.IsReal (x0 i)) (h3 : ∀ i, Cert.GinMath.IsReal (x3 i))
    (h4 : ∀ i, Cert.GinMath.IsReal (x4 i)) :
    ∀ i, Cert.GinMath.IsReal (Cert.ReferenceIdeal.ReadP.val_main_v48 (F := Ideal) x0 x1 x3 x4 i) := by
  intro i
  rw [val_main_v48_apply, Ideal.addf_def]
  exact (isReal_v45 x0 x1 x3 h0 h3 i).add (isReal_v47 x4 h4 i)

end Cert.Bridge.RealChain

end
-- ==== Proof.PreReal.lean ====
import proofs.«160986_j12446815224230_2_alg».proof.Defs
import proofs.«160986_j12446815224230_2_alg».proof.Proof.LibReal
import Idealize.ShloMosaic.Lib.ReduceAll
import Idealize.ShloMosaic.Lib.ValueIdx

/-!
# From the finiteness precondition to real inputs

The precondition is the conjunction of eleven tests, one per float argument, each of the form
"every entry x of the array satisfies |x| < +∞". A conjunction of one-bit words that is 1 has every
conjunct 1; a reduction by "and" over all axes that is 1 met only 1s; and the comparison |x| < +∞
answered 1 says that x is neither of the two infinities. So every entry of every tested array is the
image of a real number. The theorem below reads this off for the three arguments the first graph
convolution uses: the node features, the first weight matrix and the first bias.
-/

noncomputable section

namespace Cert.Bridge.PreReal

open Idealize.ShloMosaic Idealize.SL.Sem Cert.GinMath

/-- The shape with no axes has exactly one index. -/
instance : Subsingleton Cert.Pre_finite_inputs.S_.Idx := ⟨fun a b => funext fun d => d.elim0⟩

/-- One test read back: if "all entries x of the array satisfy |x| < +∞" is answered 1, every entry is real. -/
theorem isReal_of_all_finite {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
        (cmpf .olt (Host.absf (F := Ideal) x)
          (broadcastInDim s ![] bc (constant (F := Ideal) Cert.Pre_finite_inputs.S_ .f32 0x7F800000#32)))
        (constantI Cert.Pre_finite_inputs.S_ 1 1#1) hr hu j = 1#1)
    (i : s.Idx) : IsReal (x i) := by
  have h1 := Host.reduce_andi_all _ _ hr hu j e i
  exact isReal_of_cmp_abs_lt_inf h1

/-- Under the precondition, every entry of the node features, of the first weight matrix and of the first
    bias is real, on every device. -/
theorem real_inputs
    (m : (ℓ : Loc Cert.KernelIdeal.nD Cert.KernelIdeal.τ Cert.KernelIdeal.sig) → Buf (Elt Ideal) ℓ)
    [hPre_finite_inputs : Cert.Pre_finite_inputs.Facts] (hpre : Cert.Pre_KernelIdeal m)
    (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) := by
  have e := congrFun (hpre c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h3⟩, h4⟩, -⟩, -⟩, -⟩, -⟩, -⟩, -⟩, -⟩, -⟩ := e
  exact ⟨isReal_of_all_finite _ _ _ _ _ h0, isReal_of_all_finite _ _ _ _ _ h3,
    isReal_of_all_finite _ _ _ _ _ h4⟩

end Cert.Bridge.PreReal

end
-- ==== Proof.Bridge.lean ====
/-
  The kernel program's two results are the reference program's, as functions of the argument arrays.

  Boundary by boundary through the kernel program: the first region leaves the projected features x·W1, which is the
  reference's product; the stretch after it leaves the first convolution's output h; the second region leaves the
  column sums S = Σ_r h(r, ·) and SS = Σ_r h(r, ·)², from which the next stretch takes mean = S/n and
  var = max(SS/n − mean², 0); the third region normalises h with them. The reference normalises with the mean of the
  squared deviations instead; the two variances are one number because every entry of h is real (the inputs are
  finite), so the normalised arrays agree entry by entry. From there on the two programs apply the same operations:
  the second product, the second aggregation, the pooling, the two-layer head, the two halves of its output.
-/
import proofs.«160986_j12446815224230_2_alg».proof.Proof.Stretch
import proofs.«160986_j12446815224230_2_alg».proof.Proof.Glue
import proofs.«160986_j12446815224230_2_alg».proof.Proof.RefNorm
import proofs.«160986_j12446815224230_2_alg».proof.Proof.RealChain
import proofs.«160986_j12446815224230_2_alg».proof.Proof.PreReal

set_option maxRecDepth 16384

noncomputable section

namespace Cert.KernelIdeal.Bridge

open Cert.KernelIdeal Cert.KernelIdeal.Gen Cert.KernelIdeal.Carry Cert.KernelIdeal.Stretch Cert.KernelIdeal.Glue
open Idealize.ShloMosaic Idealize.ShloMosaic.TcCoe Idealize.SL.Sem Idealize.ShloMosaic.StableHlo
open Idealize.ShloMosaic.ValueIdx
open Cert.ReferenceIdeal.ReadP Cert.GinMath

variable (m : (ℓ : Loc nD τ sig) → Buf (Elt Ideal) ℓ) (ρ : Dev nD → PrngReg) (c : Dev nD)

/-- The first region leaves the reference's first product. -/
theorem W3_v17' : W3 m ρ c (Proc.devRef .tc main_v17) = val_main_v17 (F := Ideal) (m ((c : Thread nD τ).loc main_arg0)) (m ((c : Thread nD τ).loc main_arg3)) :=
  W3_v17 m ρ c

/-- The first convolution's output is the reference's. -/
theorem W4_h : W4 m ρ c (Proc.devRef .tc main_v48) = val_main_v48 (F := Ideal) (m ((c : Thread nD τ).loc main_arg0)) (m ((c : Thread nD τ).loc main_arg1)) (m ((c : Thread nD τ).loc main_arg3)) (m ((c : Thread nD τ).loc main_arg4)) :=
  W4_v48 m ρ c (W3_v17' m ρ c)

/-- The normalised activations are the reference's, every entry of the first convolution's output being real. -/
theorem W7_act (hH : ∀ j, IsReal (val_main_v48 (F := Ideal) (m ((c : Thread nD τ).loc main_arg0)) (m ((c : Thread nD τ).loc main_arg1)) (m ((c : Thread nD τ).loc main_arg3)) (m ((c : Thread nD τ).loc main_arg4)) j)) :
    W7 m ρ c (Proc.devRef .tc main_v64) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W7_v64, carry_main_v48_4_6, W4_h, W6_v60, W6_v61, W6_v62, W6_v63]
  funext i
  have hq : RegNorm.colOf i = ix2 (0 : Fin 1) (⟨(i 1).val, (i 1).isLt⟩ : Fin 32) :=
    funext fun a => Fin.ext (by match a with | ⟨0, _⟩ => rfl | ⟨1, _⟩ => rfl)
  unfold RegNorm.G
  rw [hq, row32_apply, row32_apply, row32_apply, row32_apply, meanRow_apply, varRow_apply, W5_sum, W5_sumsq]
  rw [Cert.Bridge.RefNorm.norm_bridge _ _ _ _ _ _ i hH]
  have hV : RegStats.arr (V4 m ρ) c = val_main_v48 (F := Ideal) (m ((c : Thread nD τ).loc main_arg0)) (m ((c : Thread nD τ).loc main_arg1)) (m ((c : Thread nD τ).loc main_arg3)) (m ((c : Thread nD τ).loc main_arg4)) := W4_h m ρ c
  rw [hV]

/-- The third region's product is the reference's second product. -/
theorem W8_proj (hH : ∀ j, IsReal (val_main_v48 (F := Ideal) (m ((c : Thread nD τ).loc main_arg0)) (m ((c : Thread nD τ).loc main_arg1)) (m ((c : Thread nD τ).loc main_arg3)) (m ((c : Thread nD τ).loc main_arg4)) j)) :
    W8 m ρ c (Proc.devRef .tc main_v65) = val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W8_v65, W7_act m ρ c hH]
  rfl

/-- The head's output is the reference's. -/
theorem W10_head (hH : ∀ j, IsReal (val_main_v48 (F := Ideal) (m ((c : Thread nD τ).loc main_arg0)) (m ((c : Thread nD τ).loc main_arg1)) (m ((c : Thread nD τ).loc main_arg3)) (m ((c : Thread nD τ).loc main_arg4)) j)) :
    W10 m ρ c (Proc.devRef .tc main_v96) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W10_v96, W9_v93 m ρ c (W8_proj m ρ c hH), W9_v94, W9_v95]
  rfl

/-- The inputs being finite, every entry of the first convolution's output is real. -/
theorem real_h [hPre_finite_inputs : Cert.Pre_finite_inputs.Facts] (hpre : Cert.Pre_KernelIdeal m) :
    ∀ j, IsReal (val_main_v48 (F := Ideal) (m ((c : Thread nD τ).loc main_arg0)) (m ((c : Thread nD τ).loc main_arg1)) (m ((c : Thread nD τ).loc main_arg3)) (m ((c : Thread nD τ).loc main_arg4)) j) := by
  obtain ⟨h0, h3, h4⟩ := Cert.Bridge.PreReal.real_inputs m hpre c
  exact Cert.Bridge.RealChain.isReal_v48 _ _ _ _ h0 h3 h4

/-- The first result. -/
theorem result0 [hPre_finite_inputs : Cert.Pre_finite_inputs.Facts] (hpre : Cert.Pre_KernelIdeal m) :
    W11 m ρ c (Proc.devRef .tc main_v97) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  W11_v97 m ρ c (W10_head m ρ c (real_h m c hpre))

/-- The second result. -/
theorem result1 [hPre_finite_inputs : Cert.Pre_finite_inputs.Facts] (hpre : Cert.Pre_KernelIdeal m) :
    W11 m ρ c (Proc.devRef .tc main_v98) = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  W11_v98 m ρ c (W10_head m ρ c (real_h m c hpre))

end Cert.KernelIdeal.Bridge

end
-- ==== Proof.lean ====
/-
  The certificate of a graph network's kernel program against its plain reference.

  The program computes two graph convolutions with a batch normalisation between them, a mean pooling by graph and a
  two-layer head. The kernel program runs the four dense parts (two projections, the normalisation with its
  statistics, the head) as five kernel regions and leaves the gather / scatter-add parts to host operations; the
  reference is host operations only. Over the extended reals the two compute the same function of finite inputs:
  every part but one is the same arithmetic in another tiling, and the exception, the variance taken as the mean of
  the squares minus the squared mean (clamped at zero) against the mean of the squared deviations, is one number
  whenever the normalised entries are real, which finite inputs guarantee.

  The three frames: the two kernel programs' are the generated frame proofs; the reference's is its run with the
  results dropped. The idealisation rewrote nothing, so its claim is trivial. The value claim puts the kernel
  program's run (each result at the last boundary's contents) beside the reference's (each result at its stage of
  the arguments) and closes with the equality of those two, boundary by boundary.
-/
import proofs.«160986_j12446815224230_2_alg».proof.Defs
import proofs.«160986_j12446815224230_2_alg».proof.Proof.Gen.Kernel
import proofs.«160986_j12446815224230_2_alg».proof.Proof.Gen.Kernel.Skeleton
import proofs.«160986_j12446815224230_2_alg».proof.Proof.Gen.Kernel.Launch
import proofs.«160986_j12446815224230_2_alg».proof.Proof.Gen.Kernel.Points
import proofs.«160986_j12446815224230_2_alg».proof.Proof.Gen.Kernel.Frame
import proofs.«160986_j12446815224230_2_alg».proof.Proof.Gen.KernelIdeal
import proofs.«160986_j12446815224230_2_alg».proof.Proof.Gen.KernelIdeal.Skeleton
import proofs.«160986_j12446815224230_2_alg».proof.Proof.Gen.KernelIdeal.Launch
import proofs.«160986_j12446815224230_2_alg».proof.Proof.Gen.KernelIdeal.Points
import proofs.«160986_j12446815224230_2_alg».proof.Proof.Gen.KernelIdeal.Frame
import proofs.«160986_j12446815224230_2_alg».proof.Proof.Gen.ReferenceIdeal
import proofs.«160986_j12446815224230_2_alg».proof.Proof.Gen.Pre_finite_inputs
import proofs.«160986_j12446815224230_2_alg».proof.Proof.KernelRun
import proofs.«160986_j12446815224230_2_alg».proof.Proof.RefRunP
import proofs.«160986_j12446815224230_2_alg».proof.Proof.RefRes
import proofs.«160986_j12446815224230_2_alg».proof.Proof.Bridge
import Idealize.ShloMosaic.Adequacy
import Idealize.ShloMosaic.Init

set_option maxRecDepth 16384

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2)
    (Cert.ReferenceIdeal.ValueP.run (F := Ideal) m ρ)

theorem preserves : Cert.preserves_Kernel_KernelIdeal := trivial

/-- Both programs run; the kernel program's results are the last boundary's contents at its two result buffers, the
    reference's are its two last stages of arguments that agree, and those are equal. -/
theorem algebraic : Cert.algebraic_KernelIdeal_ReferenceIdeal := by
  intro m ρ m' ρ' hpre hagree
  refine ⟨fun c => Cert.KernelIdeal.Gen.W11 m ρ c (Proc.devRef .tc Cert.KernelIdeal.main_v97),
    fun c => Cert.KernelIdeal.Gen.W11 m ρ c (Proc.devRef .tc Cert.KernelIdeal.main_v98),
    Cert.KernelIdeal.KRun.run (F := Ideal) m ρ, ?_⟩
  refine (θ_run Cert.ReferenceIdeal.defs _ _).mono (fun r h c => ?_)
    (Cert.ReferenceIdeal.ValueP.run (F := Ideal) m' ρ')
  obtain ⟨h128, h129, hargs⟩ := h c
  obtain ⟨a0, a1, a2, a3, a4, a5, a6, a7, a8, a9, a10, a11, a12⟩ := hagree c
  refine ⟨h128.trans ?_, h129.trans ?_, hargs⟩
  · rw [Cert.ReferenceIdeal.RefRes.val128_eq, a0, a1, a2, a3, a4, a5, a6, a7, a8, a9, a10, a11, a12]
    exact (Cert.KernelIdeal.Bridge.result0 m ρ c hpre).symm
  · rw [Cert.ReferenceIdeal.RefRes.val129_eq, a0, a1, a2, a3, a4, a5, a6, a7, a8, a9, a10, a11, a12]
    exact (Cert.KernelIdeal.Bridge.result1 m ρ c hpre).symm

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
